-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192 : Shape := ⟨1, ![8192]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : IVec S8192 32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  main_v3
-- ==== Kernel.lean ====
abbrev S8192x256 : Shape := ⟨2, ![8192, 256]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S1024x256 : Shape := ⟨2, ![1024, 256]⟩
abbrev S1x1024 : Shape := ⟨2, ![1, 1024]⟩
abbrev S1024x1 : Shape := ⟨2, ![1024, 1]⟩
abbrev S1024x1024 : Shape := ⟨2, ![1024, 1024]⟩
abbrev S1024 : Shape := ⟨1, ![1024]⟩

abbrev nBuf : Space → Nat
  | .hbm => 17
  | .vmem => 13
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x256, .f32⟩
  | .hbm, ⟨11, _⟩ => ⟨S8192x256, .f32⟩
  | .hbm, ⟨12, _⟩ => ⟨S8192x256, .bf16⟩
  | .hbm, ⟨13, _⟩ => ⟨S1x8192, .i32⟩
  | .hbm, ⟨14, _⟩ => ⟨S1x8192, .f32⟩
  | .hbm, ⟨15, _⟩ => ⟨S_, .f32⟩
  | .hbm, ⟨16, _⟩ => ⟨S_, .f32⟩
  | .local _ .vmem, ⟨0, _⟩ => ⟨S1024x256, .bf16⟩
  | .local _ .vmem, ⟨1, _⟩ => ⟨S1024x256, .bf16⟩
  | .local _ .vmem, ⟨2, _⟩ => ⟨S8192x256, .bf16⟩
  | .local _ .vmem, ⟨3, _⟩ => ⟨S1x1024, .i32⟩
  | .local _ .vmem, ⟨4, _⟩ => ⟨S1x1024, .i32⟩
  | .local _ .vmem, ⟨5, _⟩ => ⟨S1x1024, .i32⟩
  | .local _ .vmem, ⟨6, _⟩ => ⟨S1x1024, .i32⟩
  | .local _ .vmem, ⟨7, _⟩ => ⟨S1024x256, .f32⟩
  | .local _ .vmem, ⟨8, _⟩ => ⟨S1024x256, .f32⟩
  | .local _ .vmem, ⟨9, _⟩ => ⟨S1x1024, .f32⟩
  | .local _ .vmem, ⟨10, _⟩ => ⟨S1x1024, .f32⟩
  | .local _ .vmem, ⟨11, _⟩ => ⟨S1024x1, .f32⟩
  | .local _ .vmem, ⟨12, _⟩ => ⟨S1024x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_off1 (i : grid0.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  let c0 : Index := 0#32
  ![v5.toNat, 0]
def k0_cond2 (i : grid0.Coords) : BitVec 1 :=
  let arg1 : BitVec 32 := BitVec.ofNat 32 (i 1).val
  let c7_i32 : BitVec 32 := 7#32
  let v37 : BitVec 1 := Scalar.cmpi .eq arg1 c7_i32
  let v38 : BitVec 32 := Scalar.extui v37
  let c0_i32_19 : BitVec 32 := 0#32
  let v39 : BitVec 1 := Scalar.cmpi .ne v38 c0_i32_19
  v39

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8192x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  bitsLt_bf16_f32 : FTy.bits .bf16 < FTy.bits .f32
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  h_S1024x256 : 0 < S1024x256.numel
  shapeCasts_S1024x256_S1024x256 : S1024x256.ShapeCasts S1024x256
  inb_S1024x256_S1024x256_0_0 : ∀ a, (![0, 0] : Fin 2 → Nat) a + S1024x256.size a ≤ S1024x256.size a
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  transposes_S1x1024_p1_0_S1024x1 : S1x1024.Transposes [1, 0] S1024x1
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  broadcasts_S1024x1_S1024x256 : S1024x1.Broadcasts S1024x256
  reduces_S1024x256_S1024 : S1024x256.Reduces [1] S1024
  transposes_S1024x1_p1_0_S1x1024 : S1024x1.Transposes [1, 0] S1x1024
  reducesTo_S1x8192_S_d0_1 : S1x8192.ReducesTo [0, 1] S_
  dot_S1024x256_S1024x256_S1024x1024_1_1_0_0_n_n_wf : DotDims.WF S1024x256 S1024x256 S1024x1024 [1] [1] [0] [0] [] []
  hrank0 : 0 < grid0.rank
  k0_mult1_dvd : ∀ i : grid0.Coords, 1024 ∣ (k0_mult1 i).toNat
  k0_off1_inb : ∀ i : grid0.Coords, ∀ a, (k0_off1 i) a + S1024x256.size a ≤ S8192x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .bf16 = 32 ∨ (Rect.block (s := S8192x256) S1024x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .bf16 = 32 ∨ (Rect.block (s := S8192x256) S8192x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x8192.size a
  hwx0_2 : ∀ i : grid0.Coords, EltTy.bits .i32 = 32 ∨ (Rect.block (s := S1x8192) S1x1024.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .i32 = 32 ∨ (Rect.block (s := S1x8192) S1x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S8192x256.size a
  hwx0_4 : ∀ i : grid0.Coords, EltTy.bits .f32 = 32 ∨ (Rect.block (s := S8192x256) S1024x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x8192.size a
  hwx0_5 : ∀ i : grid0.Coords, EltTy.bits .f32 = 32 ∨ (Rect.block (s := S1x8192) S1x1024.size (cc0_transform_5 i) (hinb0_5 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_v5) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg0) S1024x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192x256 : Shape := ⟨2, ![8192, 256]⟩
abbrev S8192 : Shape := ⟨1, ![8192]⟩
abbrev S_ : Shape := ⟨0, ![]⟩
abbrev S8192x1 : Shape := ⟨2, ![8192, 1]⟩
abbrev S256x8192 : Shape := ⟨2, ![256, 8192]⟩
abbrev S8192x8192 : Shape := ⟨2, ![8192, 8192]⟩
abbrev S1x8192 : Shape := ⟨2, ![1, 8192]⟩

abbrev nBuf : Space → Nat
  | .hbm => 60
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x256, .f32⟩
  | .hbm, ⟨11, _⟩ => ⟨S8192x256, .f32⟩
  | .hbm, ⟨12, _⟩ => ⟨S256x8192, .f32⟩
  | .hbm, ⟨13, _⟩ => ⟨S8192x8192, .f32⟩
  | .hbm, ⟨14, _⟩ => ⟨S8192x1, .i32⟩
  | .hbm, ⟨15, _⟩ => ⟨S1x8192, .i32⟩
  | .hbm, ⟨16, _⟩ => ⟨S8192x8192, .i32⟩
  | .hbm, ⟨17, _⟩ => ⟨S8192x8192, .i32⟩
  | .hbm, ⟨18, _⟩ => ⟨S8192x8192, .i1⟩
  | .hbm, ⟨19, _⟩ => ⟨S_, .f32⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S_, .f32⟩
  | .hbm, ⟨24, _⟩ => ⟨S8192, .f32⟩
  | .hbm, ⟨25, _⟩ => ⟨S_, .f32⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S8192x256, .f32⟩
  | .hbm, ⟨33, _⟩ => ⟨S8192x256, .f32⟩
  | .hbm, ⟨34, _⟩ => ⟨S_, .f32⟩
  | .hbm, ⟨35, _⟩ => ⟨S8192x256, .f32⟩
  | .hbm, ⟨36, _⟩ => ⟨S8192x256, .f32⟩
  | .hbm, ⟨37, _⟩ => ⟨S8192x256, .f32⟩
  | .hbm, ⟨38, _⟩ => ⟨S_, .f32⟩
  | .hbm, ⟨39, _⟩ => ⟨S8192, .f32⟩
  | .hbm, ⟨40, _⟩ => ⟨S8192, .f32⟩
  | .hbm, ⟨41, _⟩ => ⟨S8192x1, .f32⟩
  | .hbm, ⟨42, _⟩ => ⟨S8192x256, .f32⟩
  | .hbm, ⟨43, _⟩ => ⟨S8192x256, .f32⟩
  | .hbm, ⟨44, _⟩ => ⟨S_, .f32⟩
  | .hbm, ⟨45, _⟩ => ⟨S8192x256, .f32⟩
  | .hbm, ⟨46, _⟩ => ⟨S8192x256, .f32⟩
  | .hbm, ⟨47, _⟩ => ⟨S8192x256, .f32⟩
  | .hbm, ⟨48, _⟩ => ⟨S_, .f32⟩
  | .hbm, ⟨49, _⟩ => ⟨S8192, .f32⟩
  | .hbm, ⟨50, _⟩ => ⟨S8192, .f32⟩
  | .hbm, ⟨51, _⟩ => ⟨S8192, .f32⟩
  | .hbm, ⟨52, _⟩ => ⟨S_, .f32⟩
  | .hbm, ⟨53, _⟩ => ⟨S8192, .f32⟩
  | .hbm, ⟨54, _⟩ => ⟨S8192, .f32⟩
  | .hbm, ⟨55, _⟩ => ⟨S_, .f32⟩
  | .hbm, ⟨56, _⟩ => ⟨S8192, .f32⟩
  | .hbm, ⟨57, _⟩ => ⟨S8192, .f32⟩
  | .hbm, ⟨58, _⟩ => ⟨S_, .f32⟩
  | .hbm, ⟨59, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_call1_v0 : Ref sig .tc := ⟨.hbm, 20, rfl⟩
abbrev main_call1_v1 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_cst_2 : Ref sig .tc := ⟨.hbm, 25, rfl⟩
abbrev main_call2_v0 : Ref sig .tc := ⟨.hbm, 26, rfl⟩
abbrev main_call2_v1 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_call3_v0 : Ref sig .tc := ⟨.hbm, 37, rfl⟩
abbrev main_call3_cst : Ref sig .tc := ⟨.hbm, 38, rfl⟩
abbrev main_call3_v1 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_5 : Ref sig .tc := ⟨.hbm, 44, rfl⟩
abbrev main_v25 : Ref sig .tc := ⟨.hbm, 45, rfl⟩
abbrev main_v26 : Ref sig .tc := ⟨.hbm, 46, rfl⟩
abbrev main_call4_v0 : Ref sig .tc := ⟨.hbm, 47, rfl⟩
abbrev main_call4_cst : Ref sig .tc := ⟨.hbm, 48, rfl⟩
abbrev main_call4_v1 : Ref sig .tc := ⟨.hbm, 49, rfl⟩
abbrev main_v27 : Ref sig .tc := ⟨.hbm, 50, rfl⟩
abbrev main_v28 : Ref sig .tc := ⟨.hbm, 51, rfl⟩
abbrev main_cst_6 : Ref sig .tc := ⟨.hbm, 52, rfl⟩
abbrev main_v29 : Ref sig .tc := ⟨.hbm, 53, rfl⟩
abbrev main_v30 : Ref sig .tc := ⟨.hbm, 54, rfl⟩
abbrev main_cst_7 : Ref sig .tc := ⟨.hbm, 55, rfl⟩
abbrev main_v31 : Ref sig .tc := ⟨.hbm, 56, rfl⟩
abbrev main_v32 : Ref sig .tc := ⟨.hbm, 57, rfl⟩
abbrev main_cst_8 : Ref sig .tc := ⟨.hbm, 58, rfl⟩
abbrev main_v33 : Ref sig .tc := ⟨.hbm, 59, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  transposes_S8192x256_S256x8192_1_0 : S8192x256.Transposes [1, 0] S256x8192
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  bcast_S_S8192x256 : S_.BroadcastsInDim S8192x256 (![] : Fin 0 → Fin S8192x256.rank)
  bcast_S_S8192 : S_.BroadcastsInDim S8192 (![] : Fin 0 → Fin S8192.rank)
  reducesTo_S8192_S_d0 : S8192.ReducesTo [0] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.RefFrame.lean ====
/-
  The reference program is host operations only: its run is read back whole, every result at the
  composed term of the argument arrays, and the arguments end as they began. Dropping the result
  from that run's postcondition leaves exactly the frame claim.
-/
import proofs.«151936_j61710090109327_2_alg».proof.Defs
import proofs.«151936_j61710090109327_2_alg».proof.Proof.Gen.ReferenceIdeal.Read
import proofs.«151936_j61710090109327_2_alg».proof.Proof.Gen.Pre_finite_inputs

noncomputable section

open Idealize.ShloMosaic Idealize.ShloMosaic.TcCoe Idealize.SL.Sem

namespace Cert.Proof.Claims

/-- Every weakly fair execution of the reference terminates without a fault and leaves both argument arrays unchanged. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation, so there is nothing to restate. -/
theorem preserves : Cert.preserves_Kernel_KernelIdeal := trivial

end Cert.Proof.Claims

end
-- ==== Proof.Spec.lean ====
/-
  The hard-mined triplet loss, as one function of the embedding matrix `x` (8192 rows of 256 reals) and the
  labels (8192 words), on the extended reals.

  Each row is divided by its Euclidean norm plus a small constant; the similarity of two rows is the inner
  product of the two normalised rows. For an anchor row `r` the hardest positive is the SMALLEST similarity
  to a row carrying the same label (the anchor itself is one, so the set is never empty) and the hardest
  negative the LARGEST similarity to a row carrying another label (bottom when every row shares the label).
  Each of the two scalars is subtracted from every entry of the anchor's unnormalised row, a small constant
  is added, and the Euclidean norm of the result is taken; the row's loss is the positive distance minus the
  negative one plus the margin one, clipped below at zero, and the result is the sum of the rows' losses.

  The meet over an index set with top as the empty meet, and the join with bottom as the empty join, are the
  lattice operations of the extended reals: no entry needs to be finite for them to make sense, and none of
  the steps that regroup a meet, a join or a sum does either.
-/
import Idealize.ShloMosaic.PureOps.Ideal
import Idealize.ShloMosaic.Lib.ValueIdx

noncomputable section

namespace Cert.Spec

open Idealize.ShloMosaic Idealize.ShloMosaic.ValueIdx
open scoped BigOperators

/-- The embedding matrix's shape and the label vector's. -/
abbrev Mat : Shape := ⟨2, ![8192, 256]⟩
abbrev Lab : Shape := ⟨1, ![8192]⟩

/-- The constant added to a row's norm before dividing, the constant added to every difference, and the margin. -/
def normEps : EReal := Ideal.ofBits .f32 0x2B8CBCCC#32
def diffEps : EReal := Ideal.ofBits .f32 0x358637BD#32
def margin : EReal := Ideal.ofBits .f32 0x3F800000#32

variable (x : Mat.Idx → EReal) (lab : Lab.Idx → BitVec 32)

/-- The Euclidean norm of row `r`. -/
def rowNorm (r : Fin 8192) : EReal := Ideal.sqrt (∑ d : Fin 256, x (ix2 r d) * x (ix2 r d))

/-- Entry `d` of row `r` after normalisation. -/
def unitRow (r : Fin 8192) (d : Fin 256) : EReal := Ideal.div (x (ix2 r d)) (rowNorm x r + normEps)

/-- The similarity of rows `r` and `k`: the inner product of the normalised rows. -/
def sim (r k : Fin 8192) : EReal := ∑ d : Fin 256, unitRow x r d * unitRow x k d

/-- Rows `r` and `k` carry the same label. -/
def sameLabel (r k : Fin 8192) : Prop := lab (ix1 r) = lab (ix1 k)

instance (r k : Fin 8192) : Decidable (sameLabel lab r k) := by unfold sameLabel; infer_instance

/-- The smallest similarity of `r` to a row of its own label. -/
def hardPos (r : Fin 8192) : EReal := Finset.univ.inf fun k : Fin 8192 => if sameLabel lab r k then sim x r k else ⊤

/-- The largest similarity of `r` to a row of another label. -/
def hardNeg (r : Fin 8192) : EReal := Finset.univ.sup fun k : Fin 8192 => if sameLabel lab r k then ⊥ else sim x r k

/-- The norm of row `r` with the scalar `s` subtracted from, and the small constant added to, every entry. -/
def shiftedNorm (r : Fin 8192) (s : EReal) : EReal :=
  Ideal.sqrt (∑ d : Fin 256, ((x (ix2 r d) - s) + diffEps) * ((x (ix2 r d) - s) + diffEps))

/-- Row `r`'s loss. -/
def rowLoss (r : Fin 8192) : EReal :=
  max ((shiftedNorm x r (hardPos x lab r) - shiftedNorm x r (hardNeg x lab r)) + margin) 0

/-- The loss: the sum of the rows' losses. -/
def loss : EReal := ∑ r : Fin 8192, rowLoss x lab r

end Cert.Spec

end
-- ==== Proof.RefValue.lean ====
/-
  The reference program's result is the loss of the specification.

  The reference is a straight line of array operations on the embedding matrix `x` (8192 rows of 256 extended
  reals) and the labels. Read one stage at a time, at explicit coordinates, every stage is one of the
  specification's quantities:

    * the column of row norms plus the small constant, broadcast along the rows: at (r, d), row r's norm plus it;
    * the quotient of the matrix by that array: at (r, d), entry d of the normalised row r;
    * the product of that quotient with its transpose: at (r, k), the sum over d of the products of the
      normalised rows r and k, their similarity;
    * the comparison of the labels broadcast down and across: at (r, k), the bit "rows r and k carry one label";
    * the similarity with top written off the same-label pairs, and with bottom written on them;
    * the minimum of the first along each row and the maximum of the second: each is a fold along the row, started
      at the fold's identity (top for the minimum, bottom for the maximum), and on a linear order such a fold over
      a finite index set is the meet, respectively the join, over it: the hardest positive and the hardest
      negative of row r;
    * the matrix minus such a scalar broadcast over row r, plus the small constant, squared, summed along the row
      and rooted: row r's shifted norm at that scalar;
    * the difference of the two shifted norms plus the margin, clipped below at zero: row r's loss;
    * the sum of that vector: the loss.

  The only moves are reading an operation at an index, deciding the mask's bit by whether the two labels agree,
  dropping the zero a sum starts from, replacing the two words that encode the infinities by top and bottom,
  re-indexing a sum or a fold along a bijection of index sets, and reading a fold of minima from the top as a
  meet (of maxima from the bottom as a join). None of them needs an entry to be finite, so the statement holds
  for every matrix of extended reals and every labelling.
-/
import proofs.«151936_j61710090109327_2_alg».proof.Proof.Gen.ReferenceIdeal.Read
import proofs.«151936_j61710090109327_2_alg».proof.Proof.Spec

noncomputable section

namespace Cert.ReferenceIdeal.RefValue

open Cert.ReferenceIdeal Cert.ReferenceIdeal.Gen Cert.ReferenceIdeal.Read Idealize.ShloMosaic Idealize.ShloMosaic.ValueIdx
open scoped BigOperators

variable (x : (⟨S8192x256, .f32⟩ : BufTy).Contents (Elt Ideal)) (lab : (⟨S8192, .i32⟩ : BufTy).Contents (Elt Ideal))

/-! ## The two infinities -/

/-- The word with an all-ones exponent, a zero significand and a clear sign encodes plus infinity: the top. -/
theorem posInf_eq : Ideal.ofBits .f32 0x7F800000#32 = (⊤ : EReal) := by simp [Ideal.ofBits, Ideal.ieee]

/-- The same word with the sign set encodes minus infinity: the bottom. -/
theorem negInf_eq : Ideal.ofBits .f32 0xFF800000#32 = (⊥ : EReal) := by simp [Ideal.ofBits, Ideal.ieee]

/-! ## Normalised rows and their similarities -/

/-- The array of norms at (r, d) is read through the broadcast along the row, the unit column and the sum's own
    index: the sum's k-th term sits at entry (r, k) of the matrix. -/
theorem e_norm (r : Fin 8192) (d : Fin 256) (k : Fin 256) :
    idx_main_call0_v1 (idx_main_call0_v2 (idx_main_v3 (ix2 r d))) k = ix2 r k :=
  funext fun a => Fin.ext (by match a with | ⟨0, _⟩ => rfl | ⟨1, _⟩ => rfl)

/-- At every entry (r, d) the divisor is row r's Euclidean norm plus the small constant: the sum of the squares
    starts from zero, which drops. -/
theorem v3_eq (r : Fin 8192) (d : Fin 256) :
    val_main_v3 (F := Ideal) x (ix2 r d) = Cert.Spec.rowNorm x r + Cert.Spec.normEps := by
  rw [val_main_v3_apply, val_main_v2_apply, val_main_v0_apply, val_main_call0_v2_apply, val_main_call0_v1_apply,
    val_main_v1_apply, val_main_cst_apply, val_main_call0_cst_apply]
  simp only [e_norm, val_main_call0_v0_apply, Ideal.addf_def, Ideal.mulf_def, Ideal.hostUnary_sqrt_def, Ideal.ofBits_def,
    Ideal.ofBits_zero_f32, zero_add]
  rfl

/-- The quotient at (r, d) is entry d of the normalised row r. -/
theorem v4_eq (r : Fin 8192) (d : Fin 256) :
    val_main_v4 (F := Ideal) x (ix2 r d) = Cert.Spec.unitRow x r d := by
  rw [val_main_v4_apply, v3_eq, Ideal.hostDivf_def]
  rfl

/-- The left factor of the d-th term of the product's entry (r, k) is read at (r, d) … -/
theorem e_simL (r k : Fin 8192) (d : Fin 256) : lidx_main_v6 (ix2 r k) d = ix2 r d :=
  funext fun a => Fin.ext (by match a with | ⟨0, _⟩ => rfl | ⟨1, _⟩ => rfl)

/-- … and the right factor, read through the transpose, at (k, d). -/
theorem e_simR (r k : Fin 8192) (d : Fin 256) : idx_main_v5 (ridx_main_v6 (ix2 r k) d) = ix2 k d :=
  funext fun a => Fin.ext (by match a with | ⟨0, _⟩ => rfl | ⟨1, _⟩ => rfl)

/-- Entry (r, k) of the product of the normalised matrix with its transpose is the similarity of rows r and k:
    the sum over d of the products of their normalised entries. -/
theorem v6_eq (r k : Fin 8192) : val_main_v6 (F := Ideal) x (ix2 r k) = Cert.Spec.sim x r k := by
  rw [val_main_v6_apply]
  simp only [val_main_v5_apply, e_simL, e_simR, v4_eq]
  rfl

/-! ## The label mask and the two masked arrays -/

/-- The labels broadcast down the columns are read at (r, k) at row r … -/
theorem e_labL (r k : Fin 8192) : idx_main_v7 (idx_main_v9 (ix2 r k)) = ix1 r :=
  funext fun a => Fin.ext (by match a with | ⟨0, _⟩ => rfl)

/-- … and the labels broadcast across the rows at row k. -/
theorem e_labR (r k : Fin 8192) : idx_main_v8 (idx_main_v10 (ix2 r k)) = ix1 k :=
  funext fun a => Fin.ext (by match a with | ⟨0, _⟩ => rfl)

/-- The mask at (r, k) is the comparison of row r's label with row k's. -/
theorem v11_eq (r k : Fin 8192) :
    val_main_v11 (F := Ideal) lab (ix2 r k) = IntOp.cmpi .eq (lab (ix1 r)) (lab (ix1 k)) := by
  rw [val_main_v11_apply, val_main_v9_apply, val_main_v7_apply, val_main_v10_apply, val_main_v8_apply, e_labL, e_labR]

/-- The first masked array at (r, k): the similarity where the two rows share a label, top elsewhere. The
    comparison's bit is one exactly when the labels are equal, and a one-bit word that is not one is zero. -/
theorem v12_eq (r k : Fin 8192) :
    val_main_v12 (F := Ideal) x lab (ix2 r k) = if Cert.Spec.sameLabel lab r k then Cert.Spec.sim x r k else ⊤ := by
  rw [val_main_v12_apply, v11_eq, v6_eq, val_main_call1_v1_apply, val_main_call1_v0_apply, val_main_cst_0_apply,
    Ideal.ofBits_def, posInf_eq]
  by_cases h : Cert.Spec.sameLabel lab r k
  · rw [if_pos h, IntOp.cmpi_eq.2 h, select_one]
  · rw [if_neg h, eq_zero_of_ne_one (fun e => h (IntOp.cmpi_eq.1 e)), select_zero]

/-- The second masked array at (r, k): bottom where the two rows share a label, the similarity elsewhere. -/
theorem v14_eq (r k : Fin 8192) :
    val_main_v14 (F := Ideal) x lab (ix2 r k) = if Cert.Spec.sameLabel lab r k then ⊥ else Cert.Spec.sim x r k := by
  rw [val_main_v14_apply, v11_eq, v6_eq, val_main_call2_v1_apply, val_main_call2_v0_apply, val_main_cst_2_apply,
    Ideal.ofBits_def, negInf_eq]
  by_cases h : Cert.Spec.sameLabel lab r k
  · rw [if_pos h, IntOp.cmpi_eq.2 h, select_one]
  · rw [if_neg h, eq_zero_of_ne_one (fun e => h (IntOp.cmpi_eq.1 e)), select_zero]

/-! ## A fold of minima from the top is a meet, a fold of maxima from the bottom a join -/

/-- On a linear order with a top, folding `min` from the top over a finite index set is the meet over it: both
    are the top on the empty set and take the minimum with the new entry when an index is added. -/
theorem fold_min_top_eq_inf {ι α : Type*} [LinearOrder α] [OrderTop α] (s : Finset ι) (f : ι → α) :
    s.fold min ⊤ f = s.inf f := by
  classical
  induction s using Finset.induction_on with
  | empty => simp
  | insert a s ha ih => rw [Finset.fold_insert ha, Finset.inf_insert, ih]

/-- On a linear order with a bottom, folding `max` from the bottom over a finite index set is the join over it. -/
theorem fold_max_bot_eq_sup {ι α : Type*} [LinearOrder α] [OrderBot α] (s : Finset ι) (f : ι → α) :
    s.fold max ⊥ f = s.sup f := by
  classical
  induction s using Finset.induction_on with
  | empty => simp
  | insert a s ha ih => rw [Finset.fold_insert ha, Finset.sup_insert, ih]

/-! ## The hardest positive and the hardest negative -/

/-- The index of the reduced vector at row r with coordinate k put back on the reduced axis is entry (r, k) of
    the square array. -/
theorem lift_row (h : S8192x8192.Reduces [1] S8192) (r : Fin 8192) (k : Fin (S8192x8192.size 1)) :
    h.lift (ix1 r) k = ix2 r (⟨k.val, k.isLt⟩ : Fin 8192) := by
  funext c; apply Fin.ext
  fin_cases c <;> rfl

/-- The minimum along row r of the first masked array, taken from plus infinity, is the hardest positive of row
    r: the reduction with a commutative and associative body is the fold over the row's coordinates from the
    initial value, here `min` from the top, which is the meet over them. -/
theorem v13_eq (r : Fin 8192) : val_main_v13 (F := Ideal) x lab (ix1 r) = Cert.Spec.hardPos x lab r := by
  have h : S8192x8192.Reduces [1] S8192 := by decide
  unfold val_main_v13
  rw [Host.reduce_eq_fold_single FloatOps.minimumf _ _ reducesTo_S8192x8192_S8192_d1 h h_S_, val_main_cst_1_apply,
    Ideal.ofBits_def, posInf_eq]
  have hf : (val_main_v12 (F := Ideal) x lab ∘ h.lift (ix1 r))
      = fun k : Fin 8192 => if Cert.Spec.sameLabel lab r k then Cert.Spec.sim x r k else ⊤ :=
    funext fun k => (congrArg (val_main_v12 (F := Ideal) x lab) (lift_row h r k)).trans (v12_eq x lab r _)
  refine (congrArg (fun f => Finset.fold min (⊤ : EReal) f (Finset.univ : Finset (Fin 8192))) hf).trans ?_
  exact fold_min_top_eq_inf _ _

/-- The maximum along row r of the second masked array, taken from minus infinity, is the hardest negative of
    row r: `max` folded from the bottom is the join over the row's coordinates. -/
theorem v15_eq (r : Fin 8192) : val_main_v15 (F := Ideal) x lab (ix1 r) = Cert.Spec.hardNeg x lab r := by
  have h : S8192x8192.Reduces [1] S8192 := by decide
  unfold val_main_v15
  rw [Host.reduce_eq_fold_single FloatOps.maximumf _ _ reducesTo_S8192x8192_S8192_d1 h h_S_, val_main_cst_3_apply,
    Ideal.ofBits_def, negInf_eq]
  have hf : (val_main_v14 (F := Ideal) x lab ∘ h.lift (ix1 r))
      = fun k : Fin 8192 => if Cert.Spec.sameLabel lab r k then ⊥ else Cert.Spec.sim x r k :=
    funext fun k => (congrArg (val_main_v14 (F := Ideal) x lab) (lift_row h r k)).trans (v14_eq x lab r _)
  refine (congrArg (fun f => Finset.fold max (⊥ : EReal) f (Finset.univ : Finset (Fin 8192))) hf).trans ?_
  exact fold_max_bot_eq_sup _ _

/-! ## The shifted norms, the row's loss and the total -/

/-- The hardest positive reaches entry (r, d) through its two broadcasts from row r … -/
theorem e_pos (r : Fin 8192) (d : Fin 256) : idx_main_v16 (idx_main_v17 (ix2 r d)) = ix1 r :=
  funext fun a => Fin.ext (by match a with | ⟨0, _⟩ => rfl)

/-- … and so does the hardest negative. -/
theorem e_neg (r : Fin 8192) (d : Fin 256) : idx_main_v22 (idx_main_v23 (ix2 r d)) = ix1 r :=
  funext fun a => Fin.ext (by match a with | ⟨0, _⟩ => rfl)

/-- The k-th term of the sum along row r of the first squared array sits at (r, k) … -/
theorem e_sumP (r : Fin 8192) (k : Fin 256) : idx_main_call3_v1 (ix1 r) k = ix2 r k :=
  funext fun a => Fin.ext (by match a with | ⟨0, _⟩ => rfl | ⟨1, _⟩ => rfl)

/-- … and of the second. -/
theorem e_sumN (r : Fin 8192) (k : Fin 256) : idx_main_call4_v1 (ix1 r) k = ix2 r k :=
  funext fun a => Fin.ext (by match a with | ⟨0, _⟩ => rfl | ⟨1, _⟩ => rfl)

/-- Entry (r, d) of the matrix minus row r's hardest positive, plus the small constant. -/
theorem v20_eq (r : Fin 8192) (d : Fin 256) :
    val_main_v20 (F := Ideal) x lab (ix2 r d) = (x (ix2 r d) - Cert.Spec.hardPos x lab r) + Cert.Spec.diffEps := by
  rw [val_main_v20_apply, val_main_v18_apply, val_main_v17_apply, val_main_v16_apply, e_pos, v13_eq,
    val_main_v19_apply, val_main_cst_4_apply, Ideal.addf_def, Ideal.subf_def, Ideal.ofBits_def]
  rfl

/-- Entry (r, d) of the matrix minus row r's hardest negative, plus the small constant. -/
theorem v26_eq (r : Fin 8192) (d : Fin 256) :
    val_main_v26 (F := Ideal) x lab (ix2 r d) = (x (ix2 r d) - Cert.Spec.hardNeg x lab r) + Cert.Spec.diffEps := by
  rw [val_main_v26_apply, val_main_v24_apply, val_main_v23_apply, val_main_v22_apply, e_neg, v15_eq,
    val_main_v25_apply, val_main_cst_5_apply, Ideal.addf_def, Ideal.subf_def, Ideal.ofBits_def]
  rfl

/-- The positive distance of row r: the root of the sum, from zero, of the squares of those entries is row r's
    norm shifted by its hardest positive. -/
theorem v21_eq (r : Fin 8192) :
    val_main_v21 (F := Ideal) x lab (ix1 r) = Cert.Spec.shiftedNorm x r (Cert.Spec.hardPos x lab r) := by
  rw [val_main_v21_apply, val_main_call3_v1_apply, val_main_call3_cst_apply]
  simp only [e_sumP, val_main_call3_v0_apply, v20_eq, Ideal.mulf_def, Ideal.hostUnary_sqrt_def, Ideal.ofBits_def,
    Ideal.ofBits_zero_f32, zero_add]
  rfl

/-- The negative distance of row r: its norm shifted by its hardest negative. -/
theorem v27_eq (r : Fin 8192) :
    val_main_v27 (F := Ideal) x lab (ix1 r) = Cert.Spec.shiftedNorm x r (Cert.Spec.hardNeg x lab r) := by
  rw [val_main_v27_apply, val_main_call4_v1_apply, val_main_call4_cst_apply]
  simp only [e_sumN, val_main_call4_v0_apply, v26_eq, Ideal.mulf_def, Ideal.hostUnary_sqrt_def, Ideal.ofBits_def,
    Ideal.ofBits_zero_f32, zero_add]
  rfl

/-- Row r's loss: the positive distance minus the negative one plus the margin, clipped below at zero. -/
theorem v32_eq (r : Fin 8192) : val_main_v32 (F := Ideal) x lab (ix1 r) = Cert.Spec.rowLoss x lab r := by
  rw [val_main_v32_apply, val_main_v30_apply, val_main_v28_apply, v21_eq, v27_eq, val_main_v29_apply, val_main_cst_6_apply,
    val_main_v31_apply, val_main_cst_7_apply, Ideal.maximumf_def, Ideal.addf_def, Ideal.subf_def, Ideal.ofBits_def,
    Ideal.ofBits_def, Ideal.ofBits_zero_f32]
  rfl

/-- A rank-1 index set is its one coordinate's range. -/
def idxEquiv1 {n : Nat} : (⟨1, ![n]⟩ : Shape).Idx ≃ Fin n where
  toFun i := i 0
  invFun := ix1
  left_inv i := (eq_ix1 i).symm
  right_inv _ := rfl

/-- THE REFERENCE'S VALUE. Its one result element is the loss: the sum, from zero, of the vector of row losses
    over its indices, re-indexed by the row. -/
theorem ref_eq_loss : val_main_v33 (F := Ideal) x lab = fun _ => Cert.Spec.loss x lab := by
  funext i
  rw [val_main_v33_apply, val_main_cst_8_apply, Ideal.ofBits_def, Ideal.ofBits_zero_f32, zero_add]
  refine (Equiv.sum_comp (idxEquiv1 (n := 8192)).symm (val_main_v32 (F := Ideal) x lab)).symm.trans ?_
  exact Finset.sum_congr rfl fun r _ => v32_eq x lab r

end Cert.ReferenceIdeal.RefValue

end
-- ==== Proof.BRuns.lean ====
/-
  (The program as printed, read at machine words: the statements below hold at any reading of the floats, and this copy
  is the one about the word-level program.)

  The kernel body, run once for each way its two conditionals can fall on the 8 x 8 grid.

  A grid point is a pair (i, j): a block of 1024 query rows and a tile of 1024 key rows. The body keeps two
  columns of 1024 numbers between points, a running minimum and a running maximum. At j = 0 it first resets
  them to plus and minus infinity; at every point it folds in the tile's masked row minima and maxima; at
  j = 7 it also turns the two finished columns and the query block's unnormalised rows into the block's 1024
  row losses and stores them. So three cases occur: the first key tile, a middle one, the last one. Each run
  below says: from the five input buffers at given contents, the output buffer at anything, and the two
  columns at given contents (at anything when the case resets them first), the body terminates without a
  fault, returns the inputs as they were, and leaves in the output buffer and in each column a list of
  written pieces, which the run itself finds.
-/
import proofs.«151936_j61710090109327_2_alg».proof.Proof.Gen.Kernel.Launch
import proofs.«151936_j61710090109327_2_alg».proof.Proof.Gen.Kernel.Skeleton
import proofs.«151936_j61710090109327_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Tri

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, decided over the grid -/

/-- The first conditional's test: the key-tile coordinate is zero. -/
abbrev condFirst (i : grid0.Coords) : Prop := (Scalar.cmpi .ne (Scalar.extui (Scalar.cmpi .eq (BitVec.ofNat 32 (i 1).val) 0#32)) 0#32) = 1#1
/-- It holds at the points that open a query block: those numbered 0 mod 8. -/
theorem hcondFirst : ∀ t : Fin cfg0.N, condFirst (grid0.coords t) ↔ t.val % 8 = 0 :=
  (by decide +kernel : ∀ t : Fin grid0.N, condFirst (grid0.coords t) ↔ t.val % 8 = 0)

/-- The second conditional's test: the key-tile coordinate is the last one. -/
abbrev condLast (i : grid0.Coords) : Prop := k0_cond2 i = 1#1
/-- It holds at the points that close a query block: those numbered 7 mod 8. -/
theorem hcondLast : ∀ t : Fin cfg0.N, condLast (grid0.coords t) ↔ t.val % 8 = 7 :=
  (by decide +kernel : ∀ t : Fin grid0.N, condLast (grid0.coords t) ↔ t.val % 8 = 7)

/-! ## The three runs -/

set_option maxHeartbeats 1000000 in
/-- The first key tile of a query block: both columns are reset before they are read, so they may hold anything
    on entry; the output buffer is not touched and comes back as it was given. -/
noncomputable def runFirst (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1x1024 .i32) (harg4 : arg4.IsWhole) (arg5 : Memref sig .tc .vmem S1x1024 .i32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (hc0 : condFirst i) (hc1 : ¬condLast i)
    (x2 : Vec F S1024x256 .bf16) (x3 : Vec F S8192x256 .bf16) (x4 x5 : Vec F S1x1024 .i32) (x6 : Vec F S1024x256 .f32) :
    Σ' (L7 : List (View.Piece (Elt F) S1x1024 .f32)) (LS8 : List (View.Piece (Elt F) S1024x1 .f32)), { LS9 : List (View.Piece (Elt F) S1024x1 .f32) //
      ∀ (xi7 : Vec F S1x1024 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare xi7 ∗ (∃ d, owns (c : Thread nD τ) arg8 fullShare d) ∗ (∃ d, owns (c : Thread nD τ) arg9 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
                ∗ owns (c : Thread nD τ) arg7 fullShare xi7
                ∗ (∃ f, arg8.view.loc (c : Thread nD τ) ↦[arg8.view.set]{fullShare} arg8.view.writes (Elt F) f LS8)
                ∗ (∃ f, arg9.view.loc (c : Thread nD τ) ↦[arg9.view.set]{fullShare} arg9.view.writes (Elt F) f LS9)) -∗ K ⟨⟩))
          ⊢ wp frame (wpE (defs₀ (F := F)) Variants.none c none) E (cc0__mine_kernel i arg2 harg2 arg3 harg3 arg4 harg4 arg5 harg5 arg6 harg6 arg7 harg7 arg8 harg8 arg9 harg9) K } := by
  refine ⟨[], ?_, ?_, fun xi7 E K => ?run⟩
  case run =>
    simp only [cc0__mine_kernel_eq_skeleton]; unfold cc0__mine_kernel_skel
    simp only [k0_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %fs8, -, HS8⟩, ⟨%d9, %fs9, -, HS9⟩, Hk⟩
    obtain rfl := harg2.eq_unread hf2; obtain rfl := harg3.eq_unread hf3; obtain rfl := harg4.eq_unread hf4; obtain rfl := harg5.eq_unread hf5
    obtain rfl := harg6.eq_unread hf6; obtain rfl := harg7.eq_unread hf7
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [HS8]; · iexists _; iexact HS8
    iexists _; iexact HS9

set_option maxHeartbeats 1000000 in
/-- A middle key tile: the columns come in at what the previous point left and go out with this tile folded in;
    the output buffer is not touched and comes back as it was given. -/
noncomputable def runMid (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1x1024 .i32) (harg4 : arg4.IsWhole) (arg5 : Memref sig .tc .vmem S1x1024 .i32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (hc0 : ¬condFirst i) (hc1 : ¬condLast i)
    (x2 : Vec F S1024x256 .bf16) (x3 : Vec F S8192x256 .bf16) (x4 x5 : Vec F S1x1024 .i32) (x6 : Vec F S1024x256 .f32) (xs8 xs9 : Vec F S1024x1 .f32) :
    Σ' (L7 : List (View.Piece (Elt F) S1x1024 .f32)) (LS8 : List (View.Piece (Elt F) S1024x1 .f32)), { LS9 : List (View.Piece (Elt F) S1024x1 .f32) //
      ∀ (xi7 : Vec F S1x1024 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare xi7 ∗ owns (c : Thread nD τ) arg8 fullShare xs8 ∗ owns (c : Thread nD τ) arg9 fullShare xs9
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
                ∗ owns (c : Thread nD τ) arg7 fullShare xi7
                ∗ (∃ f, arg8.view.loc (c : Thread nD τ) ↦[arg8.view.set]{fullShare} arg8.view.writes (Elt F) f LS8)
                ∗ (∃ f, arg9.view.loc (c : Thread nD τ) ↦[arg9.view.set]{fullShare} arg9.view.writes (Elt F) f LS9)) -∗ K ⟨⟩))
          ⊢ wp frame (wpE (defs₀ (F := F)) Variants.none c none) E (cc0__mine_kernel i arg2 harg2 arg3 harg3 arg4 harg4 arg5 harg5 arg6 harg6 arg7 harg7 arg8 harg8 arg9 harg9) K } := by
  refine ⟨[], ?_, ?_, fun xi7 E K => ?run⟩
  case run =>
    simp only [cc0__mine_kernel_eq_skeleton]; unfold cc0__mine_kernel_skel
    simp only [k0_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%fs8, %hfs8, HS8⟩, ⟨%fs9, %hfs9, HS9⟩, Hk⟩
    obtain rfl := harg2.eq_unread hf2; obtain rfl := harg3.eq_unread hf3; obtain rfl := harg4.eq_unread hf4; obtain rfl := harg5.eq_unread hf5
    obtain rfl := harg6.eq_unread hf6; obtain rfl := harg7.eq_unread hf7; obtain rfl := harg8.eq_unread hfs8; obtain rfl := harg9.eq_unread hfs9
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [HS8]; · iexists _; iexact HS8
    iexists _; iexact HS9

set_option maxHeartbeats 1000000 in
/-- The last key tile: the columns are folded once more, read back, and the block's row losses are stored into
    the output buffer, which may hold anything on entry. -/
noncomputable def runLast (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1x1024 .i32) (harg4 : arg4.IsWhole) (arg5 : Memref sig .tc .vmem S1x1024 .i32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (hc0 : ¬condFirst i) (hc1 : condLast i)
    (x2 : Vec F S1024x256 .bf16) (x3 : Vec F S8192x256 .bf16) (x4 x5 : Vec F S1x1024 .i32) (x6 : Vec F S1024x256 .f32) (xs8 xs9 : Vec F S1024x1 .f32) :
    Σ' (L7 : List (View.Piece (Elt F) S1x1024 .f32)) (LS8 : List (View.Piece (Elt F) S1024x1 .f32)), { LS9 : List (View.Piece (Elt F) S1024x1 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ (∃ d, owns (c : Thread nD τ) arg7 fullShare d) ∗ owns (c : Thread nD τ) arg8 fullShare xs8 ∗ owns (c : Thread nD τ) arg9 fullShare xs9
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
                ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f LS8)
                ∗ (∃ f, arg9.view.loc (c : Thread nD τ) ↦[arg9.view.set]{fullShare} arg9.view.writes (Elt F) f LS9)) -∗ K ⟨⟩))
          ⊢ wp frame (wpE (defs₀ (F := F)) Variants.none c none) E (cc0__mine_kernel i arg2 harg2 arg3 harg3 arg4 harg4 arg5 harg5 arg6 harg6 arg7 harg7 arg8 harg8 arg9 harg9) K } := by
  refine ⟨?_, ?_, ?_, fun E K => ?run⟩
  case run =>
    simp only [cc0__mine_kernel_eq_skeleton]; unfold cc0__mine_kernel_skel
    simp only [k0_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%fs8, %hfs8, HS8⟩, ⟨%fs9, %hfs9, HS9⟩, Hk⟩
    obtain rfl := harg2.eq_unread hf2; obtain rfl := harg3.eq_unread hf3; obtain rfl := harg4.eq_unread hf4; obtain rfl := harg5.eq_unread hf5
    obtain rfl := harg6.eq_unread hf6; obtain rfl := harg8.eq_unread hfs8; obtain rfl := harg9.eq_unread hfs9
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [HS8]; · iexists _; iexact HS8
    iexists _; iexact HS9

end Cert.Kernel.Tri

end
-- ==== Proof.BData.lean ====
/-
  (The program as printed, read at machine words: the statements below hold at any reading of the floats, and this copy
  is the one about the word-level program.)

  The proof data of the kernel's one pipeline, first half: what the region finds and what its buffers are.

  The host lines before the region normalise the rows and reshape the labels, so the arrays behind the six
  windows hold, when the region is entered, the normalised rows (behind the query-block window AND the
  resident key window), the labels as one row (behind the query-label AND the key-label window), the
  unnormalised rows, and the result array. A window's block at a grid point is the part of its array that the
  point's index selects. Every input window's staging buffer holds that block whenever the body runs,
  fetched at that point or carried over from the point before.
-/
import proofs.«151936_j61710090109327_2_alg».proof.Proof.Gen.Kernel.Launch
import proofs.«151936_j61710090109327_2_alg».proof.Proof.Gen.Kernel.Skeleton
import proofs.«151936_j61710090109327_2_alg».proof.Proof.Gen.Kernel.Points
import proofs.«151936_j61710090109327_2_alg».proof.Proof.BRuns
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Tri

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays as the region finds them, and the windows' blocks -/

/-- Core `c`'s buffer contents when the region is entered: the launch memory after the two stretches of host
    operations that precede it (the row norms; the division, the conversion and the reshape). -/
abbrev V0 (c : Dev nD) : Valuation τ sig (Elt F) := StableHlo.after (List.flatten [hostOps0, hostOps0_1]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the point fetches it or not:
    where it is not fetched the block index has not moved since the last fetch and the body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, whether the point fetches it or not:
    where it is not fetched the block index has not moved since the last fetch and the body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, whether the point fetches it or not:
    where it is not fetched the block index has not moved since the last fetch and the body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, whether the point fetches it or not:
    where it is not fetched the block index has not moved since the last fetch and the body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, whether the point fetches it or not:
    where it is not fetched the block index has not moved since the last fetch and the body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The buffers the body is called with -/

/-- Each window's current staging memref at point `t`, as the pipeline passes it, and its wholeness. -/
abbrev ms0 (t : Fin cfg0.N) : Memref sig .tc .vmem S1024x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S8192x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1024 .f32 := win0_5.stage (cfg0.slots t 5)
abbrev hs5 (t : Fin cfg0.N) : (ms5 t).IsWhole := hstage0_5 ((cfg0.slots t 5).cast nbuf0_5)
/-- The two columns the kernel keeps between points: whole scoped buffers of its own. -/
abbrev colMin : Memref sig .tc .vmem S1024x1 .f32 := Memref.whole cc0_scratch0
abbrev colMax : Memref sig .tc .vmem S1024x1 .f32 := Memref.whole cc0_scratch1
/-- One view through which each buffer's contents are stated (any view of the shape would do: a covering list of
    writes reads back the same through every view). -/
abbrev viewOut : View sig .tc .vmem S1x1024 .f32 := (Memref.whole cc0_stg5_0 : Memref sig .tc .vmem S1x1024 .f32).view
abbrev viewMin : View sig .tc .vmem S1024x1 .f32 := colMin.view
abbrev viewMax : View sig .tc .vmem S1024x1 .f32 := colMax.view

/-- What the launch hands the region besides the windows: the two columns at some contents and the generator
    register at some state. -/
theorem PhiA_eq (c : Dev nD) :
    (Pipeline.ΦA spec0 c : sProp 𝕄)
      = iprop(iprop((∃ d, owns (c : Thread nD τ) colMin fullShare d) ∗ (∃ d, owns (c : Thread nD τ) colMax fullShare d)) ∗ (∃ r, prngReg c r)) := by
  unfold Pipeline.ΦA; rw [scopedRest0_eq]; simp only [colMin, colMax, owns_whole]; try rfl

/-! ## What each case leaves: the pieces cover their buffers, so they read back the same through any view -/

/-- At the first key tile the pieces written into the minimum column tile it (one whole-column store is the last of them), so they cover it. -/
theorem coverMin_First (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1x1024 .i32) (harg4 : arg4.IsWhole) (arg5 : Memref sig .tc .vmem S1x1024 .i32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (hc0 : condFirst i) (hc1 : ¬condLast i)
    (x2 : Vec F S1024x256 .bf16) (x3 : Vec F S8192x256 .bf16) (x4 x5 : Vec F S1x1024 .i32) (x6 : Vec F S1024x256 .f32) (y : S1024x1.Idx) :
    ∃ pc ∈ (runFirst c i arg2 harg2 arg3 harg3 arg4 harg4 arg5 harg5 arg6 harg6 arg7 harg7 arg8 harg8 arg9 harg9 hc0 hc1 x2 x3 x4 x5 x6).2.1, y ∈ pc.1.set :=
  View.cover_of_tiledL (runFirst c i arg2 harg2 arg3 harg3 arg4 harg4 arg5 harg5 arg6 harg6 arg7 harg7 arg8 harg8 arg9 harg9 hc0 hc1 x2 x3 x4 x5 x6).2.1 S1024x1.size (by sl_kernel_rfl) y
/-- What the first key tile leaves in the minimum column: its pieces read back. -/
def colMin_First (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1x1024 .i32) (harg4 : arg4.IsWhole) (arg5 : Memref sig .tc .vmem S1x1024 .i32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (hc0 : condFirst i) (hc1 : ¬condLast i)
    (x2 : Vec F S1024x256 .bf16) (x3 : Vec F S8192x256 .bf16) (x4 x5 : Vec F S1x1024 .i32) (x6 : Vec F S1024x256 .f32) : Vec F S1024x1 .f32 :=
  viewMin.read (Elt F) (viewMin.writes (Elt F) viewMin.junk (runFirst c i arg2 harg2 arg3 harg3 arg4 harg4 arg5 harg5 arg6 harg6 arg7 harg7 arg8 harg8 arg9 harg9 hc0 hc1 x2 x3 x4 x5 x6).2.1)
/-- The same for the maximum column. -/
theorem coverMax_First (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1x1024 .i32) (harg4 : arg4.IsWhole) (arg5 : Memref sig .tc .vmem S1x1024 .i32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (hc0 : condFirst i) (hc1 : ¬condLast i)
    (x2 : Vec F S1024x256 .bf16) (x3 : Vec F S8192x256 .bf16) (x4 x5 : Vec F S1x1024 .i32) (x6 : Vec F S1024x256 .f32) (y : S1024x1.Idx) :
    ∃ pc ∈ (runFirst c i arg2 harg2 arg3 harg3 arg4 harg4 arg5 harg5 arg6 harg6 arg7 harg7 arg8 harg8 arg9 harg9 hc0 hc1 x2 x3 x4 x5 x6).2.2.1, y ∈ pc.1.set :=
  View.cover_of_tiledL (runFirst c i arg2 harg2 arg3 harg3 arg4 harg4 arg5 harg5 arg6 harg6 arg7 harg7 arg8 harg8 arg9 harg9 hc0 hc1 x2 x3 x4 x5 x6).2.2.1 S1024x1.size (by sl_kernel_rfl) y
def colMax_First (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1x1024 .i32) (harg4 : arg4.IsWhole) (arg5 : Memref sig .tc .vmem S1x1024 .i32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (hc0 : condFirst i) (hc1 : ¬condLast i)
    (x2 : Vec F S1024x256 .bf16) (x3 : Vec F S8192x256 .bf16) (x4 x5 : Vec F S1x1024 .i32) (x6 : Vec F S1024x256 .f32) : Vec F S1024x1 .f32 :=
  viewMax.read (Elt F) (viewMax.writes (Elt F) viewMax.junk (runFirst c i arg2 harg2 arg3 harg3 arg4 harg4 arg5 harg5 arg6 harg6 arg7 harg7 arg8 harg8 arg9 harg9 hc0 hc1 x2 x3 x4 x5 x6).2.2.1)
/-- What the first key tile leaves in the output buffer is nothing of its own (no piece): a placeholder nothing consults, the window being idle there and not written back. -/
def out_First (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1x1024 .i32) (harg4 : arg4.IsWhole) (arg5 : Memref sig .tc .vmem S1x1024 .i32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (hc0 : condFirst i) (hc1 : ¬condLast i)
    (x2 : Vec F S1024x256 .bf16) (x3 : Vec F S8192x256 .bf16) (x4 x5 : Vec F S1x1024 .i32) (x6 : Vec F S1024x256 .f32) : Vec F S1x1024 .f32 :=
  viewOut.read (Elt F) (viewOut.writes (Elt F) viewOut.junk (runFirst c i arg2 harg2 arg3 harg3 arg4 harg4 arg5 harg5 arg6 harg6 arg7 harg7 arg8 harg8 arg9 harg9 hc0 hc1 x2 x3 x4 x5 x6).1)

/-- At a middle key tile the pieces written into the minimum column tile it (one whole-column store is the last of them), so they cover it. -/
theorem coverMin_Mid (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1x1024 .i32) (harg4 : arg4.IsWhole) (arg5 : Memref sig .tc .vmem S1x1024 .i32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (hc0 : ¬condFirst i) (hc1 : ¬condLast i)
    (x2 : Vec F S1024x256 .bf16) (x3 : Vec F S8192x256 .bf16) (x4 x5 : Vec F S1x1024 .i32) (x6 : Vec F S1024x256 .f32) (xs8 xs9 : Vec F S1024x1 .f32) (y : S1024x1.Idx) :
    ∃ pc ∈ (runMid c i arg2 harg2 arg3 harg3 arg4 harg4 arg5 harg5 arg6 harg6 arg7 harg7 arg8 harg8 arg9 harg9 hc0 hc1 x2 x3 x4 x5 x6 xs8 xs9).2.1, y ∈ pc.1.set :=
  View.cover_of_tiledL (runMid c i arg2 harg2 arg3 harg3 arg4 harg4 arg5 harg5 arg6 harg6 arg7 harg7 arg8 harg8 arg9 harg9 hc0 hc1 x2 x3 x4 x5 x6 xs8 xs9).2.1 S1024x1.size (by sl_kernel_rfl) y
/-- What a middle key tile leaves in the minimum column: its pieces read back. -/
def colMin_Mid (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1x1024 .i32) (harg4 : arg4.IsWhole) (arg5 : Memref sig .tc .vmem S1x1024 .i32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (hc0 : ¬condFirst i) (hc1 : ¬condLast i)
    (x2 : Vec F S1024x256 .bf16) (x3 : Vec F S8192x256 .bf16) (x4 x5 : Vec F S1x1024 .i32) (x6 : Vec F S1024x256 .f32) (xs8 xs9 : Vec F S1024x1 .f32) : Vec F S1024x1 .f32 :=
  viewMin.read (Elt F) (viewMin.writes (Elt F) viewMin.junk (runMid c i arg2 harg2 arg3 harg3 arg4 harg4 arg5 harg5 arg6 harg6 arg7 harg7 arg8 harg8 arg9 harg9 hc0 hc1 x2 x3 x4 x5 x6 xs8 xs9).2.1)
/-- The same for the maximum column. -/
theorem coverMax_Mid (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1x1024 .i32) (harg4 : arg4.IsWhole) (arg5 : Memref sig .tc .vmem S1x1024 .i32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (hc0 : ¬condFirst i) (hc1 : ¬condLast i)
    (x2 : Vec F S1024x256 .bf16) (x3 : Vec F S8192x256 .bf16) (x4 x5 : Vec F S1x1024 .i32) (x6 : Vec F S1024x256 .f32) (xs8 xs9 : Vec F S1024x1 .f32) (y : S1024x1.Idx) :
    ∃ pc ∈ (runMid c i arg2 harg2 arg3 harg3 arg4 harg4 arg5 harg5 arg6 harg6 arg7 harg7 arg8 harg8 arg9 harg9 hc0 hc1 x2 x3 x4 x5 x6 xs8 xs9).2.2.1, y ∈ pc.1.set :=
  View.cover_of_tiledL (runMid c i arg2 harg2 arg3 harg3 arg4 harg4 arg5 harg5 arg6 harg6 arg7 harg7 arg8 harg8 arg9 harg9 hc0 hc1 x2 x3 x4 x5 x6 xs8 xs9).2.2.1 S1024x1.size (by sl_kernel_rfl) y
def colMax_Mid (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1x1024 .i32) (harg4 : arg4.IsWhole) (arg5 : Memref sig .tc .vmem S1x1024 .i32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (hc0 : ¬condFirst i) (hc1 : ¬condLast i)
    (x2 : Vec F S1024x256 .bf16) (x3 : Vec F S8192x256 .bf16) (x4 x5 : Vec F S1x1024 .i32) (x6 : Vec F S1024x256 .f32) (xs8 xs9 : Vec F S1024x1 .f32) : Vec F S1024x1 .f32 :=
  viewMax.read (Elt F) (viewMax.writes (Elt F) viewMax.junk (runMid c i arg2 harg2 arg3 harg3 arg4 harg4 arg5 harg5 arg6 harg6 arg7 harg7 arg8 harg8 arg9 harg9 hc0 hc1 x2 x3 x4 x5 x6 xs8 xs9).2.2.1)
/-- What a middle key tile leaves in the output buffer is nothing of its own (no piece): a placeholder nothing consults, the window being idle there and not written back. -/
def out_Mid (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1x1024 .i32) (harg4 : arg4.IsWhole) (arg5 : Memref sig .tc .vmem S1x1024 .i32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (hc0 : ¬condFirst i) (hc1 : ¬condLast i)
    (x2 : Vec F S1024x256 .bf16) (x3 : Vec F S8192x256 .bf16) (x4 x5 : Vec F S1x1024 .i32) (x6 : Vec F S1024x256 .f32) (xs8 xs9 : Vec F S1024x1 .f32) : Vec F S1x1024 .f32 :=
  viewOut.read (Elt F) (viewOut.writes (Elt F) viewOut.junk (runMid c i arg2 harg2 arg3 harg3 arg4 harg4 arg5 harg5 arg6 harg6 arg7 harg7 arg8 harg8 arg9 harg9 hc0 hc1 x2 x3 x4 x5 x6 xs8 xs9).1)

/-- At the last key tile the pieces written into the minimum column tile it (one whole-column store is the last of them), so they cover it. -/
theorem coverMin_Last (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1x1024 .i32) (harg4 : arg4.IsWhole) (arg5 : Memref sig .tc .vmem S1x1024 .i32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (hc0 : ¬condFirst i) (hc1 : condLast i)
    (x2 : Vec F S1024x256 .bf16) (x3 : Vec F S8192x256 .bf16) (x4 x5 : Vec F S1x1024 .i32) (x6 : Vec F S1024x256 .f32) (xs8 xs9 : Vec F S1024x1 .f32) (y : S1024x1.Idx) :
    ∃ pc ∈ (runLast c i arg2 harg2 arg3 harg3 arg4 harg4 arg5 harg5 arg6 harg6 arg7 harg7 arg8 harg8 arg9 harg9 hc0 hc1 x2 x3 x4 x5 x6 xs8 xs9).2.1, y ∈ pc.1.set :=
  View.cover_of_tiledL (runLast c i arg2 harg2 arg3 harg3 arg4 harg4 arg5 harg5 arg6 harg6 arg7 harg7 arg8 harg8 arg9 harg9 hc0 hc1 x2 x3 x4 x5 x6 xs8 xs9).2.1 S1024x1.size (by sl_kernel_rfl) y
/-- What the last key tile leaves in the minimum column: its pieces read back. -/
def colMin_Last (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1x1024 .i32) (harg4 : arg4.IsWhole) (arg5 : Memref sig .tc .vmem S1x1024 .i32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (hc0 : ¬condFirst i) (hc1 : condLast i)
    (x2 : Vec F S1024x256 .bf16) (x3 : Vec F S8192x256 .bf16) (x4 x5 : Vec F S1x1024 .i32) (x6 : Vec F S1024x256 .f32) (xs8 xs9 : Vec F S1024x1 .f32) : Vec F S1024x1 .f32 :=
  viewMin.read (Elt F) (viewMin.writes (Elt F) viewMin.junk (runLast c i arg2 harg2 arg3 harg3 arg4 harg4 arg5 harg5 arg6 harg6 arg7 harg7 arg8 harg8 arg9 harg9 hc0 hc1 x2 x3 x4 x5 x6 xs8 xs9).2.1)
/-- The same for the maximum column. -/
theorem coverMax_Last (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1x1024 .i32) (harg4 : arg4.IsWhole) (arg5 : Memref sig .tc .vmem S1x1024 .i32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (hc0 : ¬condFirst i) (hc1 : condLast i)
    (x2 : Vec F S1024x256 .bf16) (x3 : Vec F S8192x256 .bf16) (x4 x5 : Vec F S1x1024 .i32) (x6 : Vec F S1024x256 .f32) (xs8 xs9 : Vec F S1024x1 .f32) (y : S1024x1.Idx) :
    ∃ pc ∈ (runLast c i arg2 harg2 arg3 harg3 arg4 harg4 arg5 harg5 arg6 harg6 arg7 harg7 arg8 harg8 arg9 harg9 hc0 hc1 x2 x3 x4 x5 x6 xs8 xs9).2.2.1, y ∈ pc.1.set :=
  View.cover_of_tiledL (runLast c i arg2 harg2 arg3 harg3 arg4 harg4 arg5 harg5 arg6 harg6 arg7 harg7 arg8 harg8 arg9 harg9 hc0 hc1 x2 x3 x4 x5 x6 xs8 xs9).2.2.1 S1024x1.size (by sl_kernel_rfl) y
def colMax_Last (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1x1024 .i32) (harg4 : arg4.IsWhole) (arg5 : Memref sig .tc .vmem S1x1024 .i32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (hc0 : ¬condFirst i) (hc1 : condLast i)
    (x2 : Vec F S1024x256 .bf16) (x3 : Vec F S8192x256 .bf16) (x4 x5 : Vec F S1x1024 .i32) (x6 : Vec F S1024x256 .f32) (xs8 xs9 : Vec F S1024x1 .f32) : Vec F S1024x1 .f32 :=
  viewMax.read (Elt F) (viewMax.writes (Elt F) viewMax.junk (runLast c i arg2 harg2 arg3 harg3 arg4 harg4 arg5 harg5 arg6 harg6 arg7 harg7 arg8 harg8 arg9 harg9 hc0 hc1 x2 x3 x4 x5 x6 xs8 xs9).2.2.1)

/-- At the last key tile the one store into the output buffer is of the whole block, so its piece covers it. -/
theorem coverOut_Last (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1x1024 .i32) (harg4 : arg4.IsWhole) (arg5 : Memref sig .tc .vmem S1x1024 .i32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (hc0 : ¬condFirst i) (hc1 : condLast i)
    (x2 : Vec F S1024x256 .bf16) (x3 : Vec F S8192x256 .bf16) (x4 x5 : Vec F S1x1024 .i32) (x6 : Vec F S1024x256 .f32) (xs8 xs9 : Vec F S1024x1 .f32) (y : S1x1024.Idx) :
    ∃ pc ∈ (runLast c i arg2 harg2 arg3 harg3 arg4 harg4 arg5 harg5 arg6 harg6 arg7 harg7 arg8 harg8 arg9 harg9 hc0 hc1 x2 x3 x4 x5 x6 xs8 xs9).1, y ∈ pc.1.set :=
  View.cover_of_tiledL (runLast c i arg2 harg2 arg3 harg3 arg4 harg4 arg5 harg5 arg6 harg6 arg7 harg7 arg8 harg8 arg9 harg9 hc0 hc1 x2 x3 x4 x5 x6 xs8 xs9).1 S1x1024.size (by sl_kernel_rfl) y
/-- What the last key tile leaves in the output buffer: the block's row losses. -/
def out_Last (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1x1024 .i32) (harg4 : arg4.IsWhole) (arg5 : Memref sig .tc .vmem S1x1024 .i32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (hc0 : ¬condFirst i) (hc1 : condLast i)
    (x2 : Vec F S1024x256 .bf16) (x3 : Vec F S8192x256 .bf16) (x4 x5 : Vec F S1x1024 .i32) (x6 : Vec F S1024x256 .f32) (xs8 xs9 : Vec F S1024x1 .f32) : Vec F S1x1024 .f32 :=
  viewOut.read (Elt F) (viewOut.writes (Elt F) viewOut.junk (runLast c i arg2 harg2 arg3 harg3 arg4 harg4 arg5 harg5 arg6 harg6 arg7 harg7 arg8 harg8 arg9 harg9 hc0 hc1 x2 x3 x4 x5 x6 xs8 xs9).1)

/-! ## Point by point -/

/-- THE RUNNING COLUMNS. What the output buffer and the two columns hold after the body at position `n` (output, minimum column,
    maximum column): the case the position is in — first key tile at 0 mod 8, last at 7 mod 8, middle otherwise — run at the
    point's memrefs and input blocks, the middle and last cases over the columns the position before left. -/
def outsAt (c : Dev nD) : (n : ℕ) → n < cfg0.N → Vec F S1x1024 .f32 × Vec F S1024x1 .f32 × Vec F S1024x1 .f32
  | 0, hn => (out_First c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) colMin (Memref.isWhole_whole _) colMax (Memref.isWhole_whole _) ((hcondFirst ⟨0, hn⟩).mpr (Nat.zero_mod _)) (fun h => (fun h => by (try dsimp only at h); omega) ((hcondLast ⟨0, hn⟩).mp h)) (iblk m c 0 ⟨0, hn⟩) (iblk m c 1 ⟨0, hn⟩) (iblk m c 2 ⟨0, hn⟩) (iblk m c 3 ⟨0, hn⟩) (iblk m c 4 ⟨0, hn⟩), colMin_First c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) colMin (Memref.isWhole_whole _) colMax (Memref.isWhole_whole _) ((hcondFirst ⟨0, hn⟩).mpr (Nat.zero_mod _)) (fun h => (fun h => by (try dsimp only at h); omega) ((hcondLast ⟨0, hn⟩).mp h)) (iblk m c 0 ⟨0, hn⟩) (iblk m c 1 ⟨0, hn⟩) (iblk m c 2 ⟨0, hn⟩) (iblk m c 3 ⟨0, hn⟩) (iblk m c 4 ⟨0, hn⟩), colMax_First c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) colMin (Memref.isWhole_whole _) colMax (Memref.isWhole_whole _) ((hcondFirst ⟨0, hn⟩).mpr (Nat.zero_mod _)) (fun h => (fun h => by (try dsimp only at h); omega) ((hcondLast ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 8 = 0 then
      if h1 : (n + 1) % 8 = 7 then
        False.elim (by omega)
      else
        (out_First c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) colMin (Memref.isWhole_whole _) colMax (Memref.isWhole_whole _) ((hcondFirst ⟨n + 1, hn⟩).mpr h0) (fun h => h1 ((hcondLast ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), colMin_First c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) colMin (Memref.isWhole_whole _) colMax (Memref.isWhole_whole _) ((hcondFirst ⟨n + 1, hn⟩).mpr h0) (fun h => h1 ((hcondLast ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), colMax_First c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) colMin (Memref.isWhole_whole _) colMax (Memref.isWhole_whole _) ((hcondFirst ⟨n + 1, hn⟩).mpr h0) (fun h => h1 ((hcondLast ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      if h1 : (n + 1) % 8 = 7 then
        (out_Last c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) colMin (Memref.isWhole_whole _) colMax (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt c n (Nat.lt_of_succ_lt hn)).2.1 (outsAt c n (Nat.lt_of_succ_lt hn)).2.2, colMin_Last c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) colMin (Memref.isWhole_whole _) colMax (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt c n (Nat.lt_of_succ_lt hn)).2.1 (outsAt c n (Nat.lt_of_succ_lt hn)).2.2, colMax_Last c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) colMin (Memref.isWhole_whole _) colMax (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt c n (Nat.lt_of_succ_lt hn)).2.1 (outsAt c n (Nat.lt_of_succ_lt hn)).2.2)
      else
        (out_Mid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) colMin (Memref.isWhole_whole _) colMax (Memref.isWhole_whole _) (fun h => h0 ((hcondFirst ⟨n + 1, hn⟩).mp h)) (fun h => h1 ((hcondLast ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt c n (Nat.lt_of_succ_lt hn)).2.1 (outsAt c n (Nat.lt_of_succ_lt hn)).2.2, colMin_Mid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) colMin (Memref.isWhole_whole _) colMax (Memref.isWhole_whole _) (fun h => h0 ((hcondFirst ⟨n + 1, hn⟩).mp h)) (fun h => h1 ((hcondLast ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt c n (Nat.lt_of_succ_lt hn)).2.1 (outsAt c n (Nat.lt_of_succ_lt hn)).2.2, colMax_Mid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) colMin (Memref.isWhole_whole _) colMax (Memref.isWhole_whole _) (fun h => h0 ((hcondFirst ⟨n + 1, hn⟩).mp h)) (fun h => h1 ((hcondLast ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt c n (Nat.lt_of_succ_lt hn)).2.1 (outsAt c n (Nat.lt_of_succ_lt hn)).2.2)

/-- At a point that opens a query block: the first case's contents. -/
theorem outsAt_First (c : Dev nD) (t : Fin cfg0.N) (h0 : t.val % 8 = 0) (h1 : ¬t.val % 8 = 7) :
    outsAt m c t.val t.isLt = (out_First c (grid0.coords t) (ms0 t) (hs0 t) (ms1 t) (hs1 t) (ms2 t) (hs2 t) (ms3 t) (hs3 t) (ms4 t) (hs4 t) (ms5 t) (hs5 t) colMin (Memref.isWhole_whole _) colMax (Memref.isWhole_whole _) ((hcondFirst t).mpr h0) (fun h => h1 ((hcondLast t).mp h)) (iblk m c 0 t) (iblk m c 1 t) (iblk m c 2 t) (iblk m c 3 t) (iblk m c 4 t), colMin_First c (grid0.coords t) (ms0 t) (hs0 t) (ms1 t) (hs1 t) (ms2 t) (hs2 t) (ms3 t) (hs3 t) (ms4 t) (hs4 t) (ms5 t) (hs5 t) colMin (Memref.isWhole_whole _) colMax (Memref.isWhole_whole _) ((hcondFirst t).mpr h0) (fun h => h1 ((hcondLast t).mp h)) (iblk m c 0 t) (iblk m c 1 t) (iblk m c 2 t) (iblk m c 3 t) (iblk m c 4 t), colMax_First c (grid0.coords t) (ms0 t) (hs0 t) (ms1 t) (hs1 t) (ms2 t) (hs2 t) (ms3 t) (hs3 t) (ms4 t) (hs4 t) (ms5 t) (hs5 t) colMin (Memref.isWhole_whole _) colMax (Memref.isWhole_whole _) ((hcondFirst t).mpr h0) (fun h => h1 ((hcondLast t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_neg h1).trans rfl)

/-- At a middle point: the middle case's contents, over what the point before left in the columns. -/
theorem outsAt_Mid (c : Dev nD) (t : Fin cfg0.N) (h0 : ¬t.val % 8 = 0) (h1 : ¬t.val % 8 = 7) :
    outsAt m c t.val t.isLt = (out_Mid c (grid0.coords t) (ms0 t) (hs0 t) (ms1 t) (hs1 t) (ms2 t) (hs2 t) (ms3 t) (hs3 t) (ms4 t) (hs4 t) (ms5 t) (hs5 t) colMin (Memref.isWhole_whole _) colMax (Memref.isWhole_whole _) (fun h => h0 ((hcondFirst t).mp h)) (fun h => h1 ((hcondLast t).mp h)) (iblk m c 0 t) (iblk m c 1 t) (iblk m c 2 t) (iblk m c 3 t) (iblk m c 4 t) (outsAt m c (t.val - 1) (Nat.lt_of_le_of_lt (Nat.sub_le _ _) t.isLt)).2.1 (outsAt m c (t.val - 1) (Nat.lt_of_le_of_lt (Nat.sub_le _ _) t.isLt)).2.2, colMin_Mid c (grid0.coords t) (ms0 t) (hs0 t) (ms1 t) (hs1 t) (ms2 t) (hs2 t) (ms3 t) (hs3 t) (ms4 t) (hs4 t) (ms5 t) (hs5 t) colMin (Memref.isWhole_whole _) colMax (Memref.isWhole_whole _) (fun h => h0 ((hcondFirst t).mp h)) (fun h => h1 ((hcondLast t).mp h)) (iblk m c 0 t) (iblk m c 1 t) (iblk m c 2 t) (iblk m c 3 t) (iblk m c 4 t) (outsAt m c (t.val - 1) (Nat.lt_of_le_of_lt (Nat.sub_le _ _) t.isLt)).2.1 (outsAt m c (t.val - 1) (Nat.lt_of_le_of_lt (Nat.sub_le _ _) t.isLt)).2.2, colMax_Mid c (grid0.coords t) (ms0 t) (hs0 t) (ms1 t) (hs1 t) (ms2 t) (hs2 t) (ms3 t) (hs3 t) (ms4 t) (hs4 t) (ms5 t) (hs5 t) colMin (Memref.isWhole_whole _) colMax (Memref.isWhole_whole _) (fun h => h0 ((hcondFirst t).mp h)) (fun h => h1 ((hcondLast t).mp h)) (iblk m c 0 t) (iblk m c 1 t) (iblk m c 2 t) (iblk m c 3 t) (iblk m c 4 t) (outsAt m c (t.val - 1) (Nat.lt_of_le_of_lt (Nat.sub_le _ _) t.isLt)).2.1 (outsAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- At a point that closes a query block: the last case's contents, over what the point before left in the columns. -/
theorem outsAt_Last (c : Dev nD) (t : Fin cfg0.N) (h0 : ¬t.val % 8 = 0) (h1 : t.val % 8 = 7) :
    outsAt m c t.val t.isLt = (out_Last c (grid0.coords t) (ms0 t) (hs0 t) (ms1 t) (hs1 t) (ms2 t) (hs2 t) (ms3 t) (hs3 t) (ms4 t) (hs4 t) (ms5 t) (hs5 t) colMin (Memref.isWhole_whole _) colMax (Memref.isWhole_whole _) (fun h => h0 ((hcondFirst t).mp h)) ((hcondLast t).mpr h1) (iblk m c 0 t) (iblk m c 1 t) (iblk m c 2 t) (iblk m c 3 t) (iblk m c 4 t) (outsAt m c (t.val - 1) (Nat.lt_of_le_of_lt (Nat.sub_le _ _) t.isLt)).2.1 (outsAt m c (t.val - 1) (Nat.lt_of_le_of_lt (Nat.sub_le _ _) t.isLt)).2.2, colMin_Last c (grid0.coords t) (ms0 t) (hs0 t) (ms1 t) (hs1 t) (ms2 t) (hs2 t) (ms3 t) (hs3 t) (ms4 t) (hs4 t) (ms5 t) (hs5 t) colMin (Memref.isWhole_whole _) colMax (Memref.isWhole_whole _) (fun h => h0 ((hcondFirst t).mp h)) ((hcondLast t).mpr h1) (iblk m c 0 t) (iblk m c 1 t) (iblk m c 2 t) (iblk m c 3 t) (iblk m c 4 t) (outsAt m c (t.val - 1) (Nat.lt_of_le_of_lt (Nat.sub_le _ _) t.isLt)).2.1 (outsAt m c (t.val - 1) (Nat.lt_of_le_of_lt (Nat.sub_le _ _) t.isLt)).2.2, colMax_Last c (grid0.coords t) (ms0 t) (hs0 t) (ms1 t) (hs1 t) (ms2 t) (hs2 t) (ms3 t) (hs3 t) (ms4 t) (hs4 t) (ms5 t) (hs5 t) colMin (Memref.isWhole_whole _) colMax (Memref.isWhole_whole _) (fun h => h0 ((hcondFirst t).mp h)) ((hcondLast t).mpr h1) (iblk m c 0 t) (iblk m c 1 t) (iblk m c 2 t) (iblk m c 3 t) (iblk m c 4 t) (outsAt m c (t.val - 1) (Nat.lt_of_le_of_lt (Nat.sub_le _ _) t.isLt)).2.1 (outsAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant between points, and the proof data -/

/-- The region invariant before position `n`: before the first point what the launch hands over (both columns at anything);
    afterwards each column at what the point before left in it, and the generator register at some state. -/
def PhiS (c : Dev nD) : (n : ℕ) → n ≤ cfg0.N → sProp 𝕄
  | 0, _ => Pipeline.ΦA spec0 c
  | n + 1, hn => iprop(iprop(owns (c : Thread nD τ) colMin fullShare ((outsAt m c n hn).2.1) ∗ owns (c : Thread nD τ) colMax fullShare ((outsAt m c n hn).2.2)) ∗ (∃ r, prngReg c r))

theorem PhiS_zero (c : Dev nD) (n : ℕ) (h : n ≤ cfg0.N) (hz : n = 0) : PhiS m c n h = Pipeline.ΦA spec0 c := by
  subst hz; rfl

/-- After point `n`: the columns at that point's contents. -/
theorem PhiS_succ (c : Dev nD) (n : ℕ) (hn : n < cfg0.N) :
    PhiS m c (n + 1) hn = iprop(iprop(owns (c : Thread nD τ) colMin fullShare ((outsAt m c n hn).2.1) ∗ owns (c : Thread nD τ) colMax fullShare ((outsAt m c n hn).2.2)) ∗ (∃ r, prngReg c r)) := rfl

/-- Before a point that is not the first: the columns at what the point before left. -/
theorem PhiS_pos (c : Dev nD) (n : ℕ) (h : n ≤ cfg0.N) (hz : n ≠ 0) :
    PhiS m c n h = iprop(iprop(owns (c : Thread nD τ) colMin fullShare ((outsAt m c (n - 1) (by omega)).2.1) ∗ owns (c : Thread nD τ) colMax fullShare ((outsAt m c (n - 1) (by omega)).2.2)) ∗ (∃ r, prngReg c r)) := by
  cases n with
  | zero => exact absurd rfl hz
  | succ n => rfl

/-- The proof data of the pipeline on core `c`. The arrays are the region-entry contents. After the body each input's buffer
    holds its block and the output's what the running recursion says. The invariant carries the two columns. Nothing is owed.
    The normalised rows stand behind two windows and so do the labels: each of those two arrays is held half and half by its
    two windows (both only read it); the unnormalised rows are held whole, and the result array outright. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
  owed _ := 0

/-- The proof data's arrays are the region-entry contents (the record projected, so that the fold over the host lines is
    never unfolded to check it). -/
theorem A_eq (c : Dev nD) (w : Fin cfg0.W) : (dats m 0 c).A w = V m c (Pipeline.arrRef spec0 w) := by
  dsimp only [dats]

/-- The invariant at a point's start, restated at the point's number. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = (outsAt m c t.val t.isLt).1 := by dsimp only [dats]

/-- Each input's current staging buffer holds its block at every point. -/
theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d

/-! ## Where the output window is idle -/

/-- No input window is ever idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
/-- Away from the last key tile the output window is idle and its block is not written back. -/
theorem idle5 : ∀ t : Fin cfg0.N, ¬condLast (grid0.coords t) → cfg0.idle 5 (grid0.coords t) = true := by decide +kernel
theorem noFlush5 : ∀ t : Fin cfg0.N, ¬condLast (grid0.coords t) → (cfg0.win 5).flush t = false := by decide +kernel
/-- At the last key tile it is live. -/
theorem live5 : ∀ t : Fin cfg0.N, condLast (grid0.coords t) → cfg0.idle 5 (grid0.coords t) = false := by decide +kernel

end Cert.Kernel.Tri

end
-- ==== Proof.BBody.lean ====
/-
  (The program as printed, read at machine words: the statements below hold at any reading of the floats, and this copy
  is the one about the word-level program.)

  The body obligation of the kernel's pipeline: at every grid point, from the invariant before the point and
  every window's staging buffer at what the pipeline left in it, the body runs to the invariant after the
  point and every buffer at what the proof data says it leaves.

  Which of the three cases a point is in is decided by its number mod 8. In each case the run of that case
  applies: the inputs' buffers hold their blocks; the two columns are handed over at what the point before
  left (at anything at the very first point, where the case resets them) and taken back at this point's
  contents, which the pieces the run wrote determine because they cover the columns; away from the last key
  tile the output buffer is handed over and taken back untouched, and at the last key tile it is taken back
  at the block's row losses.
-/
import proofs.«151936_j61710090109327_2_alg».proof.Proof.Gen.Kernel.Launch
import proofs.«151936_j61710090109327_2_alg».proof.Proof.Gen.Kernel.Skeleton
import proofs.«151936_j61710090109327_2_alg».proof.Proof.Gen.Kernel.Points
import proofs.«151936_j61710090109327_2_alg».proof.Proof.BData
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Tri

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  by_cases h0 : t.val % 8 = 0
  · by_cases h1 : t.val % 8 = 7
    · exfalso; omega
    · rw [Dat.leavesExact_idle (dats m 0 c) 5 t (idle5 t (fun h => h1 ((hcondLast t).mp h))) (noFlush5 t (fun h => h1 ((hcondLast t).mp h)))]
      rw [outsAt_First m c t h0 h1]
      unfold colMin_First colMax_First; (try dsimp only)
      by_cases hz : t.val = 0
      · rw [PhiS_castSucc m c t, PhiS_zero m c _ _ hz, PhiA_eq]
        iintro ⟨⟨⟨HS8, HS9⟩, Hg⟩, Ho, ⟨%d0, H0⟩, ⟨%d1, H1⟩, ⟨%d2, H2⟩, ⟨%d3, H3⟩, ⟨%d4, H4⟩, ⟨%d5, H5⟩⟩
        iapply ((runFirst c (grid0.coords t) (ms0 t) (hs0 t) (ms1 t) (hs1 t) (ms2 t) (hs2 t) (ms3 t) (hs3 t) (ms4 t) (hs4 t) (ms5 t) (hs5 t) colMin (Memref.isWhole_whole _) colMax (Memref.isWhole_whole _) ((hcondFirst t).mpr h0) (fun h => h1 ((hcondLast t).mp h)) (iblk m c 0 t) (iblk m c 1 t) (iblk m c 2 t) (iblk m c 3 t) (iblk m c 4 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS8]; · iexact HS8
        isplitl [HS9]; · iexact HS9
        iintro ⟨H0, H1, H2, H3, H4, H5, ⟨%e8, HS8⟩, ⟨%e9, HS9⟩⟩
        isplitl [HS8 HS9 Hg]
        · isplitl [HS8 HS9]
          · isplitl [HS8]
            · unfold owns; iexists _; isplitr
              swap; · iexact HS8
              ipureintro; exact View.read_writes_of_cover _ _ _ _ _ (coverMin_First c (grid0.coords t) (ms0 t) (hs0 t) (ms1 t) (hs1 t) (ms2 t) (hs2 t) (ms3 t) (hs3 t) (ms4 t) (hs4 t) (ms5 t) (hs5 t) colMin (Memref.isWhole_whole _) colMax (Memref.isWhole_whole _) ((hcondFirst t).mpr h0) (fun h => h1 ((hcondLast t).mp h)) (iblk m c 0 t) (iblk m c 1 t) (iblk m c 2 t) (iblk m c 3 t) (iblk m c 4 t))
            · unfold owns; iexists _; isplitr
              swap; · iexact HS9
              ipureintro; exact View.read_writes_of_cover _ _ _ _ _ (coverMax_First c (grid0.coords t) (ms0 t) (hs0 t) (ms1 t) (hs1 t) (ms2 t) (hs2 t) (ms3 t) (hs3 t) (ms4 t) (hs4 t) (ms5 t) (hs5 t) colMin (Memref.isWhole_whole _) colMax (Memref.isWhole_whole _) ((hcondFirst t).mpr h0) (fun h => h1 ((hcondLast t).mp h)) (iblk m c 0 t) (iblk m c 1 t) (iblk m c 2 t) (iblk m c 3 t) (iblk m c 4 t))
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS_castSucc m c t, PhiS_pos m c _ _ hz]
        iintro ⟨⟨⟨HS8, HS9⟩, Hg⟩, Ho, ⟨%d0, H0⟩, ⟨%d1, H1⟩, ⟨%d2, H2⟩, ⟨%d3, H3⟩, ⟨%d4, H4⟩, ⟨%d5, H5⟩⟩
        iapply ((runFirst c (grid0.coords t) (ms0 t) (hs0 t) (ms1 t) (hs1 t) (ms2 t) (hs2 t) (ms3 t) (hs3 t) (ms4 t) (hs4 t) (ms5 t) (hs5 t) colMin (Memref.isWhole_whole _) colMax (Memref.isWhole_whole _) ((hcondFirst t).mpr h0) (fun h => h1 ((hcondLast t).mp h)) (iblk m c 0 t) (iblk m c 1 t) (iblk m c 2 t) (iblk m c 3 t) (iblk m c 4 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS8]; · iexists _; iexact HS8
        isplitl [HS9]; · iexists _; iexact HS9
        iintro ⟨H0, H1, H2, H3, H4, H5, ⟨%e8, HS8⟩, ⟨%e9, HS9⟩⟩
        isplitl [HS8 HS9 Hg]
        · isplitl [HS8 HS9]
          · isplitl [HS8]
            · unfold owns; iexists _; isplitr
              swap; · iexact HS8
              ipureintro; exact View.read_writes_of_cover _ _ _ _ _ (coverMin_First c (grid0.coords t) (ms0 t) (hs0 t) (ms1 t) (hs1 t) (ms2 t) (hs2 t) (ms3 t) (hs3 t) (ms4 t) (hs4 t) (ms5 t) (hs5 t) colMin (Memref.isWhole_whole _) colMax (Memref.isWhole_whole _) ((hcondFirst t).mpr h0) (fun h => h1 ((hcondLast t).mp h)) (iblk m c 0 t) (iblk m c 1 t) (iblk m c 2 t) (iblk m c 3 t) (iblk m c 4 t))
            · unfold owns; iexists _; isplitr
              swap; · iexact HS9
              ipureintro; exact View.read_writes_of_cover _ _ _ _ _ (coverMax_First c (grid0.coords t) (ms0 t) (hs0 t) (ms1 t) (hs1 t) (ms2 t) (hs2 t) (ms3 t) (hs3 t) (ms4 t) (hs4 t) (ms5 t) (hs5 t) colMin (Memref.isWhole_whole _) colMax (Memref.isWhole_whole _) ((hcondFirst t).mpr h0) (fun h => h1 ((hcondLast t).mp h)) (iblk m c 0 t) (iblk m c 1 t) (iblk m c 2 t) (iblk m c 3 t) (iblk m c 4 t))
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 8 = 7
    · rw [show (dats m 0 c).leavesExact 5 t = owns (c : Thread nD τ) (ms5 t) fullShare ((dats m 0 c).after 5 t) from by
        unfold Dat.leavesExact; rw [live5 t ((hcondLast t).mpr h1)], after5]
      rw [outsAt_Last m c t h0 h1]
      unfold out_Last colMin_Last colMax_Last; (try dsimp only)
      have hz : t.val ≠ 0 := fun e => h0 (by rw [e])
      rw [PhiS_castSucc m c t, PhiS_pos m c _ _ hz]
      iintro ⟨⟨⟨HS8, HS9⟩, Hg⟩, Ho, ⟨%d0, H0⟩, ⟨%d1, H1⟩, ⟨%d2, H2⟩, ⟨%d3, H3⟩, ⟨%d4, H4⟩, ⟨%d5, H5⟩⟩
      iapply ((runLast c (grid0.coords t) (ms0 t) (hs0 t) (ms1 t) (hs1 t) (ms2 t) (hs2 t) (ms3 t) (hs3 t) (ms4 t) (hs4 t) (ms5 t) (hs5 t) colMin (Memref.isWhole_whole _) colMax (Memref.isWhole_whole _) (fun h => h0 ((hcondFirst t).mp h)) ((hcondLast t).mpr h1) (iblk m c 0 t) (iblk m c 1 t) (iblk m c 2 t) (iblk m c 3 t) (iblk m c 4 t) ((outsAt m c (t.val - 1) (Nat.lt_of_le_of_lt (Nat.sub_le _ _) t.isLt)).2.1) ((outsAt m c (t.val - 1) (Nat.lt_of_le_of_lt (Nat.sub_le _ _) t.isLt)).2.2)).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS8]; · iexact HS8
      isplitl [HS9]; · iexact HS9
      iintro ⟨H0, H1, H2, H3, H4, ⟨%e7, H5⟩, ⟨%e8, HS8⟩, ⟨%e9, HS9⟩⟩
      isplitl [HS8 HS9 Hg]
      · isplitl [HS8 HS9]
        · isplitl [HS8]
          · unfold owns; iexists _; isplitr
            swap; · iexact HS8
            ipureintro; exact View.read_writes_of_cover _ _ _ _ _ (coverMin_Last c (grid0.coords t) (ms0 t) (hs0 t) (ms1 t) (hs1 t) (ms2 t) (hs2 t) (ms3 t) (hs3 t) (ms4 t) (hs4 t) (ms5 t) (hs5 t) colMin (Memref.isWhole_whole _) colMax (Memref.isWhole_whole _) (fun h => h0 ((hcondFirst t).mp h)) ((hcondLast t).mpr h1) (iblk m c 0 t) (iblk m c 1 t) (iblk m c 2 t) (iblk m c 3 t) (iblk m c 4 t) ((outsAt m c (t.val - 1) (Nat.lt_of_le_of_lt (Nat.sub_le _ _) t.isLt)).2.1) ((outsAt m c (t.val - 1) (Nat.lt_of_le_of_lt (Nat.sub_le _ _) t.isLt)).2.2))
          · unfold owns; iexists _; isplitr
            swap; · iexact HS9
            ipureintro; exact View.read_writes_of_cover _ _ _ _ _ (coverMax_Last c (grid0.coords t) (ms0 t) (hs0 t) (ms1 t) (hs1 t) (ms2 t) (hs2 t) (ms3 t) (hs3 t) (ms4 t) (hs4 t) (ms5 t) (hs5 t) colMin (Memref.isWhole_whole _) colMax (Memref.isWhole_whole _) (fun h => h0 ((hcondFirst t).mp h)) ((hcondLast t).mpr h1) (iblk m c 0 t) (iblk m c 1 t) (iblk m c 2 t) (iblk m c 3 t) (iblk m c 4 t) ((outsAt m c (t.val - 1) (Nat.lt_of_le_of_lt (Nat.sub_le _ _) t.isLt)).2.1) ((outsAt m c (t.val - 1) (Nat.lt_of_le_of_lt (Nat.sub_le _ _) t.isLt)).2.2))
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverOut_Last c (grid0.coords t) (ms0 t) (hs0 t) (ms1 t) (hs1 t) (ms2 t) (hs2 t) (ms3 t) (hs3 t) (ms4 t) (hs4 t) (ms5 t) (hs5 t) colMin (Memref.isWhole_whole _) colMax (Memref.isWhole_whole _) (fun h => h0 ((hcondFirst t).mp h)) ((hcondLast t).mpr h1) (iblk m c 0 t) (iblk m c 1 t) (iblk m c 2 t) (iblk m c 3 t) (iblk m c 4 t) ((outsAt m c (t.val - 1) (Nat.lt_of_le_of_lt (Nat.sub_le _ _) t.isLt)).2.1) ((outsAt m c (t.val - 1) (Nat.lt_of_le_of_lt (Nat.sub_le _ _) t.isLt)).2.2))
    · rw [Dat.leavesExact_idle (dats m 0 c) 5 t (idle5 t (fun h => h1 ((hcondLast t).mp h))) (noFlush5 t (fun h => h1 ((hcondLast t).mp h)))]
      rw [outsAt_Mid m c t h0 h1]
      unfold colMin_Mid colMax_Mid; (try dsimp only)
      have hz : t.val ≠ 0 := fun e => h0 (by rw [e])
      rw [PhiS_castSucc m c t, PhiS_pos m c _ _ hz]
      iintro ⟨⟨⟨HS8, HS9⟩, Hg⟩, Ho, ⟨%d0, H0⟩, ⟨%d1, H1⟩, ⟨%d2, H2⟩, ⟨%d3, H3⟩, ⟨%d4, H4⟩, ⟨%d5, H5⟩⟩
      iapply ((runMid c (grid0.coords t) (ms0 t) (hs0 t) (ms1 t) (hs1 t) (ms2 t) (hs2 t) (ms3 t) (hs3 t) (ms4 t) (hs4 t) (ms5 t) (hs5 t) colMin (Memref.isWhole_whole _) colMax (Memref.isWhole_whole _) (fun h => h0 ((hcondFirst t).mp h)) (fun h => h1 ((hcondLast t).mp h)) (iblk m c 0 t) (iblk m c 1 t) (iblk m c 2 t) (iblk m c 3 t) (iblk m c 4 t) ((outsAt m c (t.val - 1) (Nat.lt_of_le_of_lt (Nat.sub_le _ _) t.isLt)).2.1) ((outsAt m c (t.val - 1) (Nat.lt_of_le_of_lt (Nat.sub_le _ _) t.isLt)).2.2)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS8]; · iexact HS8
      isplitl [HS9]; · iexact HS9
      iintro ⟨H0, H1, H2, H3, H4, H5, ⟨%e8, HS8⟩, ⟨%e9, HS9⟩⟩
      isplitl [HS8 HS9 Hg]
      · isplitl [HS8 HS9]
        · isplitl [HS8]
          · unfold owns; iexists _; isplitr
            swap; · iexact HS8
            ipureintro; exact View.read_writes_of_cover _ _ _ _ _ (coverMin_Mid c (grid0.coords t) (ms0 t) (hs0 t) (ms1 t) (hs1 t) (ms2 t) (hs2 t) (ms3 t) (hs3 t) (ms4 t) (hs4 t) (ms5 t) (hs5 t) colMin (Memref.isWhole_whole _) colMax (Memref.isWhole_whole _) (fun h => h0 ((hcondFirst t).mp h)) (fun h => h1 ((hcondLast t).mp h)) (iblk m c 0 t) (iblk m c 1 t) (iblk m c 2 t) (iblk m c 3 t) (iblk m c 4 t) ((outsAt m c (t.val - 1) (Nat.lt_of_le_of_lt (Nat.sub_le _ _) t.isLt)).2.1) ((outsAt m c (t.val - 1) (Nat.lt_of_le_of_lt (Nat.sub_le _ _) t.isLt)).2.2))
          · unfold owns; iexists _; isplitr
            swap; · iexact HS9
            ipureintro; exact View.read_writes_of_cover _ _ _ _ _ (coverMax_Mid c (grid0.coords t) (ms0 t) (hs0 t) (ms1 t) (hs1 t) (ms2 t) (hs2 t) (ms3 t) (hs3 t) (ms4 t) (hs4 t) (ms5 t) (hs5 t) colMin (Memref.isWhole_whole _) colMax (Memref.isWhole_whole _) (fun h => h0 ((hcondFirst t).mp h)) (fun h => h1 ((hcondLast t).mp h)) (iblk m c 0 t) (iblk m c 1 t) (iblk m c 2 t) (iblk m c 3 t) (iblk m c 4 t) ((outsAt m c (t.val - 1) (Nat.lt_of_le_of_lt (Nat.sub_le _ _) t.isLt)).2.1) ((outsAt m c (t.val - 1) (Nat.lt_of_le_of_lt (Nat.sub_le _ _) t.isLt)).2.2))
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives it back: the columns' contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HS8, HS9⟩, Hg⟩
  isplitl [HS8 HS9]
  · isplitl [HS8]
    · iexists _; iexact HS8
    · iexists _; iexact HS9
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

end Cert.Kernel.Tri

end
-- ==== Proof.BLaunch.lean ====
/-
  (The program as printed, read at machine words: the statements below hold at any reading of the floats, and this copy
  is the one about the word-level program.)

  The launch of the kernel's program: @main as four segments — the row norms, the rest of the host prefix, the
  kernel region, the total sum — composed in order.

  The kernel is handed the normalised rows through two windows (a block of query rows, and all the key rows,
  resident) and the label row through two windows (the query block's labels and a key tile's). All four windows
  only read, so each of the two arrays is held half and half by its two windows while the region runs: at entry
  the full share of each buffer is split, at exit the halves are joined again. The unnormalised rows are held
  whole by their one window and the result array outright by its window. Everything else the region does not
  touch rides past it. From the region's exit contents the total sum computes the result, and no line and no
  window ever writes an argument.
-/
import proofs.«151936_j61710090109327_2_alg».proof.Proof.Gen.Kernel.Launch
import proofs.«151936_j61710090109327_2_alg».proof.Proof.Gen.Kernel.Skeleton
import proofs.«151936_j61710090109327_2_alg».proof.Proof.Gen.Kernel.Points
import proofs.«151936_j61710090109327_2_alg».proof.Proof.BBody
import Idealize.ShloMosaic.Lib.Pipeline.RegionsLoop
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Tri

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## Four buffers behind six windows -/

/-- The distinct buffers behind the windows' arrays: the normalised rows, the label row, the unnormalised rows, the result. -/
theorem arrBufs_list (c : Dev nD) (W : (b : Ref sig .tc) → Buf (Elt F) ((c : Thread nD τ).loc b)) :
    (Pipeline.arrBufs spec0 c W : sProp 𝕄) = bigSepL [main_v5, main_v6, main_arg0, main_v7] fun b => ((c : Thread nD τ).loc b) ↦{fullShare} W b := by
  unfold Pipeline.arrBufs; exact bigSep_eq_bigSepL_of_eq _ (by decide) (by decide) _

/-- The same as a chain. -/
theorem arrBufs_chain (c : Dev nD) (W : (b : Ref sig .tc) → Buf (Elt F) ((c : Thread nD τ).loc b)) :
    (Pipeline.arrBufs spec0 c W : sProp 𝕄) = iprop((((c : Thread nD τ).loc main_v5) ↦{fullShare} W main_v5) ∗ (((c : Thread nD τ).loc main_v6) ↦{fullShare} W main_v6)
        ∗ (((c : Thread nD τ).loc main_arg0) ↦{fullShare} W main_arg0) ∗ (((c : Thread nD τ).loc main_v7) ↦{fullShare} W main_v7)) := by
  rw [arrBufs_list]; rfl

/-- One window's array at the region's entry, as a points-to of the buffer behind it at the window's share. -/
theorem arr_entry (c : Dev nD) (w : Fin cfg0.W) (q : PosShare TreeShare) (hq : (dats m 0 c).share w = q) :
    ((cfg0.win w).arr.view.loc (c : Thread nD τ) ↦[(cfg0.win w).arr.view.set]{(dats m 0 c).share w} (dats m 0 c).arrAt w 0 : sProp 𝕄)
      = (((c : Thread nD τ).loc (Pipeline.arrRef spec0 w)) ↦{q} V m c (Pipeline.arrRef spec0 w)) := by
  rw [(arr_whole0 w).set_eq_univ, hq, show (dats m 0 c).arrAt w 0 = (dats m 0 c).A w from rfl, A_eq]

/-- An input window's array at the region's exit: never written, so still the entry contents. -/
theorem arr_exit_in (c : Dev nD) (w : Fin cfg0.W) (hin : (cfg0.win w).isOut = false) (q : PosShare TreeShare) (hq : (dats m 0 c).share w = q) :
    ((cfg0.win w).arr.view.loc (c : Thread nD τ) ↦[(cfg0.win w).arr.view.set]{(dats m 0 c).share w} (dats m 0 c).arrAt w cfg0.N : sProp 𝕄)
      = (((c : Thread nD τ).loc (Pipeline.arrRef spec0 w)) ↦{q} V m c (Pipeline.arrRef spec0 w)) := by
  rw [(arr_whole0 w).set_eq_univ, hq, (dats m 0 c).arrAt_in w hin, A_eq]

/-- The result array at the region's exit, held outright. -/
theorem arr_exit_out (c : Dev nD) :
    ((cfg0.win 5).arr.view.loc (c : Thread nD τ) ↦[(cfg0.win 5).arr.view.set]{(dats m 0 c).share 5} (dats m 0 c).arrAt 5 cfg0.N : sProp 𝕄)
      = (((c : Thread nD τ).loc main_v7) ↦{fullShare} (dats m 0 c).arrAt 5 cfg0.N) := by
  rw [(arr_whole0 5).set_eq_univ]; rfl

/-- ENTRY. The four buffers, each whole at the full share at the entry contents, are the six windows' arrays: the normalised
    rows' full share is dealt half and half to the query-block window and the resident key window, the label row's likewise to
    the two label windows (all four only read). -/
theorem entry_split (c : Dev nD) : (Pipeline.arrBufs spec0 c (V m c) : sProp 𝕄) ⊢ (dats m 0 c).arrays ((dats m 0 c).arrAt · 0) := by
  rw [arrBufs_chain]
  unfold Dat.arrays
  rw [bigSep_W0]
  rw [arr_entry m c 0 fullShare.left rfl, arr_entry m c 1 fullShare.right rfl, arr_entry m c 2 fullShare.left rfl,
    arr_entry m c 3 fullShare.right rfl, arr_entry m c 4 fullShare rfl, arr_entry m c 5 fullShare rfl]
  iintro ⟨H5, H6, H0, H7⟩
  ihave H5' := (pointsTo_share (PosShare.mem_left_op_right fullShare)).1 $$ H5
  icases H5' with ⟨H5l, H5r⟩
  ihave H6' := (pointsTo_share (PosShare.mem_left_op_right fullShare)).1 $$ H6
  icases H6' with ⟨H6l, H6r⟩
  isplitl [H5l]; · iexact H5l
  isplitl [H5r]; · iexact H5r
  isplitl [H6l]; · iexact H6l
  isplitl [H6r]; · iexact H6r
  isplitl [H0]; · iexact H0
  iexact H7

/-- The buffers' contents when the region is left: the result array at what the write-backs made of it, everything else as entered. -/
def Vx (c : Dev nD) : Valuation τ sig (Elt F) :=
  Function.update (V0 m c) (Proc.devRef .tc main_v7) ((dats m 0 c).arrAt 5 cfg0.N)

theorem Vx_out (c : Dev nD) : Vx m c (Proc.devRef .tc main_v7) = (dats m 0 c).arrAt 5 cfg0.N := Function.update_self ..
theorem Vx_of_ne (c : Dev nD) (b : Ref sig .tc) (hb : b ≠ main_v7) : Vx m c (Proc.devRef .tc b) = V m c b :=
  Function.update_of_ne (fun e => hb (Proc.devRef_injective _ e)) ..

/-- EXIT. The six windows' arrays at their final contents are the four buffers whole at the exit contents: the halves rejoin. -/
theorem exit_join (c : Dev nD) :
    (dats m 0 c).arrays ((dats m 0 c).arrAt · cfg0.N) ⊢ (Pipeline.arrBufs spec0 c (fun b => Vx m c (Proc.devRef .tc b)) : sProp 𝕄) := by
  rw [arrBufs_chain]
  dsimp only
  rw [Vx_of_ne m c main_v5 (by decide), Vx_of_ne m c main_v6 (by decide), Vx_of_ne m c main_arg0 (by decide), Vx_out]
  unfold Dat.arrays
  rw [bigSep_W0]
  rw [arr_exit_in m c 0 rfl fullShare.left rfl, arr_exit_in m c 1 rfl fullShare.right rfl, arr_exit_in m c 2 rfl fullShare.left rfl,
    arr_exit_in m c 3 rfl fullShare.right rfl, arr_exit_in m c 4 rfl fullShare rfl, arr_exit_out m c]
  iintro ⟨H5l, H5r, H6l, H6r, H0, H7⟩
  isplitl [H5l H5r]
  · iapply (pointsTo_share (PosShare.mem_left_op_right fullShare)).2
    isplitl [H5l]; · iexact H5l
    iexact H5r
  isplitl [H6l H6r]
  · iapply (pointsTo_share (PosShare.mem_left_op_right fullShare)).2
    isplitl [H6l]; · iexact H6l
    iexact H6r
  isplitl [H0]; · iexact H0
  iexact H7

/-! ## @main's segments from the launch to the return -/

/-- Core `c`'s buffers at launch, after the row norms, and after the division, the conversion and the reshape (the region's entry). -/
abbrev W0 : Dev nD → Valuation τ sig (Elt F) := fun c b => m ((c : Dev nD), b)
abbrev W1 : Dev nD → Valuation τ sig (Elt F) := fun c => StableHlo.after hostOps0 (W0 m c)
abbrev W2 : Dev nD → Valuation τ sig (Elt F) := fun c => StableHlo.after hostOps0_1 (W1 m c)
/-- The two stretches folded one after the other are the one fold the proof data name. -/
theorem V0_eq (c : Dev nD) : V0 m c = W2 m c := by
  show StableHlo.after (List.flatten [hostOps0, hostOps0_1]) (fun b => m (c, b)) = StableHlo.after hostOps0_1 (StableHlo.after hostOps0 (fun b => m (c, b)))
  simp only [List.flatten_cons, List.flatten_nil, List.append_nil]
  exact StableHlo.after_append _ _ _
/-- After the total sum that follows the region. -/
abbrev W4 : Dev nD → Valuation τ sig (Elt F) := fun c => StableHlo.after hostOps1 (Vx m c)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The embedding matrix ends as launched: no host line writes it, and the region only reads it (through the unnormalised-rows window). -/
theorem W4_main_arg0 (c : Dev nD) : W4 m c (Proc.devRef .tc main_arg0) = m ((c : Thread nD τ).loc main_arg0) :=
  calc W4 m c (Proc.devRef .tc main_arg0)
    _ = Vx m c (Proc.devRef .tc main_arg0) := StableHlo.after_of_forall_not_mem (b := Proc.devRef .tc main_arg0) _ _ (List.forall_iff_forall_mem.mp (by
          simp only [hostOps0, hostOps0_1, hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = V0 m c (Proc.devRef .tc main_arg0) := Vx_of_ne m c main_arg0 (by decide)
    _ = W2 m c (Proc.devRef .tc main_arg0) := by rw [V0_eq m c]
    _ = W1 m c (Proc.devRef .tc main_arg0) := StableHlo.after_of_forall_not_mem (b := Proc.devRef .tc main_arg0) _ _ (List.forall_iff_forall_mem.mp (by
          simp only [hostOps0, hostOps0_1, hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg0) := StableHlo.after_of_forall_not_mem (b := Proc.devRef .tc main_arg0) _ _ (List.forall_iff_forall_mem.mp (by
          simp only [hostOps0, hostOps0_1, hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- The label vector ends as launched: no host line writes it, and the region only reads it (it is no window's array: the label row is its reshaped copy). -/
theorem W4_main_arg1 (c : Dev nD) : W4 m c (Proc.devRef .tc main_arg1) = m ((c : Thread nD τ).loc main_arg1) :=
  calc W4 m c (Proc.devRef .tc main_arg1)
    _ = Vx m c (Proc.devRef .tc main_arg1) := StableHlo.after_of_forall_not_mem (b := Proc.devRef .tc main_arg1) _ _ (List.forall_iff_forall_mem.mp (by
          simp only [hostOps0, hostOps0_1, hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = V0 m c (Proc.devRef .tc main_arg1) := Vx_of_ne m c main_arg1 (by decide)
    _ = W2 m c (Proc.devRef .tc main_arg1) := by rw [V0_eq m c]
    _ = W1 m c (Proc.devRef .tc main_arg1) := StableHlo.after_of_forall_not_mem (b := Proc.devRef .tc main_arg1) _ _ (List.forall_iff_forall_mem.mp (by
          simp only [hostOps0, hostOps0_1, hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg1) := StableHlo.after_of_forall_not_mem (b := Proc.devRef .tc main_arg1) _ _ (List.forall_iff_forall_mem.mp (by
          simp only [hostOps0, hostOps0_1, hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- No pipeline has a prefetched table. -/
abbrev adm : (p : Fin 1) → (pcfgs (F := F) p).Adm := fun p => (cfgs p).toPCfg_adm
/-- The one pipeline's proof data (a literal match, so that the pinned configuration at the numeral reduces to the printed one). -/
def pdats : (p : Fin 1) → (c : Dev nD) → Dat τ (Elt F) Unit ℕ (UR sig nD τ) ℕ (Pipeline.pin (pcfgs (F := F)) adm p) c
  | ⟨0, _⟩ => fun c => dats m 0 c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A stretch of host operations as a segment over every unscoped buffer. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m c) ∗ ∃ r, prngReg c r)

/-- ENTRY, over the thread state: every unscoped buffer at the entry contents is the six windows' arrays (the two shared
    buffers' shares dealt) and the rest. -/
theorem held_split (c : Dev nD) :
    (StableHlo.held (c : Thread nD τ) (Pipeline.ucRefs τ sig) (V0 m c) : sProp 𝕄)
      ⊢ iprop((dats m 0 c).arrays ((dats m 0 c).arrAt · 0) ∗ Pipeline.unscopedRest (Ix := Unit) (Name := ℕ) (U := UR sig nD τ) (Lvl := ℕ) spec0 c (V m c)) := by
  rw [← Pipeline.unscopedBufs_held c (V0 m c), Pipeline.unscopedBufs_split₀ cfgs (0 : Fin 1) winFacts₀0.arr_unscoped c (V m c)]
  exact sep_mono (entry_split m c) .rfl

/-- EXIT: the arrays at their final contents and the untouched rest are every unscoped buffer at the exit contents. -/
theorem held_join (c : Dev nD) :
    iprop((dats m 0 c).arrays ((dats m 0 c).arrAt · cfg0.N) ∗ Pipeline.unscopedRest (Ix := Unit) (Name := ℕ) (U := UR sig nD τ) (Lvl := ℕ) spec0 c (V m c))
      ⊢ (StableHlo.held (c : Thread nD τ) (Pipeline.ucRefs τ sig) (Vx m c) : sProp 𝕄) := by
  rw [← Pipeline.unscopedBufs_held c (Vx m c), Pipeline.unscopedBufs_split₀ cfgs (0 : Fin 1) winFacts₀0.arr_unscoped c (fun b => Vx m c (Proc.devRef .tc b))]
  refine sep_mono (exit_join m c) (Entails.of_eq ?_)
  unfold Pipeline.unscopedRest
  exact bigSep_congr fun b hb => by
    dsimp only
    rw [Vx_of_ne m c b (fun e => (Finset.mem_sdiff.mp hb).2 (Finset.mem_image.mpr ⟨5, Finset.mem_univ _, e.symm⟩))]

set_option backward.isDefEq.respectTransparency.types false in
/-- THE REGION over the thread state: entered from every unscoped buffer at the entry contents, left with the result array at
    what the write-backs made of it; the generator register into the invariant and out; nothing owed; no semaphore of the
    kernel's own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (W2 m c) ∗ R c)
  post c := iprop(StableHlo.held (c : Thread nD τ) (Pipeline.ucRefs τ sig) (Vx m c) ∗ R c)
  X c := iprop(∃ r, prngReg c r)
  Y c := iprop(∃ r, prngReg c r)
  Z c := Pipeline.unscopedRest (Ix := Unit) (Name := ℕ) (U := UR sig nD τ) (Lvl := ℕ) spec0 c (V m c)
  hentry c := by
    rw [Pipeline.ownSems0_none]
    have hsplit := held_split m c
    rw [V0_eq m c] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show _ ⊢ Pipeline.ΦA spec0 c from by
      unfold Pipeline.ΦA
      iintro ⟨Hp, -, Hr⟩
      isplitl [Hr]; · iexact Hr
      iexact Hp).trans (hin m c)
  hout c := (hout m c).trans (by
      rw [Pipeline.ownSems0_none]; unfold Pipeline.ΦA
      iintro ⟨Hr, Hp⟩
      isplitl [Hp]; · iexact Hp
      isplitr; · iempintro
      iexact Hr)
  hexit c := by
    have hjoin := held_join m c
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-- @main's four segments in order: the row norms, the rest of the host prefix, the region, the total sum. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .region (reg0 m),
    .host (hseg hostOps1 hostOps1_sub hostOps1_fresh (fun c => Vx m c)) ]
/-- @main IS the run of the segments. -/
theorem main_run (c : Dev nD) : main (F := F) c = Pipeline.Seg.run (segs m) := (main_chain c).trans (by chain_rfl)

variable (ρ : Dev nD → PrngReg)

set_option backward.isDefEq.respectTransparency.types false in
/-- THE RUN. From any memory with zero counters every weakly fair execution of @main terminates without a fault, and every
    final state has every unscoped buffer at the last boundary's contents: in particular the result at what the total sum
    makes of the region's result array, and both arguments as launched. -/
theorem run_main : θ_run defs (onTc (τ := τ) (main (F := F))) ⟨m, fun _ => 0, ρ⟩ (fun r => ∀ c : Dev nD,
      r.2.mem ((c.tc : Thread nD τ).loc main_v8) = W4 m c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨h c _ (mem_uc main_v8 (by decide)),
       (h c _ (mem_uc main_arg0 (by decide))).trans (W4_main_arg0 m c),
       (h c _ (mem_uc main_arg1 (by decide))).trans (W4_main_arg1 m c)⟩)

/-- THE FRAME, at any instance: the run with the result forgotten. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.Kernel.Tri

end
-- ==== Proof.KRuns.lean ====
/-
  The kernel body, run once for each way its two conditionals can fall on the 8 x 8 grid.

  A grid point is a pair (i, j): a block of 1024 query rows and a tile of 1024 key rows. The body keeps two
  columns of 1024 numbers between points, a running minimum and a running maximum. At j = 0 it first resets
  them to plus and minus infinity; at every point it folds in the tile's masked row minima and maxima; at
  j = 7 it also turns the two finished columns and the query block's unnormalised rows into the block's 1024
  row losses and stores them. So three cases occur: the first key tile, a middle one, the last one. Each run
  below says: from the five input buffers at given contents, the output buffer at anything, and the two
  columns at given contents (at anything when the case resets them first), the body terminates without a
  fault, returns the inputs as they were, and leaves in the output buffer and in each column a list of
  written pieces, which the run itself finds.
-/
import proofs.«151936_j61710090109327_2_alg».proof.Proof.Gen.KernelIdeal.Launch
import proofs.«151936_j61710090109327_2_alg».proof.Proof.Gen.KernelIdeal.Skeleton
import proofs.«151936_j61710090109327_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Tri

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, decided over the grid -/

/-- The first conditional's test: the key-tile coordinate is zero. -/
abbrev condFirst (i : grid0.Coords) : Prop := (Scalar.cmpi .ne (Scalar.extui (Scalar.cmpi .eq (BitVec.ofNat 32 (i 1).val) 0#32)) 0#32) = 1#1
/-- It holds at the points that open a query block: those numbered 0 mod 8. -/
theorem hcondFirst : ∀ t : Fin cfg0.N, condFirst (grid0.coords t) ↔ t.val % 8 = 0 :=
  (by decide +kernel : ∀ t : Fin grid0.N, condFirst (grid0.coords t) ↔ t.val % 8 = 0)

/-- The second conditional's test: the key-tile coordinate is the last one. -/
abbrev condLast (i : grid0.Coords) : Prop := k0_cond2 i = 1#1
/-- It holds at the points that close a query block: those numbered 7 mod 8. -/
theorem hcondLast : ∀ t : Fin cfg0.N, condLast (grid0.coords t) ↔ t.val % 8 = 7 :=
  (by decide +kernel : ∀ t : Fin grid0.N, condLast (grid0.coords t) ↔ t.val % 8 = 7)

/-! ## The three runs -/

set_option maxHeartbeats 1000000 in
/-- The first key tile of a query block: both columns are reset before they are read, so they may hold anything
    on entry; the output buffer is not touched and comes back as it was given. -/
noncomputable def runFirst (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1x1024 .i32) (harg4 : arg4.IsWhole) (arg5 : Memref sig .tc .vmem S1x1024 .i32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (hc0 : condFirst i) (hc1 : ¬condLast i)
    (x2 : Vec F S1024x256 .bf16) (x3 : Vec F S8192x256 .bf16) (x4 x5 : Vec F S1x1024 .i32) (x6 : Vec F S1024x256 .f32) :
    Σ' (L7 : List (View.Piece (Elt F) S1x1024 .f32)) (LS8 : List (View.Piece (Elt F) S1024x1 .f32)), { LS9 : List (View.Piece (Elt F) S1024x1 .f32) //
      ∀ (xi7 : Vec F S1x1024 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare xi7 ∗ (∃ d, owns (c : Thread nD τ) arg8 fullShare d) ∗ (∃ d, owns (c : Thread nD τ) arg9 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
                ∗ owns (c : Thread nD τ) arg7 fullShare xi7
                ∗ (∃ f, arg8.view.loc (c : Thread nD τ) ↦[arg8.view.set]{fullShare} arg8.view.writes (Elt F) f LS8)
                ∗ (∃ f, arg9.view.loc (c : Thread nD τ) ↦[arg9.view.set]{fullShare} arg9.view.writes (Elt F) f LS9)) -∗ K ⟨⟩))
          ⊢ wp frame (wpE (defs₀ (F := F)) Variants.none c none) E (cc0__mine_kernel i arg2 harg2 arg3 harg3 arg4 harg4 arg5 harg5 arg6 harg6 arg7 harg7 arg8 harg8 arg9 harg9) K } := by
  refine ⟨[], ?_, ?_, fun xi7 E K => ?run⟩
  case run =>
    simp only [cc0__mine_kernel_eq_skeleton]; unfold cc0__mine_kernel_skel
    simp only [k0_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %fs8, -, HS8⟩, ⟨%d9, %fs9, -, HS9⟩, Hk⟩
    obtain rfl := harg2.eq_unread hf2; obtain rfl := harg3.eq_unread hf3; obtain rfl := harg4.eq_unread hf4; obtain rfl := harg5.eq_unread hf5
    obtain rfl := harg6.eq_unread hf6; obtain rfl := harg7.eq_unread hf7
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [HS8]; · iexists _; iexact HS8
    iexists _; iexact HS9

set_option maxHeartbeats 1000000 in
/-- A middle key tile: the columns come in at what the previous point left and go out with this tile folded in;
    the output buffer is not touched and comes back as it was given. -/
noncomputable def runMid (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1x1024 .i32) (harg4 : arg4.IsWhole) (arg5 : Memref sig .tc .vmem S1x1024 .i32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (hc0 : ¬condFirst i) (hc1 : ¬condLast i)
    (x2 : Vec F S1024x256 .bf16) (x3 : Vec F S8192x256 .bf16) (x4 x5 : Vec F S1x1024 .i32) (x6 : Vec F S1024x256 .f32) (xs8 xs9 : Vec F S1024x1 .f32) :
    Σ' (L7 : List (View.Piece (Elt F) S1x1024 .f32)) (LS8 : List (View.Piece (Elt F) S1024x1 .f32)), { LS9 : List (View.Piece (Elt F) S1024x1 .f32) //
      ∀ (xi7 : Vec F S1x1024 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare xi7 ∗ owns (c : Thread nD τ) arg8 fullShare xs8 ∗ owns (c : Thread nD τ) arg9 fullShare xs9
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
                ∗ owns (c : Thread nD τ) arg7 fullShare xi7
                ∗ (∃ f, arg8.view.loc (c : Thread nD τ) ↦[arg8.view.set]{fullShare} arg8.view.writes (Elt F) f LS8)
                ∗ (∃ f, arg9.view.loc (c : Thread nD τ) ↦[arg9.view.set]{fullShare} arg9.view.writes (Elt F) f LS9)) -∗ K ⟨⟩))
          ⊢ wp frame (wpE (defs₀ (F := F)) Variants.none c none) E (cc0__mine_kernel i arg2 harg2 arg3 harg3 arg4 harg4 arg5 harg5 arg6 harg6 arg7 harg7 arg8 harg8 arg9 harg9) K } := by
  refine ⟨[], ?_, ?_, fun xi7 E K => ?run⟩
  case run =>
    simp only [cc0__mine_kernel_eq_skeleton]; unfold cc0__mine_kernel_skel
    simp only [k0_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%fs8, %hfs8, HS8⟩, ⟨%fs9, %hfs9, HS9⟩, Hk⟩
    obtain rfl := harg2.eq_unread hf2; obtain rfl := harg3.eq_unread hf3; obtain rfl := harg4.eq_unread hf4; obtain rfl := harg5.eq_unread hf5
    obtain rfl := harg6.eq_unread hf6; obtain rfl := harg7.eq_unread hf7; obtain rfl := harg8.eq_unread hfs8; obtain rfl := harg9.eq_unread hfs9
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [HS8]; · iexists _; iexact HS8
    iexists _; iexact HS9

set_option maxHeartbeats 1000000 in
/-- The last key tile: the columns are folded once more, read back, and the block's row losses are stored into
    the output buffer, which may hold anything on entry. -/
noncomputable def runLast (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1x1024 .i32) (harg4 : arg4.IsWhole) (arg5 : Memref sig .tc .vmem S1x1024 .i32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (hc0 : ¬condFirst i) (hc1 : condLast i)
    (x2 : Vec F S1024x256 .bf16) (x3 : Vec F S8192x256 .bf16) (x4 x5 : Vec F S1x1024 .i32) (x6 : Vec F S1024x256 .f32) (xs8 xs9 : Vec F S1024x1 .f32) :
    Σ' (L7 : List (View.Piece (Elt F) S1x1024 .f32)) (LS8 : List (View.Piece (Elt F) S1024x1 .f32)), { LS9 : List (View.Piece (Elt F) S1024x1 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ (∃ d, owns (c : Thread nD τ) arg7 fullShare d) ∗ owns (c : Thread nD τ) arg8 fullShare xs8 ∗ owns (c : Thread nD τ) arg9 fullShare xs9
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
                ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f LS8)
                ∗ (∃ f, arg9.view.loc (c : Thread nD τ) ↦[arg9.view.set]{fullShare} arg9.view.writes (Elt F) f LS9)) -∗ K ⟨⟩))
          ⊢ wp frame (wpE (defs₀ (F := F)) Variants.none c none) E (cc0__mine_kernel i arg2 harg2 arg3 harg3 arg4 harg4 arg5 harg5 arg6 harg6 arg7 harg7 arg8 harg8 arg9 harg9) K } := by
  refine ⟨?_, ?_, ?_, fun E K => ?run⟩
  case run =>
    simp only [cc0__mine_kernel_eq_skeleton]; unfold cc0__mine_kernel_skel
    simp only [k0_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%fs8, %hfs8, HS8⟩, ⟨%fs9, %hfs9, HS9⟩, Hk⟩
    obtain rfl := harg2.eq_unread hf2; obtain rfl := harg3.eq_unread hf3; obtain rfl := harg4.eq_unread hf4; obtain rfl := harg5.eq_unread hf5
    obtain rfl := harg6.eq_unread hf6; obtain rfl := harg8.eq_unread hfs8; obtain rfl := harg9.eq_unread hfs9
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [HS8]; · iexists _; iexact HS8
    iexists _; iexact HS9

end Cert.KernelIdeal.Tri

end
-- ==== Proof.KData.lean ====
/-
  The proof data of the kernel's one pipeline, first half: what the region finds and what its buffers are.

  The host lines before the region normalise the rows and reshape the labels, so the arrays behind the six
  windows hold, when the region is entered, the normalised rows (behind the query-block window AND the
  resident key window), the labels as one row (behind the query-label AND the key-label window), the
  unnormalised rows, and the result array. A window's block at a grid point is the part of its array that the
  point's index selects. Every input window's staging buffer holds that block whenever the body runs,
  fetched at that point or carried over from the point before.
-/
import proofs.«151936_j61710090109327_2_alg».proof.Proof.Gen.KernelIdeal.Launch
import proofs.«151936_j61710090109327_2_alg».proof.Proof.Gen.KernelIdeal.Skeleton
import proofs.«151936_j61710090109327_2_alg».proof.Proof.Gen.KernelIdeal.Points
import proofs.«151936_j61710090109327_2_alg».proof.Proof.KRuns
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Tri

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays as the region finds them, and the windows' blocks -/

/-- Core `c`'s buffer contents when the region is entered: the launch memory after the two stretches of host
    operations that precede it (the row norms; the division, the conversion and the reshape). -/
abbrev V0 (c : Dev nD) : Valuation τ sig (Elt F) := StableHlo.after (List.flatten [hostOps0, hostOps0_1]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the point fetches it or not:
    where it is not fetched the block index has not moved since the last fetch and the body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, whether the point fetches it or not:
    where it is not fetched the block index has not moved since the last fetch and the body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, whether the point fetches it or not:
    where it is not fetched the block index has not moved since the last fetch and the body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, whether the point fetches it or not:
    where it is not fetched the block index has not moved since the last fetch and the body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, whether the point fetches it or not:
    where it is not fetched the block index has not moved since the last fetch and the body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The buffers the body is called with -/

/-- Each window's current staging memref at point `t`, as the pipeline passes it, and its wholeness. -/
abbrev ms0 (t : Fin cfg0.N) : Memref sig .tc .vmem S1024x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S8192x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1024 .f32 := win0_5.stage (cfg0.slots t 5)
abbrev hs5 (t : Fin cfg0.N) : (ms5 t).IsWhole := hstage0_5 ((cfg0.slots t 5).cast nbuf0_5)
/-- The two columns the kernel keeps between points: whole scoped buffers of its own. -/
abbrev colMin : Memref sig .tc .vmem S1024x1 .f32 := Memref.whole cc0_scratch0
abbrev colMax : Memref sig .tc .vmem S1024x1 .f32 := Memref.whole cc0_scratch1
/-- One view through which each buffer's contents are stated (any view of the shape would do: a covering list of
    writes reads back the same through every view). -/
abbrev viewOut : View sig .tc .vmem S1x1024 .f32 := (Memref.whole cc0_stg5_0 : Memref sig .tc .vmem S1x1024 .f32).view
abbrev viewMin : View sig .tc .vmem S1024x1 .f32 := colMin.view
abbrev viewMax : View sig .tc .vmem S1024x1 .f32 := colMax.view

/-- What the launch hands the region besides the windows: the two columns at some contents and the generator
    register at some state. -/
theorem PhiA_eq (c : Dev nD) :
    (Pipeline.ΦA spec0 c : sProp 𝕄)
      = iprop(iprop((∃ d, owns (c : Thread nD τ) colMin fullShare d) ∗ (∃ d, owns (c : Thread nD τ) colMax fullShare d)) ∗ (∃ r, prngReg c r)) := by
  unfold Pipeline.ΦA; rw [scopedRest0_eq]; simp only [colMin, colMax, owns_whole]; try rfl

/-! ## What each case leaves: the pieces cover their buffers, so they read back the same through any view -/

/-- At the first key tile the pieces written into the minimum column tile it (one whole-column store is the last of them), so they cover it. -/
theorem coverMin_First (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1x1024 .i32) (harg4 : arg4.IsWhole) (arg5 : Memref sig .tc .vmem S1x1024 .i32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (hc0 : condFirst i) (hc1 : ¬condLast i)
    (x2 : Vec F S1024x256 .bf16) (x3 : Vec F S8192x256 .bf16) (x4 x5 : Vec F S1x1024 .i32) (x6 : Vec F S1024x256 .f32) (y : S1024x1.Idx) :
    ∃ pc ∈ (runFirst c i arg2 harg2 arg3 harg3 arg4 harg4 arg5 harg5 arg6 harg6 arg7 harg7 arg8 harg8 arg9 harg9 hc0 hc1 x2 x3 x4 x5 x6).2.1, y ∈ pc.1.set :=
  View.cover_of_tiledL (runFirst c i arg2 harg2 arg3 harg3 arg4 harg4 arg5 harg5 arg6 harg6 arg7 harg7 arg8 harg8 arg9 harg9 hc0 hc1 x2 x3 x4 x5 x6).2.1 S1024x1.size (by sl_kernel_rfl) y
/-- What the first key tile leaves in the minimum column: its pieces read back. -/
def colMin_First (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1x1024 .i32) (harg4 : arg4.IsWhole) (arg5 : Memref sig .tc .vmem S1x1024 .i32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (hc0 : condFirst i) (hc1 : ¬condLast i)
    (x2 : Vec F S1024x256 .bf16) (x3 : Vec F S8192x256 .bf16) (x4 x5 : Vec F S1x1024 .i32) (x6 : Vec F S1024x256 .f32) : Vec F S1024x1 .f32 :=
  viewMin.read (Elt F) (viewMin.writes (Elt F) viewMin.junk (runFirst c i arg2 harg2 arg3 harg3 arg4 harg4 arg5 harg5 arg6 harg6 arg7 harg7 arg8 harg8 arg9 harg9 hc0 hc1 x2 x3 x4 x5 x6).2.1)
/-- The same for the maximum column. -/
theorem coverMax_First (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1x1024 .i32) (harg4 : arg4.IsWhole) (arg5 : Memref sig .tc .vmem S1x1024 .i32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (hc0 : condFirst i) (hc1 : ¬condLast i)
    (x2 : Vec F S1024x256 .bf16) (x3 : Vec F S8192x256 .bf16) (x4 x5 : Vec F S1x1024 .i32) (x6 : Vec F S1024x256 .f32) (y : S1024x1.Idx) :
    ∃ pc ∈ (runFirst c i arg2 harg2 arg3 harg3 arg4 harg4 arg5 harg5 arg6 harg6 arg7 harg7 arg8 harg8 arg9 harg9 hc0 hc1 x2 x3 x4 x5 x6).2.2.1, y ∈ pc.1.set :=
  View.cover_of_tiledL (runFirst c i arg2 harg2 arg3 harg3 arg4 harg4 arg5 harg5 arg6 harg6 arg7 harg7 arg8 harg8 arg9 harg9 hc0 hc1 x2 x3 x4 x5 x6).2.2.1 S1024x1.size (by sl_kernel_rfl) y
def colMax_First (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1x1024 .i32) (harg4 : arg4.IsWhole) (arg5 : Memref sig .tc .vmem S1x1024 .i32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (hc0 : condFirst i) (hc1 : ¬condLast i)
    (x2 : Vec F S1024x256 .bf16) (x3 : Vec F S8192x256 .bf16) (x4 x5 : Vec F S1x1024 .i32) (x6 : Vec F S1024x256 .f32) : Vec F S1024x1 .f32 :=
  viewMax.read (Elt F) (viewMax.writes (Elt F) viewMax.junk (runFirst c i arg2 harg2 arg3 harg3 arg4 harg4 arg5 harg5 arg6 harg6 arg7 harg7 arg8 harg8 arg9 harg9 hc0 hc1 x2 x3 x4 x5 x6).2.2.1)
/-- What the first key tile leaves in the output buffer is nothing of its own (no piece): a placeholder nothing consults, the window being idle there and not written back. -/
def out_First (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1x1024 .i32) (harg4 : arg4.IsWhole) (arg5 : Memref sig .tc .vmem S1x1024 .i32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (hc0 : condFirst i) (hc1 : ¬condLast i)
    (x2 : Vec F S1024x256 .bf16) (x3 : Vec F S8192x256 .bf16) (x4 x5 : Vec F S1x1024 .i32) (x6 : Vec F S1024x256 .f32) : Vec F S1x1024 .f32 :=
  viewOut.read (Elt F) (viewOut.writes (Elt F) viewOut.junk (runFirst c i arg2 harg2 arg3 harg3 arg4 harg4 arg5 harg5 arg6 harg6 arg7 harg7 arg8 harg8 arg9 harg9 hc0 hc1 x2 x3 x4 x5 x6).1)

/-- At a middle key tile the pieces written into the minimum column tile it (one whole-column store is the last of them), so they cover it. -/
theorem coverMin_Mid (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1x1024 .i32) (harg4 : arg4.IsWhole) (arg5 : Memref sig .tc .vmem S1x1024 .i32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (hc0 : ¬condFirst i) (hc1 : ¬condLast i)
    (x2 : Vec F S1024x256 .bf16) (x3 : Vec F S8192x256 .bf16) (x4 x5 : Vec F S1x1024 .i32) (x6 : Vec F S1024x256 .f32) (xs8 xs9 : Vec F S1024x1 .f32) (y : S1024x1.Idx) :
    ∃ pc ∈ (runMid c i arg2 harg2 arg3 harg3 arg4 harg4 arg5 harg5 arg6 harg6 arg7 harg7 arg8 harg8 arg9 harg9 hc0 hc1 x2 x3 x4 x5 x6 xs8 xs9).2.1, y ∈ pc.1.set :=
  View.cover_of_tiledL (runMid c i arg2 harg2 arg3 harg3 arg4 harg4 arg5 harg5 arg6 harg6 arg7 harg7 arg8 harg8 arg9 harg9 hc0 hc1 x2 x3 x4 x5 x6 xs8 xs9).2.1 S1024x1.size (by sl_kernel_rfl) y
/-- What a middle key tile leaves in the minimum column: its pieces read back. -/
def colMin_Mid (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1x1024 .i32) (harg4 : arg4.IsWhole) (arg5 : Memref sig .tc .vmem S1x1024 .i32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (hc0 : ¬condFirst i) (hc1 : ¬condLast i)
    (x2 : Vec F S1024x256 .bf16) (x3 : Vec F S8192x256 .bf16) (x4 x5 : Vec F S1x1024 .i32) (x6 : Vec F S1024x256 .f32) (xs8 xs9 : Vec F S1024x1 .f32) : Vec F S1024x1 .f32 :=
  viewMin.read (Elt F) (viewMin.writes (Elt F) viewMin.junk (runMid c i arg2 harg2 arg3 harg3 arg4 harg4 arg5 harg5 arg6 harg6 arg7 harg7 arg8 harg8 arg9 harg9 hc0 hc1 x2 x3 x4 x5 x6 xs8 xs9).2.1)
/-- The same for the maximum column. -/
theorem coverMax_Mid (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1x1024 .i32) (harg4 : arg4.IsWhole) (arg5 : Memref sig .tc .vmem S1x1024 .i32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (hc0 : ¬condFirst i) (hc1 : ¬condLast i)
    (x2 : Vec F S1024x256 .bf16) (x3 : Vec F S8192x256 .bf16) (x4 x5 : Vec F S1x1024 .i32) (x6 : Vec F S1024x256 .f32) (xs8 xs9 : Vec F S1024x1 .f32) (y : S1024x1.Idx) :
    ∃ pc ∈ (runMid c i arg2 harg2 arg3 harg3 arg4 harg4 arg5 harg5 arg6 harg6 arg7 harg7 arg8 harg8 arg9 harg9 hc0 hc1 x2 x3 x4 x5 x6 xs8 xs9).2.2.1, y ∈ pc.1.set :=
  View.cover_of_tiledL (runMid c i arg2 harg2 arg3 harg3 arg4 harg4 arg5 harg5 arg6 harg6 arg7 harg7 arg8 harg8 arg9 harg9 hc0 hc1 x2 x3 x4 x5 x6 xs8 xs9).2.2.1 S1024x1.size (by sl_kernel_rfl) y
def colMax_Mid (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1x1024 .i32) (harg4 : arg4.IsWhole) (arg5 : Memref sig .tc .vmem S1x1024 .i32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (hc0 : ¬condFirst i) (hc1 : ¬condLast i)
    (x2 : Vec F S1024x256 .bf16) (x3 : Vec F S8192x256 .bf16) (x4 x5 : Vec F S1x1024 .i32) (x6 : Vec F S1024x256 .f32) (xs8 xs9 : Vec F S1024x1 .f32) : Vec F S1024x1 .f32 :=
  viewMax.read (Elt F) (viewMax.writes (Elt F) viewMax.junk (runMid c i arg2 harg2 arg3 harg3 arg4 harg4 arg5 harg5 arg6 harg6 arg7 harg7 arg8 harg8 arg9 harg9 hc0 hc1 x2 x3 x4 x5 x6 xs8 xs9).2.2.1)
/-- What a middle key tile leaves in the output buffer is nothing of its own (no piece): a placeholder nothing consults, the window being idle there and not written back. -/
def out_Mid (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1x1024 .i32) (harg4 : arg4.IsWhole) (arg5 : Memref sig .tc .vmem S1x1024 .i32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (hc0 : ¬condFirst i) (hc1 : ¬condLast i)
    (x2 : Vec F S1024x256 .bf16) (x3 : Vec F S8192x256 .bf16) (x4 x5 : Vec F S1x1024 .i32) (x6 : Vec F S1024x256 .f32) (xs8 xs9 : Vec F S1024x1 .f32) : Vec F S1x1024 .f32 :=
  viewOut.read (Elt F) (viewOut.writes (Elt F) viewOut.junk (runMid c i arg2 harg2 arg3 harg3 arg4 harg4 arg5 harg5 arg6 harg6 arg7 harg7 arg8 harg8 arg9 harg9 hc0 hc1 x2 x3 x4 x5 x6 xs8 xs9).1)

/-- At the last key tile the pieces written into the minimum column tile it (one whole-column store is the last of them), so they cover it. -/
theorem coverMin_Last (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1x1024 .i32) (harg4 : arg4.IsWhole) (arg5 : Memref sig .tc .vmem S1x1024 .i32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (hc0 : ¬condFirst i) (hc1 : condLast i)
    (x2 : Vec F S1024x256 .bf16) (x3 : Vec F S8192x256 .bf16) (x4 x5 : Vec F S1x1024 .i32) (x6 : Vec F S1024x256 .f32) (xs8 xs9 : Vec F S1024x1 .f32) (y : S1024x1.Idx) :
    ∃ pc ∈ (runLast c i arg2 harg2 arg3 harg3 arg4 harg4 arg5 harg5 arg6 harg6 arg7 harg7 arg8 harg8 arg9 harg9 hc0 hc1 x2 x3 x4 x5 x6 xs8 xs9).2.1, y ∈ pc.1.set :=
  View.cover_of_tiledL (runLast c i arg2 harg2 arg3 harg3 arg4 harg4 arg5 harg5 arg6 harg6 arg7 harg7 arg8 harg8 arg9 harg9 hc0 hc1 x2 x3 x4 x5 x6 xs8 xs9).2.1 S1024x1.size (by sl_kernel_rfl) y
/-- What the last key tile leaves in the minimum column: its pieces read back. -/
def colMin_Last (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1x1024 .i32) (harg4 : arg4.IsWhole) (arg5 : Memref sig .tc .vmem S1x1024 .i32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (hc0 : ¬condFirst i) (hc1 : condLast i)
    (x2 : Vec F S1024x256 .bf16) (x3 : Vec F S8192x256 .bf16) (x4 x5 : Vec F S1x1024 .i32) (x6 : Vec F S1024x256 .f32) (xs8 xs9 : Vec F S1024x1 .f32) : Vec F S1024x1 .f32 :=
  viewMin.read (Elt F) (viewMin.writes (Elt F) viewMin.junk (runLast c i arg2 harg2 arg3 harg3 arg4 harg4 arg5 harg5 arg6 harg6 arg7 harg7 arg8 harg8 arg9 harg9 hc0 hc1 x2 x3 x4 x5 x6 xs8 xs9).2.1)
/-- The same for the maximum column. -/
theorem coverMax_Last (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1x1024 .i32) (harg4 : arg4.IsWhole) (arg5 : Memref sig .tc .vmem S1x1024 .i32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (hc0 : ¬condFirst i) (hc1 : condLast i)
    (x2 : Vec F S1024x256 .bf16) (x3 : Vec F S8192x256 .bf16) (x4 x5 : Vec F S1x1024 .i32) (x6 : Vec F S1024x256 .f32) (xs8 xs9 : Vec F S1024x1 .f32) (y : S1024x1.Idx) :
    ∃ pc ∈ (runLast c i arg2 harg2 arg3 harg3 arg4 harg4 arg5 harg5 arg6 harg6 arg7 harg7 arg8 harg8 arg9 harg9 hc0 hc1 x2 x3 x4 x5 x6 xs8 xs9).2.2.1, y ∈ pc.1.set :=
  View.cover_of_tiledL (runLast c i arg2 harg2 arg3 harg3 arg4 harg4 arg5 harg5 arg6 harg6 arg7 harg7 arg8 harg8 arg9 harg9 hc0 hc1 x2 x3 x4 x5 x6 xs8 xs9).2.2.1 S1024x1.size (by sl_kernel_rfl) y
def colMax_Last (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1x1024 .i32) (harg4 : arg4.IsWhole) (arg5 : Memref sig .tc .vmem S1x1024 .i32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (hc0 : ¬condFirst i) (hc1 : condLast i)
    (x2 : Vec F S1024x256 .bf16) (x3 : Vec F S8192x256 .bf16) (x4 x5 : Vec F S1x1024 .i32) (x6 : Vec F S1024x256 .f32) (xs8 xs9 : Vec F S1024x1 .f32) : Vec F S1024x1 .f32 :=
  viewMax.read (Elt F) (viewMax.writes (Elt F) viewMax.junk (runLast c i arg2 harg2 arg3 harg3 arg4 harg4 arg5 harg5 arg6 harg6 arg7 harg7 arg8 harg8 arg9 harg9 hc0 hc1 x2 x3 x4 x5 x6 xs8 xs9).2.2.1)

/-- At the last key tile the one store into the output buffer is of the whole block, so its piece covers it. -/
theorem coverOut_Last (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1x1024 .i32) (harg4 : arg4.IsWhole) (arg5 : Memref sig .tc .vmem S1x1024 .i32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (hc0 : ¬condFirst i) (hc1 : condLast i)
    (x2 : Vec F S1024x256 .bf16) (x3 : Vec F S8192x256 .bf16) (x4 x5 : Vec F S1x1024 .i32) (x6 : Vec F S1024x256 .f32) (xs8 xs9 : Vec F S1024x1 .f32) (y : S1x1024.Idx) :
    ∃ pc ∈ (runLast c i arg2 harg2 arg3 harg3 arg4 harg4 arg5 harg5 arg6 harg6 arg7 harg7 arg8 harg8 arg9 harg9 hc0 hc1 x2 x3 x4 x5 x6 xs8 xs9).1, y ∈ pc.1.set :=
  View.cover_of_tiledL (runLast c i arg2 harg2 arg3 harg3 arg4 harg4 arg5 harg5 arg6 harg6 arg7 harg7 arg8 harg8 arg9 harg9 hc0 hc1 x2 x3 x4 x5 x6 xs8 xs9).1 S1x1024.size (by sl_kernel_rfl) y
/-- What the last key tile leaves in the output buffer: the block's row losses. -/
def out_Last (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1x1024 .i32) (harg4 : arg4.IsWhole) (arg5 : Memref sig .tc .vmem S1x1024 .i32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (hc0 : ¬condFirst i) (hc1 : condLast i)
    (x2 : Vec F S1024x256 .bf16) (x3 : Vec F S8192x256 .bf16) (x4 x5 : Vec F S1x1024 .i32) (x6 : Vec F S1024x256 .f32) (xs8 xs9 : Vec F S1024x1 .f32) : Vec F S1x1024 .f32 :=
  viewOut.read (Elt F) (viewOut.writes (Elt F) viewOut.junk (runLast c i arg2 harg2 arg3 harg3 arg4 harg4 arg5 harg5 arg6 harg6 arg7 harg7 arg8 harg8 arg9 harg9 hc0 hc1 x2 x3 x4 x5 x6 xs8 xs9).1)

/-! ## Point by point -/

/-- THE RUNNING COLUMNS. What the output buffer and the two columns hold after the body at position `n` (output, minimum column,
    maximum column): the case the position is in — first key tile at 0 mod 8, last at 7 mod 8, middle otherwise — run at the
    point's memrefs and input blocks, the middle and last cases over the columns the position before left. -/
def outsAt (c : Dev nD) : (n : ℕ) → n < cfg0.N → Vec F S1x1024 .f32 × Vec F S1024x1 .f32 × Vec F S1024x1 .f32
  | 0, hn => (out_First c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) colMin (Memref.isWhole_whole _) colMax (Memref.isWhole_whole _) ((hcondFirst ⟨0, hn⟩).mpr (Nat.zero_mod _)) (fun h => (fun h => by (try dsimp only at h); omega) ((hcondLast ⟨0, hn⟩).mp h)) (iblk m c 0 ⟨0, hn⟩) (iblk m c 1 ⟨0, hn⟩) (iblk m c 2 ⟨0, hn⟩) (iblk m c 3 ⟨0, hn⟩) (iblk m c 4 ⟨0, hn⟩), colMin_First c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) colMin (Memref.isWhole_whole _) colMax (Memref.isWhole_whole _) ((hcondFirst ⟨0, hn⟩).mpr (Nat.zero_mod _)) (fun h => (fun h => by (try dsimp only at h); omega) ((hcondLast ⟨0, hn⟩).mp h)) (iblk m c 0 ⟨0, hn⟩) (iblk m c 1 ⟨0, hn⟩) (iblk m c 2 ⟨0, hn⟩) (iblk m c 3 ⟨0, hn⟩) (iblk m c 4 ⟨0, hn⟩), colMax_First c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) colMin (Memref.isWhole_whole _) colMax (Memref.isWhole_whole _) ((hcondFirst ⟨0, hn⟩).mpr (Nat.zero_mod _)) (fun h => (fun h => by (try dsimp only at h); omega) ((hcondLast ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 8 = 0 then
      if h1 : (n + 1) % 8 = 7 then
        False.elim (by omega)
      else
        (out_First c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) colMin (Memref.isWhole_whole _) colMax (Memref.isWhole_whole _) ((hcondFirst ⟨n + 1, hn⟩).mpr h0) (fun h => h1 ((hcondLast ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), colMin_First c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) colMin (Memref.isWhole_whole _) colMax (Memref.isWhole_whole _) ((hcondFirst ⟨n + 1, hn⟩).mpr h0) (fun h => h1 ((hcondLast ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), colMax_First c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) colMin (Memref.isWhole_whole _) colMax (Memref.isWhole_whole _) ((hcondFirst ⟨n + 1, hn⟩).mpr h0) (fun h => h1 ((hcondLast ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      if h1 : (n + 1) % 8 = 7 then
        (out_Last c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) colMin (Memref.isWhole_whole _) colMax (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt c n (Nat.lt_of_succ_lt hn)).2.1 (outsAt c n (Nat.lt_of_succ_lt hn)).2.2, colMin_Last c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) colMin (Memref.isWhole_whole _) colMax (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt c n (Nat.lt_of_succ_lt hn)).2.1 (outsAt c n (Nat.lt_of_succ_lt hn)).2.2, colMax_Last c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) colMin (Memref.isWhole_whole _) colMax (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt c n (Nat.lt_of_succ_lt hn)).2.1 (outsAt c n (Nat.lt_of_succ_lt hn)).2.2)
      else
        (out_Mid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) colMin (Memref.isWhole_whole _) colMax (Memref.isWhole_whole _) (fun h => h0 ((hcondFirst ⟨n + 1, hn⟩).mp h)) (fun h => h1 ((hcondLast ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt c n (Nat.lt_of_succ_lt hn)).2.1 (outsAt c n (Nat.lt_of_succ_lt hn)).2.2, colMin_Mid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) colMin (Memref.isWhole_whole _) colMax (Memref.isWhole_whole _) (fun h => h0 ((hcondFirst ⟨n + 1, hn⟩).mp h)) (fun h => h1 ((hcondLast ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt c n (Nat.lt_of_succ_lt hn)).2.1 (outsAt c n (Nat.lt_of_succ_lt hn)).2.2, colMax_Mid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) colMin (Memref.isWhole_whole _) colMax (Memref.isWhole_whole _) (fun h => h0 ((hcondFirst ⟨n + 1, hn⟩).mp h)) (fun h => h1 ((hcondLast ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt c n (Nat.lt_of_succ_lt hn)).2.1 (outsAt c n (Nat.lt_of_succ_lt hn)).2.2)

/-- At a point that opens a query block: the first case's contents. -/
theorem outsAt_First (c : Dev nD) (t : Fin cfg0.N) (h0 : t.val % 8 = 0) (h1 : ¬t.val % 8 = 7) :
    outsAt m c t.val t.isLt = (out_First c (grid0.coords t) (ms0 t) (hs0 t) (ms1 t) (hs1 t) (ms2 t) (hs2 t) (ms3 t) (hs3 t) (ms4 t) (hs4 t) (ms5 t) (hs5 t) colMin (Memref.isWhole_whole _) colMax (Memref.isWhole_whole _) ((hcondFirst t).mpr h0) (fun h => h1 ((hcondLast t).mp h)) (iblk m c 0 t) (iblk m c 1 t) (iblk m c 2 t) (iblk m c 3 t) (iblk m c 4 t), colMin_First c (grid0.coords t) (ms0 t) (hs0 t) (ms1 t) (hs1 t) (ms2 t) (hs2 t) (ms3 t) (hs3 t) (ms4 t) (hs4 t) (ms5 t) (hs5 t) colMin (Memref.isWhole_whole _) colMax (Memref.isWhole_whole _) ((hcondFirst t).mpr h0) (fun h => h1 ((hcondLast t).mp h)) (iblk m c 0 t) (iblk m c 1 t) (iblk m c 2 t) (iblk m c 3 t) (iblk m c 4 t), colMax_First c (grid0.coords t) (ms0 t) (hs0 t) (ms1 t) (hs1 t) (ms2 t) (hs2 t) (ms3 t) (hs3 t) (ms4 t) (hs4 t) (ms5 t) (hs5 t) colMin (Memref.isWhole_whole _) colMax (Memref.isWhole_whole _) ((hcondFirst t).mpr h0) (fun h => h1 ((hcondLast t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_neg h1).trans rfl)

/-- At a middle point: the middle case's contents, over what the point before left in the columns. -/
theorem outsAt_Mid (c : Dev nD) (t : Fin cfg0.N) (h0 : ¬t.val % 8 = 0) (h1 : ¬t.val % 8 = 7) :
    outsAt m c t.val t.isLt = (out_Mid c (grid0.coords t) (ms0 t) (hs0 t) (ms1 t) (hs1 t) (ms2 t) (hs2 t) (ms3 t) (hs3 t) (ms4 t) (hs4 t) (ms5 t) (hs5 t) colMin (Memref.isWhole_whole _) colMax (Memref.isWhole_whole _) (fun h => h0 ((hcondFirst t).mp h)) (fun h => h1 ((hcondLast t).mp h)) (iblk m c 0 t) (iblk m c 1 t) (iblk m c 2 t) (iblk m c 3 t) (iblk m c 4 t) (outsAt m c (t.val - 1) (Nat.lt_of_le_of_lt (Nat.sub_le _ _) t.isLt)).2.1 (outsAt m c (t.val - 1) (Nat.lt_of_le_of_lt (Nat.sub_le _ _) t.isLt)).2.2, colMin_Mid c (grid0.coords t) (ms0 t) (hs0 t) (ms1 t) (hs1 t) (ms2 t) (hs2 t) (ms3 t) (hs3 t) (ms4 t) (hs4 t) (ms5 t) (hs5 t) colMin (Memref.isWhole_whole _) colMax (Memref.isWhole_whole _) (fun h => h0 ((hcondFirst t).mp h)) (fun h => h1 ((hcondLast t).mp h)) (iblk m c 0 t) (iblk m c 1 t) (iblk m c 2 t) (iblk m c 3 t) (iblk m c 4 t) (outsAt m c (t.val - 1) (Nat.lt_of_le_of_lt (Nat.sub_le _ _) t.isLt)).2.1 (outsAt m c (t.val - 1) (Nat.lt_of_le_of_lt (Nat.sub_le _ _) t.isLt)).2.2, colMax_Mid c (grid0.coords t) (ms0 t) (hs0 t) (ms1 t) (hs1 t) (ms2 t) (hs2 t) (ms3 t) (hs3 t) (ms4 t) (hs4 t) (ms5 t) (hs5 t) colMin (Memref.isWhole_whole _) colMax (Memref.isWhole_whole _) (fun h => h0 ((hcondFirst t).mp h)) (fun h => h1 ((hcondLast t).mp h)) (iblk m c 0 t) (iblk m c 1 t) (iblk m c 2 t) (iblk m c 3 t) (iblk m c 4 t) (outsAt m c (t.val - 1) (Nat.lt_of_le_of_lt (Nat.sub_le _ _) t.isLt)).2.1 (outsAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- At a point that closes a query block: the last case's contents, over what the point before left in the columns. -/
theorem outsAt_Last (c : Dev nD) (t : Fin cfg0.N) (h0 : ¬t.val % 8 = 0) (h1 : t.val % 8 = 7) :
    outsAt m c t.val t.isLt = (out_Last c (grid0.coords t) (ms0 t) (hs0 t) (ms1 t) (hs1 t) (ms2 t) (hs2 t) (ms3 t) (hs3 t) (ms4 t) (hs4 t) (ms5 t) (hs5 t) colMin (Memref.isWhole_whole _) colMax (Memref.isWhole_whole _) (fun h => h0 ((hcondFirst t).mp h)) ((hcondLast t).mpr h1) (iblk m c 0 t) (iblk m c 1 t) (iblk m c 2 t) (iblk m c 3 t) (iblk m c 4 t) (outsAt m c (t.val - 1) (Nat.lt_of_le_of_lt (Nat.sub_le _ _) t.isLt)).2.1 (outsAt m c (t.val - 1) (Nat.lt_of_le_of_lt (Nat.sub_le _ _) t.isLt)).2.2, colMin_Last c (grid0.coords t) (ms0 t) (hs0 t) (ms1 t) (hs1 t) (ms2 t) (hs2 t) (ms3 t) (hs3 t) (ms4 t) (hs4 t) (ms5 t) (hs5 t) colMin (Memref.isWhole_whole _) colMax (Memref.isWhole_whole _) (fun h => h0 ((hcondFirst t).mp h)) ((hcondLast t).mpr h1) (iblk m c 0 t) (iblk m c 1 t) (iblk m c 2 t) (iblk m c 3 t) (iblk m c 4 t) (outsAt m c (t.val - 1) (Nat.lt_of_le_of_lt (Nat.sub_le _ _) t.isLt)).2.1 (outsAt m c (t.val - 1) (Nat.lt_of_le_of_lt (Nat.sub_le _ _) t.isLt)).2.2, colMax_Last c (grid0.coords t) (ms0 t) (hs0 t) (ms1 t) (hs1 t) (ms2 t) (hs2 t) (ms3 t) (hs3 t) (ms4 t) (hs4 t) (ms5 t) (hs5 t) colMin (Memref.isWhole_whole _) colMax (Memref.isWhole_whole _) (fun h => h0 ((hcondFirst t).mp h)) ((hcondLast t).mpr h1) (iblk m c 0 t) (iblk m c 1 t) (iblk m c 2 t) (iblk m c 3 t) (iblk m c 4 t) (outsAt m c (t.val - 1) (Nat.lt_of_le_of_lt (Nat.sub_le _ _) t.isLt)).2.1 (outsAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant between points, and the proof data -/

/-- The region invariant before position `n`: before the first point what the launch hands over (both columns at anything);
    afterwards each column at what the point before left in it, and the generator register at some state. -/
def PhiS (c : Dev nD) : (n : ℕ) → n ≤ cfg0.N → sProp 𝕄
  | 0, _ => Pipeline.ΦA spec0 c
  | n + 1, hn => iprop(iprop(owns (c : Thread nD τ) colMin fullShare ((outsAt m c n hn).2.1) ∗ owns (c : Thread nD τ) colMax fullShare ((outsAt m c n hn).2.2)) ∗ (∃ r, prngReg c r))

theorem PhiS_zero (c : Dev nD) (n : ℕ) (h : n ≤ cfg0.N) (hz : n = 0) : PhiS m c n h = Pipeline.ΦA spec0 c := by
  subst hz; rfl

/-- After point `n`: the columns at that point's contents. -/
theorem PhiS_succ (c : Dev nD) (n : ℕ) (hn : n < cfg0.N) :
    PhiS m c (n + 1) hn = iprop(iprop(owns (c : Thread nD τ) colMin fullShare ((outsAt m c n hn).2.1) ∗ owns (c : Thread nD τ) colMax fullShare ((outsAt m c n hn).2.2)) ∗ (∃ r, prngReg c r)) := rfl

/-- Before a point that is not the first: the columns at what the point before left. -/
theorem PhiS_pos (c : Dev nD) (n : ℕ) (h : n ≤ cfg0.N) (hz : n ≠ 0) :
    PhiS m c n h = iprop(iprop(owns (c : Thread nD τ) colMin fullShare ((outsAt m c (n - 1) (by omega)).2.1) ∗ owns (c : Thread nD τ) colMax fullShare ((outsAt m c (n - 1) (by omega)).2.2)) ∗ (∃ r, prngReg c r)) := by
  cases n with
  | zero => exact absurd rfl hz
  | succ n => rfl

/-- The proof data of the pipeline on core `c`. The arrays are the region-entry contents. After the body each input's buffer
    holds its block and the output's what the running recursion says. The invariant carries the two columns. Nothing is owed.
    The normalised rows stand behind two windows and so do the labels: each of those two arrays is held half and half by its
    two windows (both only read it); the unnormalised rows are held whole, and the result array outright. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
  owed _ := 0

/-- The proof data's arrays are the region-entry contents (the record projected, so that the fold over the host lines is
    never unfolded to check it). -/
theorem A_eq (c : Dev nD) (w : Fin cfg0.W) : (dats m 0 c).A w = V m c (Pipeline.arrRef spec0 w) := by
  dsimp only [dats]

/-- The invariant at a point's start, restated at the point's number. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = (outsAt m c t.val t.isLt).1 := by dsimp only [dats]

/-- Each input's current staging buffer holds its block at every point. -/
theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d

/-! ## Where the output window is idle -/

/-- No input window is ever idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
/-- Away from the last key tile the output window is idle and its block is not written back. -/
theorem idle5 : ∀ t : Fin cfg0.N, ¬condLast (grid0.coords t) → cfg0.idle 5 (grid0.coords t) = true := by decide +kernel
theorem noFlush5 : ∀ t : Fin cfg0.N, ¬condLast (grid0.coords t) → (cfg0.win 5).flush t = false := by decide +kernel
/-- At the last key tile it is live. -/
theorem live5 : ∀ t : Fin cfg0.N, condLast (grid0.coords t) → cfg0.idle 5 (grid0.coords t) = false := by decide +kernel

end Cert.KernelIdeal.Tri

end
-- ==== Proof.KPieces.lean ====
/-
  What each case of the kernel body leaves in its buffers, as arithmetic on the inputs.

  At a grid point (i, j) the body loads the j-th tile of 1024 rows of the resident key array, the query block, the
  two label rows, and the two running columns; it folds the tile's masked row minima into the minimum column and
  its masked row maxima into the maximum column; at the first key tile the columns it folds into are plus and
  minus infinity, which it has just stored; at the last key tile it reads the two finished columns back and turns
  them, with the query block's unnormalised rows, into the block's 1024 row losses. Each lemma below reads the
  pieces one case leaves in one buffer as that arithmetic: every piece is one store of the whole buffer, every
  load is of a whole buffer, except the key tile, which is 1024 consecutive rows of the key array.
-/
import proofs.«151936_j61710090109327_2_alg».proof.Proof.KData
import Idealize.ShloMosaic.Lib.Pipeline.FrameBody
import Idealize.ShloMosaic.Lib.Pipeline.Value
import Idealize.ShloMosaic.Lib.ValueIdx
import Idealize.ShloMosaic.Lib.Tactic

set_option maxRecDepth 16384

noncomputable section

namespace Cert.KernelIdeal.Tri

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

/-- The zero offsets of a whole-buffer access. -/
theorem hz2 : (![0, 0] : Fin 2 → Nat) = fun _ => 0 := funext fun a => by fin_cases a <;> rfl

/-! ## The key tile -/

/-- The tile of the resident key array the body loads at point `i`: the 1024 consecutive rows that start at
    row 1024 j, j the point's key-tile coordinate, all 256 columns. -/
def keyTile (i : grid0.Coords) (x3 : Vec F S8192x256 .bf16) : Vec F S1024x256 .bf16 :=
  View.ld (Val := Elt F) x3 (Rect.unit (s := S8192x256) (k0_off1 i) S1024x256.size (k0_off1_inb i))

/-- Row `b`, column `d` of the tile is row `1024 j + b`, column `d` of the key array. -/
theorem keyTile_apply (i : grid0.Coords) (x3 : Vec F S8192x256 .bf16) (b : Fin 1024) (d : Fin 256) :
    keyTile i x3 (ix2 b d)
      = x3 (ix2 ⟨1024 * (i 1).val + b.val, by have h : (i 1).val < 8 := (i 1).isLt; have := b.isLt; omega⟩ d) := by
  unfold keyTile
  show x3 _ = x3 _
  congr 1
  funext a
  apply Fin.ext
  match a with
  | ⟨0, _⟩ => show k0_off1 i 0 + 1 * b.val = 1024 * (i 1).val + b.val; rw [k0_off1_eq]; show 1024 * (i 1).val + 1 * b.val = _; omega
  | ⟨1, _⟩ => show k0_off1 i 1 + 1 * d.val = d.val; rw [k0_off1_eq]; show 0 + 1 * d.val = _; omega

/-! ## A middle key tile -/

/-- A middle key tile leaves in the minimum column the column it found, folded with the tile's masked row minima. -/
theorem colMin_Mid_eq (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1x1024 .i32) (harg4 : arg4.IsWhole) (arg5 : Memref sig .tc .vmem S1x1024 .i32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (hc0 : ¬condFirst i) (hc1 : ¬condLast i)
    (x2 : Vec F S1024x256 .bf16) (x3 : Vec F S8192x256 .bf16) (x4 x5 : Vec F S1x1024 .i32) (x6 : Vec F S1024x256 .f32) (xs8 xs9 : Vec F S1024x1 .f32) :
    colMin_Mid c i arg2 harg2 arg3 harg3 arg4 harg4 arg5 harg5 arg6 harg6 arg7 harg7 arg8 harg8 arg9 harg9 hc0 hc1 x2 x3 x4 x5 x6 xs8 xs9 = k0_pay7 (keyTile i x3) x2 x4 x5 xs8 := by
  unfold colMin_Mid
  rw [View.read_writes_junk_eq_canon]
  unfold runMid
  dsimp only
  sl_unfold_run_names
  rw [View.canon_unit_zero hz2]
  simp only [View.readAt_eq_ld, harg2.read_unread, harg3.read_unread, harg4.read_unread, harg5.read_unread, harg8.read_unread, View.ld_unit_zero (S := S1024x256) hz2, View.ld_unit_zero (S := S1x1024) hz2, View.ld_unit_zero (S := S1024x1) hz2]
  rfl

/-- A middle key tile leaves in the maximum column the column it found, folded with the tile's masked row maxima. -/
theorem colMax_Mid_eq (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1x1024 .i32) (harg4 : arg4.IsWhole) (arg5 : Memref sig .tc .vmem S1x1024 .i32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (hc0 : ¬condFirst i) (hc1 : ¬condLast i)
    (x2 : Vec F S1024x256 .bf16) (x3 : Vec F S8192x256 .bf16) (x4 x5 : Vec F S1x1024 .i32) (x6 : Vec F S1024x256 .f32) (xs8 xs9 : Vec F S1024x1 .f32) :
    colMax_Mid c i arg2 harg2 arg3 harg3 arg4 harg4 arg5 harg5 arg6 harg6 arg7 harg7 arg8 harg8 arg9 harg9 hc0 hc1 x2 x3 x4 x5 x6 xs8 xs9 = k0_pay1 (k0_pay8 (keyTile i x3) x2 x4 x5 xs9) := by
  unfold colMax_Mid
  rw [View.read_writes_junk_eq_canon]
  unfold runMid
  dsimp only
  sl_unfold_run_names
  rw [View.canon_unit_zero hz2]
  simp only [View.readAt_eq_ld, harg2.read_unread, harg3.read_unread, harg4.read_unread, harg5.read_unread, harg9.read_unread, View.ld_unit_zero (S := S1024x256) hz2, View.ld_unit_zero (S := S1x1024) hz2, View.ld_unit_zero (S := S1024x1) hz2]
  rfl

/-! ## The first key tile -/

/-- The first key tile leaves in the minimum column plus infinity folded with the tile's masked row minima: it
    stores the column of plus infinity, reads it back, and folds into that. -/
theorem colMin_First_eq (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1x1024 .i32) (harg4 : arg4.IsWhole) (arg5 : Memref sig .tc .vmem S1x1024 .i32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (hc0 : condFirst i) (hc1 : ¬condLast i)
    (x2 : Vec F S1024x256 .bf16) (x3 : Vec F S8192x256 .bf16) (x4 x5 : Vec F S1x1024 .i32) (x6 : Vec F S1024x256 .f32) :
    colMin_First c i arg2 harg2 arg3 harg3 arg4 harg4 arg5 harg5 arg6 harg6 arg7 harg7 arg8 harg8 arg9 harg9 hc0 hc1 x2 x3 x4 x5 x6 = k0_pay7 (keyTile i x3) x2 x4 x5 k0_pay3 := by
  unfold colMin_First
  rw [View.read_writes_junk_eq_canon]
  unfold runFirst
  dsimp only
  sl_unfold_run_names
  rw [View.canon_cons_unit_zero hz2, View.readCov_unit_zero (S := S1024x1) _ hz2]
  simp only [View.readAt_eq_ld, harg2.read_unread, harg3.read_unread, harg4.read_unread, harg5.read_unread, View.ld_unit_zero (S := S1024x256) hz2, View.ld_unit_zero (S := S1x1024) hz2, View.ld_unit_zero (S := S1024x1) hz2]
  rfl

/-- The first key tile leaves in the maximum column minus infinity folded with the tile's masked row maxima. -/
theorem colMax_First_eq (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1x1024 .i32) (harg4 : arg4.IsWhole) (arg5 : Memref sig .tc .vmem S1x1024 .i32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (hc0 : condFirst i) (hc1 : ¬condLast i)
    (x2 : Vec F S1024x256 .bf16) (x3 : Vec F S8192x256 .bf16) (x4 x5 : Vec F S1x1024 .i32) (x6 : Vec F S1024x256 .f32) :
    colMax_First c i arg2 harg2 arg3 harg3 arg4 harg4 arg5 harg5 arg6 harg6 arg7 harg7 arg8 harg8 arg9 harg9 hc0 hc1 x2 x3 x4 x5 x6 = k0_pay1 (k0_pay8 (keyTile i x3) x2 x4 x5 k0_pay4) := by
  unfold colMax_First
  rw [View.read_writes_junk_eq_canon]
  unfold runFirst
  dsimp only
  sl_unfold_run_names
  rw [View.canon_cons_unit_zero hz2, View.readCov_unit_zero (S := S1024x1) _ hz2]
  simp only [View.readAt_eq_ld, harg2.read_unread, harg3.read_unread, harg4.read_unread, harg5.read_unread, View.ld_unit_zero (S := S1024x256) hz2, View.ld_unit_zero (S := S1x1024) hz2, View.ld_unit_zero (S := S1024x1) hz2]
  rfl

/-! ## The last key tile -/

/-- The last key tile folds the minimum column as a middle one does. -/
theorem colMin_Last_eq (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1x1024 .i32) (harg4 : arg4.IsWhole) (arg5 : Memref sig .tc .vmem S1x1024 .i32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (hc0 : ¬condFirst i) (hc1 : condLast i)
    (x2 : Vec F S1024x256 .bf16) (x3 : Vec F S8192x256 .bf16) (x4 x5 : Vec F S1x1024 .i32) (x6 : Vec F S1024x256 .f32) (xs8 xs9 : Vec F S1024x1 .f32) :
    colMin_Last c i arg2 harg2 arg3 harg3 arg4 harg4 arg5 harg5 arg6 harg6 arg7 harg7 arg8 harg8 arg9 harg9 hc0 hc1 x2 x3 x4 x5 x6 xs8 xs9 = k0_pay7 (keyTile i x3) x2 x4 x5 xs8 := by
  unfold colMin_Last
  rw [View.read_writes_junk_eq_canon]
  unfold runLast
  dsimp only
  sl_unfold_run_names
  rw [View.canon_unit_zero hz2]
  simp only [View.readAt_eq_ld, harg2.read_unread, harg3.read_unread, harg4.read_unread, harg5.read_unread, harg8.read_unread, View.ld_unit_zero (S := S1024x256) hz2, View.ld_unit_zero (S := S1x1024) hz2, View.ld_unit_zero (S := S1024x1) hz2]
  rfl

/-- The last key tile folds the maximum column as a middle one does. -/
theorem colMax_Last_eq (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1x1024 .i32) (harg4 : arg4.IsWhole) (arg5 : Memref sig .tc .vmem S1x1024 .i32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (hc0 : ¬condFirst i) (hc1 : condLast i)
    (x2 : Vec F S1024x256 .bf16) (x3 : Vec F S8192x256 .bf16) (x4 x5 : Vec F S1x1024 .i32) (x6 : Vec F S1024x256 .f32) (xs8 xs9 : Vec F S1024x1 .f32) :
    colMax_Last c i arg2 harg2 arg3 harg3 arg4 harg4 arg5 harg5 arg6 harg6 arg7 harg7 arg8 harg8 arg9 harg9 hc0 hc1 x2 x3 x4 x5 x6 xs8 xs9 = k0_pay1 (k0_pay8 (keyTile i x3) x2 x4 x5 xs9) := by
  unfold colMax_Last
  rw [View.read_writes_junk_eq_canon]
  unfold runLast
  dsimp only
  sl_unfold_run_names
  rw [View.canon_unit_zero hz2]
  simp only [View.readAt_eq_ld, harg2.read_unread, harg3.read_unread, harg4.read_unread, harg5.read_unread, harg9.read_unread, View.ld_unit_zero (S := S1024x256) hz2, View.ld_unit_zero (S := S1x1024) hz2, View.ld_unit_zero (S := S1024x1) hz2]
  rfl

/-- The last key tile leaves in the output buffer the block's row losses: the arithmetic of the epilogue on the two
    columns it has just stored, read back, and the query block's unnormalised rows. -/
theorem out_Last_eq (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1x1024 .i32) (harg4 : arg4.IsWhole) (arg5 : Memref sig .tc .vmem S1x1024 .i32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1024x1 .f32) (harg8 : arg8.IsWhole) (arg9 : Memref sig .tc .vmem S1024x1 .f32) (harg9 : arg9.IsWhole) (hc0 : ¬condFirst i) (hc1 : condLast i)
    (x2 : Vec F S1024x256 .bf16) (x3 : Vec F S8192x256 .bf16) (x4 x5 : Vec F S1x1024 .i32) (x6 : Vec F S1024x256 .f32) (xs8 xs9 : Vec F S1024x1 .f32) :
    out_Last c i arg2 harg2 arg3 harg3 arg4 harg4 arg5 harg5 arg6 harg6 arg7 harg7 arg8 harg8 arg9 harg9 hc0 hc1 x2 x3 x4 x5 x6 xs8 xs9
      = k0_pay2 (colMin_Last c i arg2 harg2 arg3 harg3 arg4 harg4 arg5 harg5 arg6 harg6 arg7 harg7 arg8 harg8 arg9 harg9 hc0 hc1 x2 x3 x4 x5 x6 xs8 xs9)
          (colMax_Last c i arg2 harg2 arg3 harg3 arg4 harg4 arg5 harg5 arg6 harg6 arg7 harg7 arg8 harg8 arg9 harg9 hc0 hc1 x2 x3 x4 x5 x6 xs8 xs9) x6 := by
  rw [colMin_Last_eq, colMax_Last_eq]
  unfold out_Last
  rw [View.read_writes_junk_eq_canon]
  unfold runLast
  dsimp only
  sl_unfold_run_names
  rw [View.canon_unit_zero hz2, View.readCov_unit_zero (S := S1024x1) _ hz2, View.readCov_unit_zero (S := S1024x1) _ hz2]
  simp only [View.readAt_eq_ld, harg2.read_unread, harg3.read_unread, harg4.read_unread, harg5.read_unread, harg6.read_unread, harg8.read_unread, harg9.read_unread, View.ld_unit_zero (S := S1024x256) hz2, View.ld_unit_zero (S := S1x1024) hz2, View.ld_unit_zero (S := S1024x1) hz2]
  rfl

end Cert.KernelIdeal.Tri

end
-- ==== Proof.KPayloads.lean ====
/-
  The kernel body's eight pure values, read at an index, on the extended reals.

  At one grid point the body holds a block of 1024 query rows and a tile of 1024 key rows (each row 256 entries,
  already normalised), the labels of the query rows and those of the key rows, each as one row of 1024 words, and
  two running columns of 1024 entries. Read at explicit coordinates its values are:

    * the product tile at (r, b): the sum over d of query row r's entry d times key row b's entry d. Both operands
      are contracted along their LAST axis and the accumulator starts at zero, which drops;
    * the mask at (r, b): the bit "query row r and key row b carry one label", so that a selection on it is an
      if-then-else on the equality of the two labels;
    * the running-minimum column at row r: its old entry, min the meet over the tile's key rows b of the product
      where the labels agree and top elsewhere. The lane minimum is a fold of minima from plus infinity over the
      row's coordinates, and such a fold is the meet over them;
    * the running-maximum column likewise: the old entry, max the join over b of bottom where the labels agree
      and the product elsewhere;
    * the epilogue at column r of its one row: the root of the sum over d of the squares of (entry (r, d) of the
      unnormalised block minus the finished minimum of row r plus the small constant), minus the same with the
      finished maximum, plus the margin, clipped below at zero;
    * the two reset columns: top everywhere, bottom everywhere; and a cast of a column to its own shape is the column.

  The operations that are not entry by entry are read once each, at the literal shapes: a column broadcast along
  the rows reads (r, 0) at (r, d); a row broadcast down the rows reads (0, b) at (r, b); a transpose of a one-row or
  one-column matrix swaps the coordinates; a vector cast to a one-column matrix reads entry r at (r, 0); a lane
  reduction of a matrix, at row r, runs over the entries (r, k). No step needs an entry to be finite.
-/
import proofs.«151936_j61710090109327_2_alg».proof.Proof.Gen.KernelIdeal.Skeleton
import proofs.«151936_j61710090109327_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Payloads

open Cert.KernelIdeal Cert.KernelIdeal.Gen Idealize.ShloMosaic Idealize.ShloMosaic.ValueIdx
open scoped BigOperators

/-! ## The two infinities; folds of minima and maxima -/

/-- The word with an all-ones exponent, a zero significand and a clear sign encodes plus infinity: the top. -/
theorem posInf_eq : Ideal.ofBits .f32 0x7F800000#32 = (⊤ : EReal) := by simp [Ideal.ofBits, Ideal.ieee]

/-- The same word with the sign set encodes minus infinity: the bottom. -/
theorem negInf_eq : Ideal.ofBits .f32 0xFF800000#32 = (⊥ : EReal) := by simp [Ideal.ofBits, Ideal.ieee]

/-- On a linear order with a top, folding `min` from the top over a finite index set is the meet over it: both
    are the top on the empty set and take the minimum with the new entry when an index is added. -/
theorem fold_min_top_eq_inf {ι α : Type*} [LinearOrder α] [OrderTop α] (s : Finset ι) (f : ι → α) :
    s.fold min ⊤ f = s.inf f := by
  classical
  induction s using Finset.induction_on with
  | empty => simp
  | insert a s ha ih => rw [Finset.fold_insert ha, Finset.inf_insert, ih]

/-- On a linear order with a bottom, folding `max` from the bottom over a finite index set is the join over it. -/
theorem fold_max_bot_eq_sup {ι α : Type*} [LinearOrder α] [OrderBot α] (s : Finset ι) (f : ι → α) :
    s.fold max ⊥ f = s.sup f := by
  classical
  induction s using Finset.induction_on with
  | empty => simp
  | insert a s ha ih => rw [Finset.fold_insert ha, Finset.sup_insert, ih]

/-- A minimum reduction over ONE axis, on the extended reals: at a reduced index, the fold of `min` from the
    accumulator's value over that axis's coordinates (the source indices that drop to the reduced index are the
    reduced index with each coordinate put back, and `min` commutes and associates). -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-! ## The operations that move entries, at the literal shapes -/

/-- A column of 1024 entries broadcast along rows of 256 reads, at (r, d), the column's entry r. -/
theorem colBroadcast256_apply {α : Type} (v : S1024x1.Idx → α) (r : Fin 1024) (d : Fin 256) :
    broadcastTo S1024x256 v broadcasts_S1024x1_S1024x256 (ix2 r d) = v (ix2 r (0 : Fin 1)) :=
  broadcastTo_apply v _ (ix2 r d) (ix2 r (0 : Fin 1)) fun a => match a with
    | ⟨0, _⟩ => by show r.val = if (1024 : Nat) = 1 then 0 else r.val; rw [if_neg (by decide)]
    | ⟨1, _⟩ => by show 0 = if (1 : Nat) = 1 then 0 else d.val; rw [if_pos rfl]

/-- The same column broadcast along rows of 1024 reads, at (r, b), its entry r. -/
theorem colBroadcast1024_apply {α : Type} (v : S1024x1.Idx → α) (r b : Fin 1024) :
    broadcastTo S1024x1024 v broadcasts_S1024x1_S1024x1024 (ix2 r b) = v (ix2 r (0 : Fin 1)) :=
  broadcastTo_apply v _ (ix2 r b) (ix2 r (0 : Fin 1)) fun a => match a with
    | ⟨0, _⟩ => by show r.val = if (1024 : Nat) = 1 then 0 else r.val; rw [if_neg (by decide)]
    | ⟨1, _⟩ => by show 0 = if (1 : Nat) = 1 then 0 else b.val; rw [if_pos rfl]

/-- A row of 1024 entries broadcast down 1024 rows reads, at (r, b), the row's entry b. -/
theorem rowBroadcast1024_apply {α : Type} (v : S1x1024.Idx → α) (r b : Fin 1024) :
    broadcastTo S1024x1024 v broadcasts_S1x1024_S1024x1024 (ix2 r b) = v (ix2 (0 : Fin 1) b) :=
  broadcastTo_1b_ab_apply v _ r b

/-- A vector of 1024 entries cast to a one-column matrix reads, at (r, 0), entry r: the two row-major positions
    are `r` and `r * 1 + 0`. -/
theorem colCast_apply {α : Type} (v : S1024.Idx → α) (r : Fin 1024) :
    shapeCast S1024x1 v shapeCasts_S1024_S1024x1 (ix2 r (0 : Fin 1)) = v (ix1 r) :=
  shapeCast_apply v _ (ix2 r (0 : Fin 1)) (ix1 r) (by
    rw [Shape.rowMajor_val_one, Shape.rowMajor_val_two]
    show r.val = r.val * 1 + 0
    omega)

/-- Row r of the reduced vector with coordinate k put back on the reduced axis of a 1024 by 256 matrix is (r, k) … -/
theorem lift256 (r : Fin 1024) (k : Fin (S1024x256.size 1)) :
    reduces_S1024x256_S1024.lift (ix1 r) k = ix2 r (⟨k.val, k.isLt⟩ : Fin 256) := by
  funext c; apply Fin.ext
  fin_cases c <;> rfl

/-- … and of a 1024 by 1024 matrix likewise. -/
theorem lift1024 (r : Fin 1024) (k : Fin (S1024x1024.size 1)) :
    reduces_S1024x1024_S1024.lift (ix1 r) k = ix2 r (⟨k.val, k.isLt⟩ : Fin 1024) := by
  funext c; apply Fin.ext
  fin_cases c <;> rfl

/-! ## The column casts and the two reset columns -/

/-- A column cast to its own shape is the column. -/
theorem pay1_eq (v33 : FVec Ideal S1024x1 .f32) : k0_pay1 (F := Ideal) v33 = v33 :=
  shapeCast_self v33 _

/-- The reset of the running minimum is the top at every entry. -/
theorem pay3_apply (y : S1024x1.Idx) : k0_pay3 (F := Ideal) y = (⊤ : EReal) := by
  unfold k0_pay3
  rw [shapeCast_self]
  exact posInf_eq

/-- The reset of the running maximum is the bottom at every entry. -/
theorem pay4_apply (y : S1024x1.Idx) : k0_pay4 (F := Ideal) y = (⊥ : EReal) := by
  unfold k0_pay4
  rw [shapeCast_self]
  exact negInf_eq

/-! ## The product tile -/

local notation "D5" => dot_S1024x256_S1024x256_S1024x1024_1_1_0_0_n_n

/-- The left operand's index under output index i and contraction index q: on its kept axis, i's row … -/
theorem lhs5_0 (i : S1024x1024.Idx) (q : (D5).contr.Idx) : ((D5).lhsIdx i q 0).val = (i 0).val := by
  unfold DotDims.lhsIdx
  rw [dif_neg (show ¬(0 : Fin S1024x256.rank) ∈ (D5).lhsBatch by decide),
    dif_pos (show (0 : Fin S1024x256.rank) ∈ (D5).lhsNonContracting by decide)]
  rfl

/-- … and on its contracted axis, the last, q's one coordinate. -/
theorem lhs5_1 (i : S1024x1024.Idx) (q : (D5).contr.Idx) : ((D5).lhsIdx i q 1).val = (q ⟨0, by decide⟩).val :=
  (D5).lhsIdx_val_of_single rfl i q

/-- The right operand's index: on its kept axis, i's COLUMN … -/
theorem rhs5_0 (i : S1024x1024.Idx) (q : (D5).contr.Idx) : ((D5).rhsIdx i q 0).val = (i 1).val := by
  unfold DotDims.rhsIdx
  rw [dif_neg (show ¬(0 : Fin S1024x256.rank) ∈ (D5).rhsBatch by decide),
    dif_pos (show (0 : Fin S1024x256.rank) ∈ (D5).rhsNonContracting by decide)]
  rfl

/-- … and on its contracted axis, the last too, q's one coordinate. -/
theorem rhs5_1 (i : S1024x1024.Idx) (q : (D5).contr.Idx) : ((D5).rhsIdx i q 1).val = (q ⟨0, by decide⟩).val :=
  (D5).rhsIdx_val_of_single rfl i q

/-- THE PRODUCT TILE at (r, b): the inner product of query row r with key row b. The two casts are to the
    operands' own shapes, the accumulator is zero, and the sum over the contraction index is re-indexed by its one
    coordinate. -/
theorem pay5_apply (v6 v8 : Vec Ideal S1024x256 .bf16) (r b : Fin 1024) :
    k0_pay5 (F := Ideal) v6 v8 (ix2 r b) = ∑ d : Fin 256, v8 (ix2 r d) * v6 (ix2 b d) := by
  unfold k0_pay5
  rw [shapeCast_self, shapeCast_self]
  refine (Ideal.matmul_constant_zero_apply (φ₁ := .bf16) (φ₂ := .bf16) (D5) none v8 v6 (ix2 r b)).trans ?_
  rw [← Equiv.sum_comp (contrEquiv1 (D5) 256 rfl rfl).symm]
  refine Finset.sum_congr rfl fun k _ => ?_
  have hk := contrEquiv1_symm_val (D5) 256 rfl rfl k
  have el : (D5).lhsIdx (ix2 r b) ((contrEquiv1 (D5) 256 rfl rfl).symm k) = ix2 r k := funext fun a => Fin.ext (by
    match a with
    | ⟨0, _⟩ => exact lhs5_0 _ _
    | ⟨1, _⟩ => exact (lhs5_1 _ _).trans hk)
  have er : (D5).rhsIdx (ix2 r b) ((contrEquiv1 (D5) 256 rfl rfl).symm k) = ix2 b k := funext fun a => Fin.ext (by
    match a with
    | ⟨0, _⟩ => exact rhs5_0 _ _
    | ⟨1, _⟩ => exact (rhs5_1 _ _).trans hk)
  rw [el, er]

/-! ## The label mask -/

/-- THE MASK at (r, b): the comparison of query row r's label with key row b's. The query labels' row is
    transposed to a column and broadcast along the rows; the key labels' row is broadcast down them. -/
theorem pay6_apply (v11 v14 : Vec Ideal S1x1024 .i32) (r b : Fin 1024) :
    k0_pay6 (F := Ideal) v11 v14 (ix2 r b) = IntOp.cmpi .eq (v11 (ix2 (0 : Fin 1) r)) (v14 (ix2 (0 : Fin 1) b)) := by
  unfold k0_pay6
  rw [shapeCast_self, shapeCast_self]
  show IntOp.cmpi .eq (broadcastTo S1024x1024 _ broadcasts_S1024x1_S1024x1024 (ix2 r b))
    (broadcastTo S1024x1024 v14 broadcasts_S1x1024_S1024x1024 (ix2 r b)) = _
  rw [colBroadcast1024_apply, rowBroadcast1024_apply, transpose_ix2_apply]

/-- A selection on the mask's bit at (r, b) is the if-then-else on the equality of the two labels: the comparison's
    bit is one exactly when they are equal, and a one-bit word that is not one is zero. -/
theorem select_pay6 {α : Type} (v11 v14 : Vec Ideal S1x1024 .i32) (r b : Fin 1024) (A B : α) :
    Scalar.select (k0_pay6 (F := Ideal) v11 v14 (ix2 r b)) A B
      = if v11 (ix2 (0 : Fin 1) r) = v14 (ix2 (0 : Fin 1) b) then A else B := by
  rw [pay6_apply]
  by_cases h : v11 (ix2 (0 : Fin 1) r) = v14 (ix2 (0 : Fin 1) b)
  · rw [if_pos h, IntOp.cmpi_eq.2 h, select_one]
  · rw [if_neg h, eq_zero_of_ne_one (fun e => h (IntOp.cmpi_eq.1 e)), select_zero]

/-! ## The two masked tiles and the running columns -/

/-- The tile with plus infinity written off the same-label pairs, at (r, b): the product where the labels agree,
    top elsewhere. -/
theorem maskedPos_apply (v6 v8 : Vec Ideal S1024x256 .bf16) (v11 v14 : Vec Ideal S1x1024 .i32) (r b : Fin 1024) :
    select (k0_pay6 (F := Ideal) v11 v14) (k0_pay5 (F := Ideal) v6 v8)
        (broadcast S1024x1024 (FloatOps.ofBits (F := Ideal) .f32 0x7F800000#32)) (ix2 r b)
      = if v11 (ix2 (0 : Fin 1) r) = v14 (ix2 (0 : Fin 1) b) then ∑ d : Fin 256, v8 (ix2 r d) * v6 (ix2 b d) else ⊤ := by
  rw [select_apply, select_pay6, pay5_apply, broadcast_apply, Ideal.ofBits_def, posInf_eq]

/-- The tile with minus infinity written on the same-label pairs, at (r, b): bottom where the labels agree, the
    product elsewhere. -/
theorem maskedNeg_apply (v6 v8 : Vec Ideal S1024x256 .bf16) (v11 v14 : Vec Ideal S1x1024 .i32) (r b : Fin 1024) :
    select (k0_pay6 (F := Ideal) v11 v14) (broadcast S1024x1024 (FloatOps.ofBits (F := Ideal) .f32 0xFF800000#32))
        (k0_pay5 (F := Ideal) v6 v8) (ix2 r b)
      = if v11 (ix2 (0 : Fin 1) r) = v14 (ix2 (0 : Fin 1) b) then ⊥ else ∑ d : Fin 256, v8 (ix2 r d) * v6 (ix2 b d) := by
  rw [select_apply, select_pay6, pay5_apply, broadcast_apply, Ideal.ofBits_def, negInf_eq]

/-- THE RUNNING MINIMUM at row r: the old entry, min the meet over the tile's key rows of the first masked tile's
    row r. The lane minimum from plus infinity is the fold of `min` from the top over the row's coordinates, which
    is the meet over them; the result is cast to a column. -/
theorem pay7_apply (v6 v8 : Vec Ideal S1024x256 .bf16) (v11 v14 : Vec Ideal S1x1024 .i32) (v27 : Vec Ideal S1024x1 .f32) (r : Fin 1024) :
    k0_pay7 (F := Ideal) v6 v8 v11 v14 v27 (ix2 r (0 : Fin 1))
      = min (v27 (ix2 r (0 : Fin 1))) (Finset.univ.inf fun b : Fin 1024 =>
          if v11 (ix2 (0 : Fin 1) r) = v14 (ix2 (0 : Fin 1) b) then ∑ d : Fin 256, v8 (ix2 r d) * v6 (ix2 b d) else ⊤) := by
  unfold k0_pay7
  rw [shapeCast_self, minimumf_apply, colCast_apply]
  refine congrArg (min (v27 (ix2 r (0 : Fin 1)))) ?_
  refine (multiReduction_minimumf_single (φ := .f32) _ _ reduces_S1024x1024_S1024 _ _ (ix1 r)).trans ?_
  rw [Ideal.ofBits_def, posInf_eq]
  refine (congrArg (fun f => Finset.fold min (⊤ : EReal) f (Finset.univ : Finset (Fin 1024)))
    (funext fun k => (congrArg _ (lift1024 r k)).trans (maskedPos_apply v6 v8 v11 v14 r _))).trans ?_
  exact fold_min_top_eq_inf _ _

/-- THE RUNNING MAXIMUM at row r: the old entry, max the join over the tile's key rows of the second masked
    tile's row r: `max` folded from the bottom is the join. -/
theorem pay8_apply (v6 v8 : Vec Ideal S1024x256 .bf16) (v11 v14 : Vec Ideal S1x1024 .i32) (v32 : Vec Ideal S1024x1 .f32) (r : Fin 1024) :
    k0_pay8 (F := Ideal) v6 v8 v11 v14 v32 (ix2 r (0 : Fin 1))
      = max (v32 (ix2 r (0 : Fin 1))) (Finset.univ.sup fun b : Fin 1024 =>
          if v11 (ix2 (0 : Fin 1) r) = v14 (ix2 (0 : Fin 1) b) then ⊥ else ∑ d : Fin 256, v8 (ix2 r d) * v6 (ix2 b d)) := by
  unfold k0_pay8
  rw [maximumf_apply, colCast_apply]
  refine congrArg (max (v32 (ix2 r (0 : Fin 1)))) ?_
  refine (Ideal.multiReduction_maximumf_single (φ := .f32) _ _ reduces_S1024x1024_S1024 _ _ (ix1 r)).trans ?_
  rw [Ideal.ofBits_def, negInf_eq]
  refine (congrArg (fun f => Finset.fold max (⊥ : EReal) f (Finset.univ : Finset (Fin 1024)))
    (funext fun k => (congrArg _ (lift1024 r k)).trans (maskedNeg_apply v6 v8 v11 v14 r _))).trans ?_
  exact fold_max_bot_eq_sup _ _

/-! ## The epilogue -/

/-- Entry (r, d) of the block minus a column's entry r broadcast along the row, plus the small constant. -/
theorem shifted_apply (s : Vec Ideal S1024x1 .f32) (v42 : Vec Ideal S1024x256 .f32) (r : Fin 1024) (d : Fin 256) :
    addf (subf v42 (broadcastTo S1024x256 s broadcasts_S1024x1_S1024x256))
        (broadcast S1024x256 (FloatOps.ofBits (F := Ideal) .f32 0x358637BD#32)) (ix2 r d)
      = (v42 (ix2 r d) - s (ix2 r (0 : Fin 1))) + Cert.Spec.diffEps := by
  rw [addf_apply, subf_apply, colBroadcast256_apply, broadcast_apply, Ideal.ofBits_def]
  rfl

/-- The root, at (r, 0), of the lane sum of a matrix's entrywise square cast to a column: the root of the sum
    over d of the squares of row r's entries. The lane sum from zero is the sum over the row's coordinates. -/
theorem rowRootSumSq_apply (W : FVec Ideal S1024x256 .f32) (hφ : FKind.Formats .f32)
    (hacc : (0x00000000#32 : BitVec 32) = FKind.add.neutral .f32 hφ) (r : Fin 1024) :
    sqrt (shapeCast S1024x1 (multiReduction .add [1] S1024 (mulf W W) 0x00000000#32 reduces_S1024x256_S1024 hφ hacc)
        shapeCasts_S1024_S1024x1) (ix2 r (0 : Fin 1))
      = Ideal.sqrt (∑ d : Fin 256, W (ix2 r d) * W (ix2 r d)) := by
  show FloatOps.sqrt (shapeCast S1024x1 _ shapeCasts_S1024_S1024x1 (ix2 r (0 : Fin 1))) = _
  rw [Ideal.sqrt_def, colCast_apply]
  refine congrArg Ideal.sqrt ?_
  refine (Ideal.multiReduction_add_single (φ := .f32) _ _ reduces_S1024x256_S1024 hφ hacc (ix1 r)).trans ?_
  exact Finset.sum_congr rfl fun k _ => congrArg (fun i => W i * W i) (lift256 r k)

/-- THE EPILOGUE at column r of its one row: row r's norm shifted by the finished minimum, minus its norm shifted
    by the finished maximum, plus the margin, clipped below at zero. The column of results is transposed to a row. -/
theorem pay2_apply (v40 v41 : Vec Ideal S1024x1 .f32) (v42 : Vec Ideal S1024x256 .f32) (r : Fin 1024) :
    k0_pay2 (F := Ideal) v40 v41 v42 (ix2 (0 : Fin 1) r)
      = max ((Ideal.sqrt (∑ d : Fin 256, ((v42 (ix2 r d) - v40 (ix2 r (0 : Fin 1))) + Cert.Spec.diffEps)
                * ((v42 (ix2 r d) - v40 (ix2 r (0 : Fin 1))) + Cert.Spec.diffEps))
              - Ideal.sqrt (∑ d : Fin 256, ((v42 (ix2 r d) - v41 (ix2 r (0 : Fin 1))) + Cert.Spec.diffEps)
                * ((v42 (ix2 r d) - v41 (ix2 r (0 : Fin 1))) + Cert.Spec.diffEps)))
            + Cert.Spec.margin) 0 := by
  unfold k0_pay2
  rw [transpose_ix2_apply, maximumf_apply, addf_apply, subf_apply]
  refine congrArg₂ max (congrArg₂ (· + ·) (congrArg₂ (· - ·) ?_ ?_) ?_) ?_
  · exact (rowRootSumSq_apply _ _ _ r).trans
      (congrArg Ideal.sqrt (Finset.sum_congr rfl fun d _ => by rw [shifted_apply]))
  · exact (rowRootSumSq_apply _ _ _ r).trans
      (congrArg Ideal.sqrt (Finset.sum_congr rfl fun d _ => by rw [shifted_apply]))
  · rfl
  · exact Ideal.ofBits_zero_f32

end Cert.KernelIdeal.Payloads

end
-- ==== Proof.LibTiledInf.lean ====
/-
  A meet over `m * n` consecutive entries, taken block by block.

  Split the index range of length `m * n` into `m` consecutive blocks of length `n`: block `a` holds the
  entries at `b + n * a` for `b` below `n`. The meet of all the entries is the meet, over the blocks, of
  each block's own meet, because every index is `b + n * a` for exactly one pair (a, b) and a meet over pairs is
  an iterated meet. And a running meet — start at the top, visit the blocks in order, each time replace the
  accumulator by its meet with the visited block's meet — ends at the meet over the blocks, because the meet is
  associative, commutative and idempotent with the top as its identity, so the order of the visits and the
  bracketing do not matter. Together: a scan that keeps a running minimum over `m` tiles of `n` keys computes
  the minimum over all `m * n` keys at once.

  Nothing but a meet-semilattice with a top is used (every complete lattice and every linear order with a top
  is one: there the meet of two elements is their minimum), so no entry has to be finite or even comparable to
  another. The same holds with joins, from the bottom, on a join-semilattice with a bottom: a running maximum.

  Two forms. `tiled_inf` / `tiled_sup`: the entries indexed by `Fin (m * n)`, the running meet a `Fin.foldl`
  over the `m` blocks, block `a`'s meet over `b : Fin n` at the index `⟨b + n * a, _⟩`. `tiled_inf_nat` /
  `tiled_sup_nat`: the entries a function of a natural number, the running meet a `List.foldl` over
  `List.range m`, block `a`'s meet over `Finset.range n` at `b + n * a`, the whole over
  `Finset.range (m * n)`; no bound has to be carried. The steps are stated on their own: a running meet over
  any list from any initial value (`foldl_inf_eq`), the regrouping into blocks (`inf_univ_eq_inf_blocks`,
  `inf_range_eq_inf_blocks`).
-/
import Mathlib.Data.Finset.Lattice.Prod
import Mathlib.Data.Fintype.Basic
import Mathlib.Data.Fintype.Prod
import Mathlib.Logic.Equiv.Fin.Basic

namespace Cert.LibTiledInf

variable {α : Type*}

/-- Entry `b` of block `a` lies inside the range: `b + n * a < m * n` for `a < m` and `b < n`. -/
theorem block_lt {m n : ℕ} (a : Fin m) (b : Fin n) : b.val + n * a.val < m * n :=
  (finProdFinEquiv (a, b)).isLt

/-- The visited indices of `List.range m` are the naturals below `m`. -/
theorem toFinset_range (m : ℕ) : (List.range m).toFinset = Finset.range m := by
  ext i; simp

/-! ## Meets -/

section Inf
variable [SemilatticeInf α] [OrderTop α]

/-- A RUNNING MEET over a list, from any initial value, is the initial value met with the meet over the list's
    elements: visiting `a` first and then the rest is meeting with `g a` and then with the rest's meet. -/
theorem foldl_inf_eq {ι : Type*} [DecidableEq ι] (l : List ι) (g : ι → α) (init : α) :
    l.foldl (fun acc a => acc ⊓ g a) init = init ⊓ l.toFinset.inf g := by
  induction l generalizing init with
  | nil => simp
  | cons a l ih => rw [List.foldl_cons, ih, List.toFinset_cons, Finset.inf_insert, inf_assoc]

/-- From the top, over the `m` indices in order, it is the meet over them. -/
theorem finFoldl_inf_eq (m : ℕ) (g : Fin m → α) :
    Fin.foldl m (fun acc a => acc ⊓ g a) ⊤ = Finset.univ.inf g := by
  rw [Fin.foldl_eq_finRange_foldl, foldl_inf_eq, List.toFinset_finRange, top_inf_eq]

/-- Written out for three indices: the running meet is the left-nested meet from the top. -/
example (g : Fin 3 → α) : ((⊤ ⊓ g 0) ⊓ g 1) ⊓ g 2 = Finset.univ.inf g := finFoldl_inf_eq 3 g

/-- The same over the naturals below `m`. -/
theorem rangeFoldl_inf_eq (m : ℕ) (g : ℕ → α) :
    (List.range m).foldl (fun acc a => acc ⊓ g a) ⊤ = (Finset.range m).inf g := by
  rw [foldl_inf_eq, toFinset_range, top_inf_eq]

/-- THE REGROUPING: the meet over all `m * n` entries is the meet over the blocks of each block's meet. Every
    index is `b + n * a` for one pair (a, b), so the meet is one over pairs, and a meet over pairs is iterated. -/
theorem inf_univ_eq_inf_blocks (m n : ℕ) (f : Fin (m * n) → α) :
    Finset.univ.inf f
      = Finset.univ.inf fun a : Fin m => Finset.univ.inf fun b : Fin n => f ⟨b.val + n * a.val, block_lt a b⟩ := by
  rw [← Finset.map_univ_equiv (finProdFinEquiv (m := m) (n := n)), Finset.inf_map, ← Finset.univ_product_univ,
    Finset.inf_product_left]
  rfl

/-- A RUNNING MEET OVER `m` TILES OF `n`, from the top, is the meet over all `m * n` entries. -/
theorem tiled_inf (m n : ℕ) (f : Fin (m * n) → α) :
    Fin.foldl m (fun acc a => acc ⊓ Finset.univ.inf fun b : Fin n => f ⟨b.val + n * a.val, block_lt a b⟩) ⊤
      = Finset.univ.inf f := by
  rw [finFoldl_inf_eq, inf_univ_eq_inf_blocks]

/-- The meet over the naturals below `k` is the meet over `Fin k` of the same entries: each bounds the other
    entry by entry. -/
theorem inf_range_eq_inf_univ (k : ℕ) (F : ℕ → α) :
    (Finset.range k).inf F = Finset.univ.inf fun i : Fin k => F i.val :=
  le_antisymm (Finset.le_inf fun i _ => Finset.inf_le (Finset.mem_range.2 i.isLt))
    (Finset.le_inf fun j hj => Finset.inf_le (f := fun i : Fin k => F i.val) (Finset.mem_univ ⟨j, Finset.mem_range.1 hj⟩))

/-- The regrouping for entries indexed by naturals. -/
theorem inf_range_eq_inf_blocks (m n : ℕ) (F : ℕ → α) :
    (Finset.range (m * n)).inf F = (Finset.range m).inf fun a => (Finset.range n).inf fun b => F (b + n * a) := by
  rw [inf_range_eq_inf_univ, inf_univ_eq_inf_blocks m n fun i => F i.val, inf_range_eq_inf_univ]
  exact Finset.inf_congr rfl fun a _ => (inf_range_eq_inf_univ n fun b => F (b + n * a.val)).symm

/-- The running meet over `m` tiles of `n`, the entries indexed by naturals: no bound to carry. -/
theorem tiled_inf_nat (m n : ℕ) (F : ℕ → α) :
    (List.range m).foldl (fun acc a => acc ⊓ (Finset.range n).inf fun b => F (b + n * a)) ⊤
      = (Finset.range (m * n)).inf F := by
  rw [rangeFoldl_inf_eq, inf_range_eq_inf_blocks]

end Inf

/-! ## Joins -/

section Sup
variable [SemilatticeSup α] [OrderBot α]

/-- A RUNNING JOIN over a list, from any initial value, is the initial value joined with the join over the list's
    elements. -/
theorem foldl_sup_eq {ι : Type*} [DecidableEq ι] (l : List ι) (g : ι → α) (init : α) :
    l.foldl (fun acc a => acc ⊔ g a) init = init ⊔ l.toFinset.sup g := by
  induction l generalizing init with
  | nil => simp
  | cons a l ih => rw [List.foldl_cons, ih, List.toFinset_cons, Finset.sup_insert, sup_assoc]

/-- From the bottom, over the `m` indices in order, it is the join over them. -/
theorem finFoldl_sup_eq (m : ℕ) (g : Fin m → α) :
    Fin.foldl m (fun acc a => acc ⊔ g a) ⊥ = Finset.univ.sup g := by
  rw [Fin.foldl_eq_finRange_foldl, foldl_sup_eq, List.toFinset_finRange, bot_sup_eq]

/-- The same over the naturals below `m`. -/
theorem rangeFoldl_sup_eq (m : ℕ) (g : ℕ → α) :
    (List.range m).foldl (fun acc a => acc ⊔ g a) ⊥ = (Finset.range m).sup g := by
  rw [foldl_sup_eq, toFinset_range, bot_sup_eq]

/-- THE REGROUPING: the join over all `m * n` entries is the join over the blocks of each block's join. -/
theorem sup_univ_eq_sup_blocks (m n : ℕ) (f : Fin (m * n) → α) :
    Finset.univ.sup f
      = Finset.univ.sup fun a : Fin m => Finset.univ.sup fun b : Fin n => f ⟨b.val + n * a.val, block_lt a b⟩ := by
  rw [← Finset.map_univ_equiv (finProdFinEquiv (m := m) (n := n)), Finset.sup_map, ← Finset.univ_product_univ,
    Finset.sup_product_left]
  rfl

/-- A RUNNING JOIN OVER `m` TILES OF `n`, from the bottom, is the join over all `m * n` entries. -/
theorem tiled_sup (m n : ℕ) (f : Fin (m * n) → α) :
    Fin.foldl m (fun acc a => acc ⊔ Finset.univ.sup fun b : Fin n => f ⟨b.val + n * a.val, block_lt a b⟩) ⊥
      = Finset.univ.sup f := by
  rw [finFoldl_sup_eq, sup_univ_eq_sup_blocks]

/-- The join over the naturals below `k` is the join over `Fin k` of the same entries. -/
theorem sup_range_eq_sup_univ (k : ℕ) (F : ℕ → α) :
    (Finset.range k).sup F = Finset.univ.sup fun i : Fin k => F i.val :=
  le_antisymm
    (Finset.sup_le fun j hj => Finset.le_sup (f := fun i : Fin k => F i.val) (Finset.mem_univ ⟨j, Finset.mem_range.1 hj⟩))
    (Finset.sup_le fun i _ => Finset.le_sup (Finset.mem_range.2 i.isLt))

/-- The regrouping for entries indexed by naturals. -/
theorem sup_range_eq_sup_blocks (m n : ℕ) (F : ℕ → α) :
    (Finset.range (m * n)).sup F = (Finset.range m).sup fun a => (Finset.range n).sup fun b => F (b + n * a) := by
  rw [sup_range_eq_sup_univ, sup_univ_eq_sup_blocks m n fun i => F i.val, sup_range_eq_sup_univ]
  exact Finset.sup_congr rfl fun a _ => (sup_range_eq_sup_univ n fun b => F (b + n * a.val)).symm

/-- The running join over `m` tiles of `n`, the entries indexed by naturals. -/
theorem tiled_sup_nat (m n : ℕ) (F : ℕ → α) :
    (List.range m).foldl (fun acc a => acc ⊔ (Finset.range n).sup fun b => F (b + n * a)) ⊥
      = (Finset.range (m * n)).sup F := by
  rw [rangeFoldl_sup_eq, sup_range_eq_sup_blocks]

end Sup

end Cert.LibTiledInf
-- ==== Proof.KCols.lean ====
/-
  How the two running columns change at one grid point, as extended reals.

  At grid point t the body sees a block of 1024 query rows q, a tile of 1024 key rows k, and their labels. For query
  row r the tile's masked minimum is the least inner product of q_r with a key row of the same label (top if the
  tile has none) and its masked maximum the greatest inner product with a key row of another label (bottom if
  none). At a point that opens a query block the columns become these; at any other point the minimum column
  becomes its old entry min the tile's, the maximum column its old entry max the tile's.
-/
import proofs.«151936_j61710090109327_2_alg».proof.Proof.KPieces
import proofs.«151936_j61710090109327_2_alg».proof.Proof.KPayloads
import proofs.«151936_j61710090109327_2_alg».proof.Proof.LibTiledInf

set_option maxRecDepth 16384

noncomputable section

namespace Cert.KernelIdeal.Tri

open Cert.KernelIdeal Cert.KernelIdeal.Gen Cert.KernelIdeal.Payloads
open Idealize.ShloMosaic Idealize.ShloMosaic.TcCoe Idealize.ShloMosaic.ValueIdx
open Idealize.SL Idealize.SL.Sem
open Idealize.ShloMosaic.Pipeline (Dat Cfg Window)
open scoped BigOperators

variable (m : (ℓ : Loc nD τ sig) → Buf (Elt Ideal) ℓ)

/-- The blocks the body sees at point `t`, at their literal types: the query rows, all the key rows, the query rows' labels, the
    key tile's labels, and the query rows unnormalised. -/
abbrev qRows (c : Dev nD) (t : Fin cfg0.N) : Vec Ideal S1024x256 .bf16 := iblk m c 0 t
abbrev kRows (c : Dev nD) (t : Fin cfg0.N) : Vec Ideal S8192x256 .bf16 := iblk m c 1 t
abbrev qLabs (c : Dev nD) (t : Fin cfg0.N) : Vec Ideal S1x1024 .i32 := iblk m c 2 t
abbrev kLabs (c : Dev nD) (t : Fin cfg0.N) : Vec Ideal S1x1024 .i32 := iblk m c 3 t
abbrev xRows (c : Dev nD) (t : Fin cfg0.N) : Vec Ideal S1024x256 .f32 := iblk m c 4 t

/-- The key tile the body loads at point `t`: 1024 rows of the resident key array. -/
abbrev keysAt (c : Dev nD) (t : Fin cfg0.N) : Vec Ideal S1024x256 .bf16 := keyTile (grid0.coords t) (kRows m c t)

/-- Row `r`'s masked minimum over the key tile of point `t`. -/
def tileMin (c : Dev nD) (t : Fin cfg0.N) (r : Fin 1024) : EReal :=
  Finset.univ.inf fun b : Fin 1024 =>
    if qLabs m c t (ix2 (0 : Fin 1) r) = kLabs m c t (ix2 (0 : Fin 1) b)
    then ∑ d : Fin 256, qRows m c t (ix2 r d) * keysAt m c t (ix2 b d) else ⊤

/-- Row `r`'s masked maximum over the key tile of point `t`. -/
def tileMax (c : Dev nD) (t : Fin cfg0.N) (r : Fin 1024) : EReal :=
  Finset.univ.sup fun b : Fin 1024 =>
    if qLabs m c t (ix2 (0 : Fin 1) r) = kLabs m c t (ix2 (0 : Fin 1) b)
    then ⊥ else ∑ d : Fin 256, qRows m c t (ix2 r d) * keysAt m c t (ix2 b d)

set_option maxHeartbeats 1600000 in
/-- At a point that opens a query block the minimum column is the tile's masked minimum: the reset value is top. -/
theorem colMin_open (c : Dev nD) (t : Fin cfg0.N) (h0 : t.val % 8 = 0) (r : Fin 1024) :
    (outsAt m c t.val t.isLt).2.1 (ix2 r (0 : Fin 1)) = tileMin m c t r := by
  have h1 : ¬t.val % 8 = 7 := by omega
  rw [outsAt_First m c t h0 h1]
  dsimp only
  rw [colMin_First_eq, pay7_apply, pay3_apply]
  exact top_inf_eq _

set_option maxHeartbeats 1600000 in
/-- At any other point it is the old entry min the tile's masked minimum. -/
theorem colMin_next (c : Dev nD) (t : Fin cfg0.N) (h0 : ¬t.val % 8 = 0) (r : Fin 1024) :
    (outsAt m c t.val t.isLt).2.1 (ix2 r (0 : Fin 1))
      = min ((outsAt m c (t.val - 1) (Nat.lt_of_le_of_lt (Nat.sub_le _ _) t.isLt)).2.1 (ix2 r (0 : Fin 1))) (tileMin m c t r) := by
  by_cases h1 : t.val % 8 = 7
  · rw [outsAt_Last m c t h0 h1]
    dsimp only
    rw [colMin_Last_eq, pay7_apply]; rfl
  · rw [outsAt_Mid m c t h0 h1]
    dsimp only
    rw [colMin_Mid_eq, pay7_apply]; rfl

set_option maxHeartbeats 1600000 in
/-- At a point that opens a query block the maximum column is the tile's masked maximum: the reset value is bottom. -/
theorem colMax_open (c : Dev nD) (t : Fin cfg0.N) (h0 : t.val % 8 = 0) (r : Fin 1024) :
    (outsAt m c t.val t.isLt).2.2 (ix2 r (0 : Fin 1)) = tileMax m c t r := by
  have h1 : ¬t.val % 8 = 7 := by omega
  rw [outsAt_First m c t h0 h1]
  dsimp only
  rw [colMax_First_eq, pay1_eq, pay8_apply, pay4_apply]
  exact bot_sup_eq _

set_option maxHeartbeats 1600000 in
/-- At any other point it is the old entry max the tile's masked maximum. -/
theorem colMax_next (c : Dev nD) (t : Fin cfg0.N) (h0 : ¬t.val % 8 = 0) (r : Fin 1024) :
    (outsAt m c t.val t.isLt).2.2 (ix2 r (0 : Fin 1))
      = max ((outsAt m c (t.val - 1) (Nat.lt_of_le_of_lt (Nat.sub_le _ _) t.isLt)).2.2 (ix2 r (0 : Fin 1))) (tileMax m c t r) := by
  by_cases h1 : t.val % 8 = 7
  · rw [outsAt_Last m c t h0 h1]
    dsimp only
    rw [colMax_Last_eq, pay1_eq, pay8_apply]; rfl
  · rw [outsAt_Mid m c t h0 h1]
    dsimp only
    rw [colMax_Mid_eq, pay1_eq, pay8_apply]; rfl

set_option maxHeartbeats 1600000 in
/-- At the last key tile of a query block, row `r`'s entry of the output block: each finished column entry is subtracted from
    every entry of the unnormalised row, the small constant is added, the two Euclidean norms are taken, and their difference
    plus the margin is clipped below at zero. -/
theorem out_row (c : Dev nD) (t : Fin cfg0.N) (h0 : ¬t.val % 8 = 0) (h1 : t.val % 8 = 7) (r : Fin 1024) :
    (outsAt m c t.val t.isLt).1 (ix2 (0 : Fin 1) r)
      = max ((Ideal.sqrt (∑ d : Fin 256, ((xRows m c t (ix2 r d) - (outsAt m c t.val t.isLt).2.1 (ix2 r (0 : Fin 1))) + Cert.Spec.diffEps)
                * ((xRows m c t (ix2 r d) - (outsAt m c t.val t.isLt).2.1 (ix2 r (0 : Fin 1))) + Cert.Spec.diffEps))
              - Ideal.sqrt (∑ d : Fin 256, ((xRows m c t (ix2 r d) - (outsAt m c t.val t.isLt).2.2 (ix2 r (0 : Fin 1))) + Cert.Spec.diffEps)
                * ((xRows m c t (ix2 r d) - (outsAt m c t.val t.isLt).2.2 (ix2 r (0 : Fin 1))) + Cert.Spec.diffEps)))
            + Cert.Spec.margin) 0 := by
  rw [outsAt_Last m c t h0 h1]
  dsimp only
  rw [out_Last_eq, pay2_apply]

end Cert.KernelIdeal.Tri

end
-- ==== Proof.KBlocks.lean ====
/-
  The windows' blocks at coordinates, and the result array from its blocks.

  The grid is 8 x 8: point t is query block t / 8 and key tile t % 8, the key tile moving fastest. A window's block
  at a point is a rectangle of its array: on each axis it starts at the block index times the block's extent.
  The normalised rows, the unnormalised rows, the query labels and the result are cut into eight blocks of 1024
  along the 8192 rows (or entries) and follow the query block; the key labels are cut the same way and follow the
  key tile; the resident key window is the whole array of normalised rows at every point. The result row is
  written back once per query block, at the block's last key tile, and those eight blocks tile it: so it ends
  holding whatever function of the entry the body leaves, block by block, at those eight points.
-/
import proofs.«151936_j61710090109327_2_alg».proof.Proof.KData
import Idealize.ShloMosaic.Lib.Pipeline.Value
import Idealize.ShloMosaic.Lib.ValueIdx
import Idealize.ShloMosaic.Lib.Tactic

set_option maxRecDepth 16384

noncomputable section

namespace Cert.KernelIdeal.Tri

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

variable (m : (ℓ : Loc nD τ sig) → Buf (Elt F) ℓ)

/-! ## The grid's coordinates and the windows' block indices, decided over the 64 points -/

/-- Point `t` of the 8 x 8 grid, the key-tile axis fastest, is query block `t / 8` -/
theorem coords_i : ∀ t : Fin cfg0.N, ((grid0.coords t) 0).val = t.val / 8 :=
  (by decide +kernel : ∀ t : Fin grid0.N, ((grid0.coords t) 0).val = t.val / 8)
/-- and key tile `t % 8`. -/
theorem coords_j : ∀ t : Fin cfg0.N, ((grid0.coords t) 1).val = t.val % 8 :=
  (by decide +kernel : ∀ t : Fin grid0.N, ((grid0.coords t) 1).val = t.val % 8)

/-- The six windows' block indices at point `t`: the query-block windows (normalised rows, labels, unnormalised
    rows, result) move with `t / 8`, the key-label window with `t % 8`, the resident key window not at all. -/
theorem blockIndex : ∀ t : Fin cfg0.N,
    win0_0.index t (0 : Fin 2) = t.val / 8 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val / 8
    ∧ win0_3.index t (0 : Fin 2) = 0 ∧ win0_3.index t (1 : Fin 2) = t.val % 8
    ∧ win0_4.index t (0 : Fin 2) = t.val / 8 ∧ win0_4.index t (1 : Fin 2) = 0
    ∧ win0_5.index t (0 : Fin 2) = 0 ∧ win0_5.index t (1 : Fin 2) = t.val / 8 :=
  (by decide +kernel : ∀ t : Fin grid0.N, _)

/-- There are 64 points. -/
theorem point_lt (t : Fin cfg0.N) : t.val < 64 := by have h : t.val < cfg0.N := t.isLt; have hN : cfg0.N = 64 := N_0; omega

/-! ## Each input window's block, at coordinates: a block's coordinate in its array is the block index times the
    block's extent plus the coordinate inside the block -/

/-- The query block of the normalised rows: rows `1024 (t / 8) + r`. -/
theorem iblk0_apply (c : Dev nD) (t : Fin cfg0.N) (r : Fin 1024) (d : Fin 256) :
    (iblk m c 0 t : Vec F S1024x256 .bf16) (ix2 r d)
      = (V m c main_v5 : S8192x256.Idx → Elt F .bf16) (ix2 ⟨1024 * (t.val / 8) + r.val, by have := point_lt t; have := r.isLt; omega⟩ d) := by
  obtain ⟨e0, e1, -⟩ := blockIndex t
  unfold iblk
  rw [View.read_apply]
  show V m c main_v5 _ = V m c main_v5 _
  congr 1
  funext a
  apply Fin.ext
  match a with
  | ⟨0, _⟩ => show win0_0.index t (0 : Fin 2) * 1024 + 1 * r.val = 1024 * (t.val / 8) + r.val; omega
  | ⟨1, _⟩ => show win0_0.index t (1 : Fin 2) * 256 + 1 * d.val = d.val; omega

/-- The resident key window's block is the whole array of normalised rows, at every point. -/
theorem iblk1_eq (c : Dev nD) (t : Fin cfg0.N) :
    (iblk m c 1 t : Vec F S8192x256 .bf16) = (V m c main_v5 : S8192x256.Idx → Elt F .bf16) := by
  obtain ⟨-, -, e0, e1, -⟩ := blockIndex t
  funext y
  unfold iblk
  rw [View.read_apply]
  show V m c main_v5 _ = V m c main_v5 _
  congr 1
  funext a
  apply Fin.ext
  match a with
  | ⟨0, _⟩ => show win0_1.index t (0 : Fin 2) * 8192 + 1 * (y 0).val = (y 0).val; omega
  | ⟨1, _⟩ => show win0_1.index t (1 : Fin 2) * 256 + 1 * (y 1).val = (y 1).val; omega

/-- The query block's labels: entries `1024 (t / 8) + r` of the label row. -/
theorem iblk2_apply (c : Dev nD) (t : Fin cfg0.N) (r : Fin 1024) :
    (iblk m c 2 t : Vec F S1x1024 .i32) (ix2 (0 : Fin 1) r)
      = (V m c main_v6 : S1x8192.Idx → Elt F .i32) (ix2 (0 : Fin 1) ⟨1024 * (t.val / 8) + r.val, by have := point_lt t; have := r.isLt; omega⟩) := by
  obtain ⟨-, -, -, -, e0, e1, -⟩ := blockIndex t
  unfold iblk
  rw [View.read_apply]
  show V m c main_v6 _ = V m c main_v6 _
  congr 1
  funext a
  apply Fin.ext
  match a with
  | ⟨0, _⟩ => show win0_2.index t (0 : Fin 2) * 1 + 1 * 0 = 0; omega
  | ⟨1, _⟩ => show win0_2.index t (1 : Fin 2) * 1024 + 1 * r.val = 1024 * (t.val / 8) + r.val; omega

/-- The key tile's labels: entries `1024 (t % 8) + b` of the label row. -/
theorem iblk3_apply (c : Dev nD) (t : Fin cfg0.N) (b : Fin 1024) :
    (iblk m c 3 t : Vec F S1x1024 .i32) (ix2 (0 : Fin 1) b)
      = (V m c main_v6 : S1x8192.Idx → Elt F .i32) (ix2 (0 : Fin 1) ⟨1024 * (t.val % 8) + b.val, by have := b.isLt; omega⟩) := by
  obtain ⟨-, -, -, -, -, -, e0, e1, -⟩ := blockIndex t
  unfold iblk
  rw [View.read_apply]
  show V m c main_v6 _ = V m c main_v6 _
  congr 1
  funext a
  apply Fin.ext
  match a with
  | ⟨0, _⟩ => show win0_3.index t (0 : Fin 2) * 1 + 1 * 0 = 0; omega
  | ⟨1, _⟩ => show win0_3.index t (1 : Fin 2) * 1024 + 1 * b.val = 1024 * (t.val % 8) + b.val; omega

/-- The query block of the unnormalised rows: rows `1024 (t / 8) + r`. -/
theorem iblk4_apply (c : Dev nD) (t : Fin cfg0.N) (r : Fin 1024) (d : Fin 256) :
    (iblk m c 4 t : Vec F S1024x256 .f32) (ix2 r d)
      = (V m c main_arg0 : S8192x256.Idx → Elt F .f32) (ix2 ⟨1024 * (t.val / 8) + r.val, by have := point_lt t; have := r.isLt; omega⟩ d) := by
  obtain ⟨-, -, -, -, -, -, -, -, e0, e1, -⟩ := blockIndex t
  unfold iblk
  rw [View.read_apply]
  show V m c main_arg0 _ = V m c main_arg0 _
  congr 1
  funext a
  apply Fin.ext
  match a with
  | ⟨0, _⟩ => show win0_4.index t (0 : Fin 2) * 1024 + 1 * r.val = 1024 * (t.val / 8) + r.val; omega
  | ⟨1, _⟩ => show win0_4.index t (1 : Fin 2) * 256 + 1 * d.val = d.val; omega

/-! ## The result array from the blocks written back -/

/-- An entry of the result row is in point `t`'s block iff each coordinate is in the block's range on its axis. -/
theorem mem_blk5 (t : Fin cfg0.N) (k : S1x8192.Idx) :
    k ∈ ((cfg0.win 5).blk t).view.set ↔ ∀ a : Fin 2, win0_5.index t a * S1x1024.size a ≤ (k a).val ∧ (k a).val < win0_5.index t a * S1x1024.size a + S1x1024.size a := by
  show k ∈ ((View.whole main_v7).slice (win0_5.rect t)).set ↔ _
  rw [View.set_slice_whole, Rect.mem_set_unit]
  exact Iff.rfl

/-- THE RESULT ROW FROM ITS EIGHT BLOCKS. The row losses of query block `q` are written back once, at the block's last key
    tile (point `8 q + 7`), into entries `1024 q … 1024 q + 1023`; the eight blocks tile the row. So if what the body
    leaves in the output buffer at each such point is `G` at those entries, the result array ends holding `G`. -/
theorem result_of_rows (c : Dev nD) (G : S1x8192.Idx → Elt F .f32)
    (h : ∀ t : Fin cfg0.N, t.val % 8 = 7 → ∀ r : Fin 1024,
      (outsAt m c t.val t.isLt).1 (ix2 (0 : Fin 1) r)
        = G (ix2 (0 : Fin 1) ⟨1024 * (t.val / 8) + r.val, by have := point_lt t; have := r.isLt; omega⟩)) :
    (dats m 0 c).arrAt 5 cfg0.N = G := by
  refine (dats m 0 c).arrAt_eq_of_cover 5 G (fun t hf => ?_) (fun k => ?_)
  · have h7 : t.val % 8 = 7 := (flush0_5 t).mp hf
    obtain ⟨-, -, -, -, -, -, -, -, -, -, e0, e1⟩ := blockIndex t
    show (cfg0.win 5).cut (grid0.coords t) ((dats m 0 c).after 5 t) = _
    rw [after5]
    funext y
    rw [View.read_apply]
    show (outsAt m c t.val t.isLt).1 y = G _
    have hy : y = ix2 (0 : Fin 1) (y 1) := by
      funext a
      match a with
      | ⟨0, _⟩ => exact Fin.ext (by have : (y 0).val < 1 := (y 0).isLt; show (y 0).val = 0; omega)
      | ⟨1, _⟩ => rfl
    refine (congrArg (outsAt m c t.val t.isLt).1 hy).trans ((h t h7 (y 1)).trans (congrArg G ?_))
    funext a
    apply Fin.ext
    match a with
    | ⟨0, _⟩ => show 0 = win0_5.index t (0 : Fin 2) * 1 + 1 * (y 0).val; have : (y 0).val < 1 := (y 0).isLt; omega
    | ⟨1, _⟩ => show 1024 * (t.val / 8) + (y 1).val = win0_5.index t (1 : Fin 2) * 1024 + 1 * (y 1).val; omega
  · have hk0 : (k 0).val < 1 := (k 0).isLt
    have hk1 : (k 1).val < 8192 := (k 1).isLt
    have hN : cfg0.N = 64 := N_0
    obtain ⟨t, ht⟩ : ∃ t : Fin cfg0.N, t.val = 8 * ((k 1).val / 1024) + 7 := ⟨⟨8 * ((k 1).val / 1024) + 7, by omega⟩, rfl⟩
    refine ⟨t, (flush0_5 t).mpr (by omega), ?_⟩
    rw [mem_blk5]
    obtain ⟨-, -, -, -, -, -, -, -, -, -, e0, e1⟩ := blockIndex t
    intro a
    match a with
    | ⟨0, _⟩ => show win0_5.index t (0 : Fin 2) * 1 ≤ (k 0).val ∧ (k 0).val < win0_5.index t (0 : Fin 2) * 1 + 1; omega
    | ⟨1, _⟩ => show win0_5.index t (1 : Fin 2) * 1024 ≤ (k 1).val ∧ (k 1).val < win0_5.index t (1 : Fin 2) * 1024 + 1024; omega

end Cert.KernelIdeal.Tri

end
-- ==== Proof.KHost.lean ====
/-
  The array operations around the region: what they leave for it, and what they make of its result.

  BEFORE the region a straight line of array operations on the embedding matrix `x` (8192 rows of 256 extended
  reals) and the labels writes, from whatever the buffers held:

    * the matrix of normalised rows: at (r, d), `x (r, d)` divided by row r's Euclidean norm plus the small
      constant. The line squares the matrix, sums each row from zero, broadcasts the sums to a column, takes roots,
      adds the constant broadcast to a column, broadcasts that column along the rows and divides; the last step, a
      change of number format, is the identity on extended reals;
    * the labels as ONE row of 8192 words: at (0, n), label n;

  and it writes neither argument nor the result array, which keep what they held. The line comes in two stretches;
  folding them one after the other, or folding their concatenation once, is the same.

  AFTER the region one operation sums the result array, one row of 8192 entries, over both its axes from zero: the
  sum over n of entry (0, n). So if the region leaves row n's loss at (0, n), the program's result is the loss.

  Each buffer's contents after a stretch is first computed as one term of the argument buffers (every operation
  rewrites its own result buffer and leaves the others), and that term is then read at an index one stage at a time.
  No step needs an entry to be finite.
-/
import proofs.«151936_j61710090109327_2_alg».proof.Proof.Gen.KernelIdeal.Launch
import proofs.«151936_j61710090109327_2_alg».proof.Proof.Spec
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.HostVal

open Cert.KernelIdeal Cert.KernelIdeal.Gen Idealize.ShloMosaic Idealize.ShloMosaic.ValueIdx Idealize.ShloMosaic.StableHlo
open scoped BigOperators

/-- The embedding matrix a valuation holds, at its literal type. -/
abbrev matOf (W : Valuation τ sig (Elt Ideal)) : Cert.Spec.Mat.Idx → EReal := W (Proc.devRef .tc main_arg0)
/-- The labels a valuation holds. -/
abbrev labOf (W : Valuation τ sig (Elt Ideal)) : Cert.Spec.Lab.Idx → BitVec 32 := W (Proc.devRef .tc main_arg1)
/-- The result row a valuation holds. -/
abbrev outOf (W : Valuation τ sig (Elt Ideal)) : S1x8192.Idx → EReal := W (Proc.devRef .tc main_v7)

variable (W : Valuation τ sig (Elt Ideal))

/-! ## The stages, read at an index -/

/-- A column of 8192 entries broadcast along rows of 256 reads, at (r, d), the column's entry r. -/
theorem bcastCols_apply {α : Type} (y : S8192x1.Idx → α) (r : Fin 8192) (d : Fin 256) :
    broadcastInDim S8192x256 ![0, 1] bcast_S8192x1_S8192x256_0_1 y (ix2 r d) = y (ix2 r (0 : Fin 1)) :=
  broadcastInDim_apply _ bcast_S8192x1_S8192x256_0_1 y (ix2 r d) (ix2 r (0 : Fin 1)) fun a => match a with
    | ⟨0, _⟩ => by show r.val = if (8192 : Nat) = 1 then 0 else r.val; rw [if_neg (by decide)]
    | ⟨1, _⟩ => by show 0 = if (1 : Nat) = 1 then 0 else d.val; rw [if_pos rfl]

/-- A vector of 8192 entries broadcast to a column reads, at (r, 0), entry r. -/
theorem bcastCol_apply {α : Type} (y : S8192.Idx → α) (r : Fin 8192) :
    broadcastInDim S8192x1 ![0] bcast_S8192_S8192x1_0 y (ix2 r (0 : Fin 1)) = y (ix1 r) :=
  broadcastInDim_apply _ bcast_S8192_S8192x1_0 y (ix2 r (0 : Fin 1)) (ix1 r) fun a => match a with
    | ⟨0, _⟩ => by show r.val = if (8192 : Nat) = 1 then 0 else r.val; rw [if_neg (by decide)]

/-- A scalar broadcast to a column reads the scalar everywhere. -/
theorem bcastScalar_apply {α : Type} (y : S_.Idx → α) (i : S8192x1.Idx) :
    broadcastInDim S8192x1 ![] bcast_S_S8192x1 y i = y ix0 :=
  broadcastInDim_apply _ bcast_S_S8192x1 y i ix0 fun a => a.elim0

/-- The sum of a matrix along its rows, at row r: the initial value plus the sum over k of entry (r, k). -/
theorem rowSum_apply (X : FVec Ideal S8192x256 .f32) (init : FVec Ideal S_ .f32) (r : Fin 8192) :
    Host.reduceAdd X init reducesTo_S8192x256_S8192_d1 h_S_ (ix1 r)
      = init (Shape.Idx.first h_S_) + ∑ k : Fin 256, X (ix2 r k) := by
  simp only [Host.reduceAdd, Ideal.hostReduceAdd_def]
  rw [Ideal.hostReduceAdd_single reducesTo_S8192x256_S8192_d1 (by decide)]
  refine congrArg (_ + ·) (Finset.sum_congr rfl fun k _ => ?_)
  exact congrArg X (funext fun a => Fin.ext (by match a with | ⟨0, _⟩ => rfl | ⟨1, _⟩ => rfl))

/-- The quotient of two arrays at an index is the quotient of the entries … -/
theorem hostDivf_apply {s : Shape} {φ : FTy} (a b : FVec Ideal s φ) (i : s.Idx) : Host.divf a b i = Ideal.div (a i) (b i) := rfl

/-- … and the root of an array the root of the entry. -/
theorem hostSqrt_apply {s : Shape} {φ : FTy} (a : FVec Ideal s φ) (i : s.Idx) : Host.sqrt a i = Ideal.sqrt (a i) := rfl

/-! ## Before the region -/

/-- The buffer of normalised rows after the two stretches, as one term of the embedding matrix. -/
theorem rows_term :
    (StableHlo.after (hostOps0_1 (F := Ideal)) (StableHlo.after (hostOps0 (F := Ideal)) W) (Proc.devRef .tc main_v5) : FVec Ideal S8192x256 .bf16)
      = truncf .bf16 (Host.divf (W (Proc.devRef .tc main_arg0) : FVec Ideal S8192x256 .f32)
          (broadcastInDim S8192x256 ![0, 1] bcast_S8192x1_S8192x256_0_1
            (addf (Host.sqrt (broadcastInDim S8192x1 ![0] bcast_S8192_S8192x1_0
                (Host.reduceAdd (mulf (W (Proc.devRef .tc main_arg0) : FVec Ideal S8192x256 .f32) (W (Proc.devRef .tc main_arg0)))
                  (constant (F := Ideal) S_ .f32 0x00000000#32) reducesTo_S8192x256_S8192_d1 h_S_)))
              (broadcastInDim S8192x1 ![] bcast_S_S8192x1 (constant (F := Ideal) S_ .f32 0x2B8CBCCC#32))))) bitsLt_bf16_f32 := by
  dsimp only [hostOps0, hostOps0_1]
  after_results
  rfl

/-- THE ROWS THE REGION READS: at (r, d), entry d of the normalised row r of the embedding matrix. The sum of the
    squares starts from zero, which drops; the change of format is the identity. -/
theorem entry_rows (r : Fin 8192) (d : Fin 256) :
    (StableHlo.after (hostOps0_1 (F := Ideal)) (StableHlo.after (hostOps0 (F := Ideal)) W) (Proc.devRef .tc main_v5) : FVec Ideal S8192x256 .bf16) (ix2 r d)
      = Cert.Spec.unitRow (matOf W) r d := by
  rw [rows_term, truncf_apply, hostDivf_apply, bcastCols_apply, addf_apply, hostSqrt_apply, bcastCol_apply, rowSum_apply,
    bcastScalar_apply, constant_apply, constant_apply, Ideal.ofBits_zero_f32, zero_add]
  rfl

/-- The buffer of labels after the two stretches: the labels cast to one row. -/
theorem labels_term :
    (StableHlo.after (hostOps0_1 (F := Ideal)) (StableHlo.after (hostOps0 (F := Ideal)) W) (Proc.devRef .tc main_v6) : IVec S1x8192 32)
      = shapeCast S1x8192 (W (Proc.devRef .tc main_arg1) : IVec S8192 32) shapeCasts_S8192_S1x8192 := by
  dsimp only [hostOps0, hostOps0_1]
  after_results
  rfl

/-- THE LABELS THE REGION READS: at (0, n), label n. -/
theorem entry_labels (n : Fin 8192) :
    (StableHlo.after (hostOps0_1 (F := Ideal)) (StableHlo.after (hostOps0 (F := Ideal)) W) (Proc.devRef .tc main_v6) : IVec S1x8192 32) (ix2 (0 : Fin 1) n)
      = labOf W (ix1 n) := by
  rw [labels_term]
  exact shapeCast_a_1a_apply _ shapeCasts_S8192_S1x8192 (0 : Fin 1) n

/-- No operation before the region writes the embedding matrix … -/
theorem entry_arg0 :
    StableHlo.after (hostOps0_1 (F := Ideal)) (StableHlo.after (hostOps0 (F := Ideal)) W) (Proc.devRef .tc main_arg0)
      = W (Proc.devRef .tc main_arg0) := by
  dsimp only [hostOps0, hostOps0_1]
  after_results

/-- … nor the labels … -/
theorem entry_arg1 :
    StableHlo.after (hostOps0_1 (F := Ideal)) (StableHlo.after (hostOps0 (F := Ideal)) W) (Proc.devRef .tc main_arg1)
      = W (Proc.devRef .tc main_arg1) := by
  dsimp only [hostOps0, hostOps0_1]
  after_results

/-- … nor the result array. -/
theorem entry_out :
    StableHlo.after (hostOps0_1 (F := Ideal)) (StableHlo.after (hostOps0 (F := Ideal)) W) (Proc.devRef .tc main_v7)
      = W (Proc.devRef .tc main_v7) := by
  dsimp only [hostOps0, hostOps0_1]
  after_results

/-! ## The two stretches as one fold -/

/-- Folding the concatenation of the two stretches once is folding the first and then the second. -/
theorem flatten_eq :
    StableHlo.after (List.flatten [hostOps0 (F := Ideal), hostOps0_1 (F := Ideal)]) W
      = StableHlo.after (hostOps0_1 (F := Ideal)) (StableHlo.after (hostOps0 (F := Ideal)) W) := by
  rw [List.flatten_cons, List.flatten_cons, List.flatten_nil, List.append_nil, StableHlo.after_append]

/-- The rows the region reads, after the one fold. -/
theorem entry_rows' (r : Fin 8192) (d : Fin 256) :
    (StableHlo.after (List.flatten [hostOps0 (F := Ideal), hostOps0_1 (F := Ideal)]) W (Proc.devRef .tc main_v5) : FVec Ideal S8192x256 .bf16) (ix2 r d)
      = Cert.Spec.unitRow (matOf W) r d := by
  rw [flatten_eq]; exact entry_rows W r d

/-- The labels the region reads, after the one fold. -/
theorem entry_labels' (n : Fin 8192) :
    (StableHlo.after (List.flatten [hostOps0 (F := Ideal), hostOps0_1 (F := Ideal)]) W (Proc.devRef .tc main_v6) : IVec S1x8192 32) (ix2 (0 : Fin 1) n)
      = labOf W (ix1 n) := by
  rw [flatten_eq]; exact entry_labels W n

/-- The embedding matrix is untouched by the one fold … -/
theorem entry_arg0' :
    StableHlo.after (List.flatten [hostOps0 (F := Ideal), hostOps0_1 (F := Ideal)]) W (Proc.devRef .tc main_arg0)
      = W (Proc.devRef .tc main_arg0) := by
  rw [flatten_eq]; exact entry_arg0 W

/-- … and so are the labels … -/
theorem entry_arg1' :
    StableHlo.after (List.flatten [hostOps0 (F := Ideal), hostOps0_1 (F := Ideal)]) W (Proc.devRef .tc main_arg1)
      = W (Proc.devRef .tc main_arg1) := by
  rw [flatten_eq]; exact entry_arg1 W

/-- … and the result array. -/
theorem entry_out' :
    StableHlo.after (List.flatten [hostOps0 (F := Ideal), hostOps0_1 (F := Ideal)]) W (Proc.devRef .tc main_v7)
      = W (Proc.devRef .tc main_v7) := by
  rw [flatten_eq]; exact entry_out W

/-! ## After the region -/

/-- The result buffer after the last stretch: the sum of the result array over both its axes, from the zero word. -/
theorem tail_term (W' : Valuation τ sig (Elt Ideal)) :
    (StableHlo.after (hostOps1 (F := Ideal)) W' (Proc.devRef .tc main_v8) : FVec Ideal S_ .f32)
      = Host.reduceAdd (W' (Proc.devRef .tc main_v7) : FVec Ideal S1x8192 .f32) (constant (F := Ideal) S_ .f32 0x00000000#32)
          reducesTo_S1x8192_S_d0_1 h_S_ := by
  dsimp only [hostOps1]
  after_results

/-- THE RESULT: the sum over n of the result row's entry (0, n). Into a result with no axis the sum runs over every
    index of the operand; over a 1 by 8192 index set that is the double sum over the coordinates, whose outer sum
    has one term; the zero it starts from drops. -/
theorem tail_sum (W' : Valuation τ sig (Elt Ideal)) :
    (StableHlo.after (hostOps1 (F := Ideal)) W' (Proc.devRef .tc main_v8) : FVec Ideal S_ .f32)
      = fun _ => ∑ n : Fin 8192, outOf W' (ix2 (0 : Fin 1) n) := by
  rw [tail_term]
  funext i
  simp only [Host.reduceAdd, Ideal.hostReduceAdd_def]
  rw [Ideal.hostReduceAdd_total reducesTo_S1x8192_S_d0_1 (fun b => b.elim0), constant_apply, Ideal.ofBits_zero_f32, zero_add,
    sum_idx2, Fin.sum_univ_one]

/-- The last stretch writes neither the embedding matrix … -/
theorem tail_arg0 (W' : Valuation τ sig (Elt Ideal)) :
    StableHlo.after (hostOps1 (F := Ideal)) W' (Proc.devRef .tc main_arg0) = W' (Proc.devRef .tc main_arg0) := by
  dsimp only [hostOps1]
  after_results

/-- … nor the labels. -/
theorem tail_arg1 (W' : Valuation τ sig (Elt Ideal)) :
    StableHlo.after (hostOps1 (F := Ideal)) W' (Proc.devRef .tc main_arg1) = W' (Proc.devRef .tc main_arg1) := by
  dsimp only [hostOps1]
  after_results

/-- THE LOSS: if the result row holds row n's loss at (0, n), the program's result is the sum of the rows' losses. -/
theorem tail_loss (W' : Valuation τ sig (Elt Ideal)) (x : Cert.Spec.Mat.Idx → EReal) (lab : Cert.Spec.Lab.Idx → BitVec 32)
    (h : ∀ n : Fin 8192, outOf W' (ix2 (0 : Fin 1) n) = Cert.Spec.rowLoss x lab n) :
    (StableHlo.after (hostOps1 (F := Ideal)) W' (Proc.devRef .tc main_v8) : FVec Ideal S_ .f32) = fun _ => Cert.Spec.loss x lab := by
  rw [tail_sum]
  funext _
  exact Finset.sum_congr rfl fun n _ => h n

end Cert.KernelIdeal.HostVal

end
-- ==== Proof.KTiles.lean ====
/-
  The two tile quantities in the specification's terms, on the extended reals.

  When the region is entered the array of normalised rows holds the embedding matrix's rows each divided by its
  Euclidean norm plus the small constant, the label row holds the labels, and the matrix itself is as launched. At
  grid point t the query block is rows 1024 (t / 8) … of these and the key tile rows 1024 (t % 8) …; so the inner
  product of a query row with a tile row is the similarity of the two matrix rows, and two block labels agree exactly
  when the two matrix rows carry the same label. Hence a row's masked minimum over a tile is the meet, over the
  tile's 1024 rows, of "the similarity if the labels agree, top otherwise", and its masked maximum the join of "bottom
  if the labels agree, the similarity otherwise": the same terms whose meet and join over ALL 8192 rows are the
  specification's hardest positive and hardest negative.
-/
import proofs.«151936_j61710090109327_2_alg».proof.Proof.KCols
import proofs.«151936_j61710090109327_2_alg».proof.Proof.KBlocks
import proofs.«151936_j61710090109327_2_alg».proof.Proof.KHost
import proofs.«151936_j61710090109327_2_alg».proof.Proof.Spec

set_option maxRecDepth 16384

noncomputable section

namespace Cert.KernelIdeal.Tri

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

variable (m : (ℓ : Loc nD τ sig) → Buf (Elt Ideal) ℓ)

/-! ## The launch contents, and the rows a block row and a tile row are -/

/-- The embedding matrix as launched. -/
abbrev xOf (c : Dev nD) : Cert.Spec.Mat.Idx → EReal := m ((c : Thread nD τ).loc main_arg0)
/-- The labels as launched. -/
abbrev labsOf (c : Dev nD) : Cert.Spec.Lab.Idx → BitVec 32 := m ((c : Thread nD τ).loc main_arg1)

/-- Row `r` of the query block of point `t` is row `1024 (t / 8) + r` of the matrix. -/
def rowOf (t : Fin cfg0.N) (r : Fin 1024) : Fin 8192 :=
  ⟨1024 * (t.val / 8) + r.val, by have := point_lt t; have := r.isLt; omega⟩

/-- What anchor row `R` offers the hardest-positive minimum at row `k`: their similarity when the labels agree, top otherwise. -/
def posOf (c : Dev nD) (R : Fin 8192) : Fin 8192 → EReal :=
  fun k => if Cert.Spec.sameLabel (labsOf m c) R k then Cert.Spec.sim (xOf m c) R k else ⊤
/-- What it offers the hardest-negative maximum: bottom when the labels agree, their similarity otherwise. -/
def negOf (c : Dev nD) (R : Fin 8192) : Fin 8192 → EReal :=
  fun k => if Cert.Spec.sameLabel (labsOf m c) R k then ⊥ else Cert.Spec.sim (xOf m c) R k

/-! ## The arrays as the region finds them -/

/-- The array of normalised rows holds, at (n, d), entry `d` of the normalised row `n` of the matrix. -/
theorem V_rows (c : Dev nD) (n : Fin 8192) (d : Fin 256) :
    (V m c main_v5 : S8192x256.Idx → Elt Ideal .bf16) (ix2 n d) = Cert.Spec.unitRow (xOf m c) n d :=
  HostVal.entry_rows' (fun b => m (c, b)) n d

/-- The label row holds, at (0, n), label `n`. -/
theorem V_labels (c : Dev nD) (n : Fin 8192) :
    (V m c main_v6 : S1x8192.Idx → Elt Ideal .i32) (ix2 (0 : Fin 1) n) = labsOf m c (ix1 n) :=
  HostVal.entry_labels' (fun b => m (c, b)) n

/-- The matrix itself is as launched. -/
theorem V_x (c : Dev nD) : V m c main_arg0 = m ((c : Thread nD τ).loc main_arg0) :=
  HostVal.entry_arg0' (fun b => m (c, b))

/-! ## The blocks of a point, in those terms -/

/-- Row `r` of the query block is the normalised matrix row `1024 (t / 8) + r`. -/
theorem qRows_apply (c : Dev nD) (t : Fin cfg0.N) (r : Fin 1024) (d : Fin 256) :
    qRows m c t (ix2 r d) = Cert.Spec.unitRow (xOf m c) (rowOf t r) d :=
  (iblk0_apply m c t r d).trans (V_rows m c (rowOf t r) d)

/-- Row `b` of the key tile is the normalised matrix row `b + 1024 (t % 8)`. -/
theorem keysAt_apply (c : Dev nD) (t : Fin cfg0.N) (b : Fin 1024) (d : Fin 256) :
    keysAt m c t (ix2 b d) = Cert.Spec.unitRow (xOf m c) ⟨b.val + 1024 * (t.val % 8), by have := b.isLt; omega⟩ d := by
  have hj := coords_j t
  refine (keyTile_apply (F := Ideal) (grid0.coords t) (kRows m c t) b d).trans ?_
  refine (congrFun (iblk1_eq m c t) _).trans ?_
  refine (V_rows m c _ d).trans ?_
  exact congrArg (fun R => Cert.Spec.unitRow (xOf m c) R d) (Fin.ext (by show 1024 * ((grid0.coords t) 1).val + b.val = b.val + 1024 * (t.val % 8); omega))

/-- The query block's label `r` is the label of matrix row `1024 (t / 8) + r`. -/
theorem qLabs_apply (c : Dev nD) (t : Fin cfg0.N) (r : Fin 1024) :
    qLabs m c t (ix2 (0 : Fin 1) r) = labsOf m c (ix1 (rowOf t r)) :=
  (iblk2_apply m c t r).trans (V_labels m c (rowOf t r))

/-- The key tile's label `b` is the label of matrix row `b + 1024 (t % 8)`. -/
theorem kLabs_apply (c : Dev nD) (t : Fin cfg0.N) (b : Fin 1024) :
    kLabs m c t (ix2 (0 : Fin 1) b) = labsOf m c (ix1 ⟨b.val + 1024 * (t.val % 8), by have := b.isLt; omega⟩) := by
  refine (iblk3_apply m c t b).trans ((V_labels m c _).trans ?_)
  exact congrArg (fun R => labsOf m c (ix1 R)) (Fin.ext (by show 1024 * (t.val % 8) + b.val = b.val + 1024 * (t.val % 8); omega))

/-- Row `r` of the unnormalised query block is matrix row `1024 (t / 8) + r`. -/
theorem xRows_apply (c : Dev nD) (t : Fin cfg0.N) (r : Fin 1024) (d : Fin 256) :
    xRows m c t (ix2 r d) = xOf m c (ix2 (rowOf t r) d) :=
  (iblk4_apply m c t r d).trans (congrFun (V_x m c) _)

/-! ## The two tile quantities -/

/-- Row `r`'s masked minimum over the key tile of point `t` is the meet, over the tile's 1024 rows, of what the anchor row
    offers the hardest-positive minimum there. -/
theorem tileMin_eq (c : Dev nD) (t : Fin cfg0.N) (r : Fin 1024) :
    tileMin m c t r
      = Finset.univ.inf fun b : Fin 1024 => posOf m c (rowOf t r) ⟨b.val + 1024 * (t.val % 8), by have := b.isLt; omega⟩ := by
  unfold tileMin
  refine Finset.inf_congr rfl fun b _ => ?_
  have hl : qLabs m c t (ix2 (0 : Fin 1) r) = kLabs m c t (ix2 (0 : Fin 1) b)
      ↔ Cert.Spec.sameLabel (labsOf m c) (rowOf t r) ⟨b.val + 1024 * (t.val % 8), by have := b.isLt; omega⟩ := by
    rw [qLabs_apply, kLabs_apply]; exact Iff.rfl
  have hs : (∑ d : Fin 256, qRows m c t (ix2 r d) * keysAt m c t (ix2 b d))
      = Cert.Spec.sim (xOf m c) (rowOf t r) ⟨b.val + 1024 * (t.val % 8), by have := b.isLt; omega⟩ :=
    Finset.sum_congr rfl fun d _ => congrArg₂ (· * ·) (qRows_apply m c t r d) (keysAt_apply m c t b d)
  unfold posOf
  by_cases hc : qLabs m c t (ix2 (0 : Fin 1) r) = kLabs m c t (ix2 (0 : Fin 1) b)
  · rw [if_pos hc, if_pos (hl.mp hc)]; exact hs
  · rw [if_neg hc, if_neg (fun h => hc (hl.mpr h))]

/-- Row `r`'s masked maximum over the key tile of point `t` is the join, over the tile's 1024 rows, of what the anchor row
    offers the hardest-negative maximum there. -/
theorem tileMax_eq (c : Dev nD) (t : Fin cfg0.N) (r : Fin 1024) :
    tileMax m c t r
      = Finset.univ.sup fun b : Fin 1024 => negOf m c (rowOf t r) ⟨b.val + 1024 * (t.val % 8), by have := b.isLt; omega⟩ := by
  unfold tileMax
  refine Finset.sup_congr rfl fun b _ => ?_
  have hl : qLabs m c t (ix2 (0 : Fin 1) r) = kLabs m c t (ix2 (0 : Fin 1) b)
      ↔ Cert.Spec.sameLabel (labsOf m c) (rowOf t r) ⟨b.val + 1024 * (t.val % 8), by have := b.isLt; omega⟩ := by
    rw [qLabs_apply, kLabs_apply]; exact Iff.rfl
  have hs : (∑ d : Fin 256, qRows m c t (ix2 r d) * keysAt m c t (ix2 b d))
      = Cert.Spec.sim (xOf m c) (rowOf t r) ⟨b.val + 1024 * (t.val % 8), by have := b.isLt; omega⟩ :=
    Finset.sum_congr rfl fun d _ => congrArg₂ (· * ·) (qRows_apply m c t r d) (keysAt_apply m c t b d)
  unfold negOf
  by_cases hc : qLabs m c t (ix2 (0 : Fin 1) r) = kLabs m c t (ix2 (0 : Fin 1) b)
  · rw [if_pos hc, if_pos (hl.mp hc)]
  · rw [if_neg hc, if_neg (fun h => hc (hl.mpr h))]; exact hs

/-! ## The specification's two scalars, in the same terms -/

/-- The hardest positive of anchor row `R` is the meet of its offers over all 8192 rows. -/
theorem hardPos_eq (c : Dev nD) (R : Fin 8192) :
    Cert.Spec.hardPos (xOf m c) (labsOf m c) R = Finset.univ.inf (posOf m c R) := rfl

/-- The hardest negative of anchor row `R` is the join of its offers over all 8192 rows. -/
theorem hardNeg_eq (c : Dev nD) (R : Fin 8192) :
    Cert.Spec.hardNeg (xOf m c) (labsOf m c) R = Finset.univ.sup (negOf m c R) := rfl

end Cert.KernelIdeal.Tri

end
-- ==== Proof.LibRunningFold.lean ====
/-
  A quantity carried along a row-major scan and reset at the start of each row.

  Number `N` points 0, 1, …, N − 1 and cut them into rows of `P` consecutive points: point `t` lies in row
  `t / P` at position `t % P`, and the row's point at position `a` is `P * (t / P) + a`. A quantity `M` is
  carried along the scan over tile values `T`: at the FIRST point of a row it is that point's tile value; at every
  later point of the row it is its value at the previous point, met with the point's own tile value. Then at
  position `j` of a row it is the meet of the row's tile values at positions 0, …, j — by induction on `j`: the
  previous point lies in the same row one position earlier — and so at the LAST point of a row, position P − 1, it
  is the meet of all `P` tile values of that row (`running_inf`).

  Only a meet-semilattice with a top is used: the meet is associative and commutative, so the order of the visits
  does not matter, and no value has to be finite or comparable to another. The same holds with joins on a
  join-semilattice with a bottom (`running_sup`): a running maximum.

  `M` and `T` are families indexed by a natural number TOGETHER WITH a proof that it lies below `N`, so that
  values which only exist below `N` can be supplied. Inside the proof `T` is extended beyond `N` by the top
  (the bottom), where it is never read.

  With the regrouping of a meet over `P * n` indices into `P` blocks of `n`: if the tile value of the row's
  a-th point is itself the meet of block `a` of a family `f`, the carried quantity at the row's last point is the
  meet of all of `f` (`running_inf_tiled`, `running_sup_tiled`).

  Last, the case of eight points to a row and sixty-four points on the extended reals, the meet written as a
  minimum and the join as a maximum (`running_min_8x8`, `running_max_8x8`).
-/
import Mathlib.Data.Finset.Lattice.Fold
import Mathlib.Data.EReal.Basic
import proofs.«151936_j61710090109327_2_alg».proof.Proof.LibTiledInf

namespace Cert.LibRunningFold

variable {α : Type*} {P N : ℕ}

/-! ## Rows of a row-major scan -/

/-- At the last position of its row, point `t` is the row's largest point: every point `P * (t / P) + a` of the
    row, `a` below `P`, is at most `t`, hence below `N`. -/
theorem tile_lt {t : ℕ} (h : t < N) (ht : t % P = P - 1) (a : Fin P) : P * (t / P) + a.val < N := by
  have h1 := Nat.div_add_mod t P
  have h2 := a.isLt
  omega

/-- A point that is not first in its row has its predecessor in the same row, one position earlier. -/
theorem pred_div_mod (hP : 0 < P) {t j : ℕ} (ht : t % P = j + 1) : (t - 1) / P = t / P ∧ (t - 1) % P = j := by
  have hj : j + 1 < P := ht ▸ Nat.mod_lt t hP
  have e : t - 1 = P * (t / P) + j := by have := Nat.div_add_mod t P; omega
  rw [e, Nat.mul_add_div hP, Nat.mul_add_mod, Nat.div_eq_of_lt (show j < P by omega), Nat.mod_eq_of_lt (show j < P by omega)]
  exact ⟨Nat.add_zero _, rfl⟩

/-! ## A running meet -/

section Inf
variable [SemilatticeInf α] [OrderTop α]

/-- The tile values extended to every natural number: the top beyond `N`. -/
def extTop (T : (n : ℕ) → n < N → α) (n : ℕ) : α := if h : n < N then T n h else ⊤

/-- Below `N` the extension is the family. -/
theorem extTop_of_lt (T : (n : ℕ) → n < N → α) {n : ℕ} (h : n < N) : extTop T n = T n h := dif_pos h

/-- AT POSITION `j` OF ITS ROW the carried quantity is the meet of the row's tile values at positions 0, …, j. At
    `j = 0` it is the first point's tile value; at `j + 1` it is the value at the previous point, which is the
    meet over positions 0, …, j of the same row, met with the tile value at position `j + 1`. -/
theorem running_inf_aux (hP : 0 < P) (M T : (n : ℕ) → n < N → α)
    (hopen : ∀ t (h : t < N), t % P = 0 → M t h = T t h)
    (hnext : ∀ t (h : t < N), t % P ≠ 0 → M t h = M (t - 1) (Nat.lt_of_le_of_lt (Nat.sub_le _ _) h) ⊓ T t h) :
    ∀ (j t : ℕ) (h : t < N), t % P = j → M t h = (Finset.range (j + 1)).inf fun a => extTop T (P * (t / P) + a) := by
  intro j
  induction j with
  | zero =>
    intro t h ht
    have e : P * (t / P) = t := by have := Nat.div_add_mod t P; omega
    rw [hopen t h ht, Finset.range_one, Finset.inf_singleton, Nat.add_zero, e, extTop_of_lt T h]
  | succ j ih =>
    intro t h ht
    obtain ⟨hd, hm⟩ := pred_div_mod hP ht
    have e : P * (t / P) + (j + 1) = t := by have := Nat.div_add_mod t P; omega
    have hr : (Finset.range (j + 1 + 1)).inf (fun a => extTop T (P * (t / P) + a))
        = extTop T (P * (t / P) + (j + 1)) ⊓ (Finset.range (j + 1)).inf fun a => extTop T (P * (t / P) + a) := by
      rw [Finset.range_add_one, Finset.inf_insert]
    rw [hr, e, extTop_of_lt T h, hnext t h (by omega), ih (t - 1) _ hm, hd, inf_comm]

/-- THE RUNNING MEET: at the LAST point of each row the carried quantity is the meet of that row's `P` tile values. -/
theorem running_inf (hP : 0 < P) (M T : (n : ℕ) → n < N → α)
    (hopen : ∀ t (h : t < N), t % P = 0 → M t h = T t h)
    (hnext : ∀ t (h : t < N), t % P ≠ 0 → M t h = M (t - 1) (Nat.lt_of_le_of_lt (Nat.sub_le _ _) h) ⊓ T t h)
    (t : ℕ) (h : t < N) (ht : t % P = P - 1) :
    M t h = Finset.univ.inf fun a : Fin P => T (P * (t / P) + a.val) (tile_lt h ht a) := by
  rw [running_inf_aux hP M T hopen hnext (P - 1) t h ht, Nat.sub_add_cancel hP, Cert.LibTiledInf.inf_range_eq_inf_univ]
  exact Finset.inf_congr rfl fun a _ => extTop_of_lt T (tile_lt h ht a)

/-- If moreover the tile value of the row's a-th point is the meet of block `a` of a family `f` over `P * n`
    indices — the entries at `b + n * a`, `b` below `n` — then at the row's last point the carried quantity is
    the meet of all of `f`: a meet over the blocks of the blocks' meets is the meet over every index. -/
theorem running_inf_tiled (hP : 0 < P) (n : ℕ) (M T : (n : ℕ) → n < N → α)
    (hopen : ∀ t (h : t < N), t % P = 0 → M t h = T t h)
    (hnext : ∀ t (h : t < N), t % P ≠ 0 → M t h = M (t - 1) (Nat.lt_of_le_of_lt (Nat.sub_le _ _) h) ⊓ T t h)
    (t : ℕ) (h : t < N) (ht : t % P = P - 1) (f : Fin (P * n) → α)
    (hT : ∀ (a : Fin P) (ha : P * (t / P) + a.val < N), T (P * (t / P) + a.val) ha
      = Finset.univ.inf fun b : Fin n => f ⟨b.val + n * a.val, Cert.LibTiledInf.block_lt a b⟩) :
    M t h = Finset.univ.inf f := by
  rw [running_inf hP M T hopen hnext t h ht, Cert.LibTiledInf.inf_univ_eq_inf_blocks]
  exact Finset.inf_congr rfl fun a _ => hT a _

end Inf

/-! ## A running join -/

section Sup
variable [SemilatticeSup α] [OrderBot α]

/-- The tile values extended to every natural number: the bottom beyond `N`. -/
def extBot (T : (n : ℕ) → n < N → α) (n : ℕ) : α := if h : n < N then T n h else ⊥

/-- Below `N` the extension is the family. -/
theorem extBot_of_lt (T : (n : ℕ) → n < N → α) {n : ℕ} (h : n < N) : extBot T n = T n h := dif_pos h

/-- At position `j` of its row the carried quantity is the join of the row's tile values at positions 0, …, j. -/
theorem running_sup_aux (hP : 0 < P) (M T : (n : ℕ) → n < N → α)
    (hopen : ∀ t (h : t < N), t % P = 0 → M t h = T t h)
    (hnext : ∀ t (h : t < N), t % P ≠ 0 → M t h = M (t - 1) (Nat.lt_of_le_of_lt (Nat.sub_le _ _) h) ⊔ T t h) :
    ∀ (j t : ℕ) (h : t < N), t % P = j → M t h = (Finset.range (j + 1)).sup fun a => extBot T (P * (t / P) + a) := by
  intro j
  induction j with
  | zero =>
    intro t h ht
    have e : P * (t / P) = t := by have := Nat.div_add_mod t P; omega
    rw [hopen t h ht, Finset.range_one, Finset.sup_singleton, Nat.add_zero, e, extBot_of_lt T h]
  | succ j ih =>
    intro t h ht
    obtain ⟨hd, hm⟩ := pred_div_mod hP ht
    have e : P * (t / P) + (j + 1) = t := by have := Nat.div_add_mod t P; omega
    have hr : (Finset.range (j + 1 + 1)).sup (fun a => extBot T (P * (t / P) + a))
        = extBot T (P * (t / P) + (j + 1)) ⊔ (Finset.range (j + 1)).sup fun a => extBot T (P * (t / P) + a) := by
      rw [Finset.range_add_one, Finset.sup_insert]
    rw [hr, e, extBot_of_lt T h, hnext t h (by omega), ih (t - 1) _ hm, hd, sup_comm]

/-- THE RUNNING JOIN: at the LAST point of each row the carried quantity is the join of that row's `P` tile values. -/
theorem running_sup (hP : 0 < P) (M T : (n : ℕ) → n < N → α)
    (hopen : ∀ t (h : t < N), t % P = 0 → M t h = T t h)
    (hnext : ∀ t (h : t < N), t % P ≠ 0 → M t h = M (t - 1) (Nat.lt_of_le_of_lt (Nat.sub_le _ _) h) ⊔ T t h)
    (t : ℕ) (h : t < N) (ht : t % P = P - 1) :
    M t h = Finset.univ.sup fun a : Fin P => T (P * (t / P) + a.val) (tile_lt h ht a) := by
  rw [running_sup_aux hP M T hopen hnext (P - 1) t h ht, Nat.sub_add_cancel hP, Cert.LibTiledInf.sup_range_eq_sup_univ]
  exact Finset.sup_congr rfl fun a _ => extBot_of_lt T (tile_lt h ht a)

/-- If moreover the tile value of the row's a-th point is the join of block `a` of a family `f` over `P * n`
    indices, then at the row's last point the carried quantity is the join of all of `f`. -/
theorem running_sup_tiled (hP : 0 < P) (n : ℕ) (M T : (n : ℕ) → n < N → α)
    (hopen : ∀ t (h : t < N), t % P = 0 → M t h = T t h)
    (hnext : ∀ t (h : t < N), t % P ≠ 0 → M t h = M (t - 1) (Nat.lt_of_le_of_lt (Nat.sub_le _ _) h) ⊔ T t h)
    (t : ℕ) (h : t < N) (ht : t % P = P - 1) (f : Fin (P * n) → α)
    (hT : ∀ (a : Fin P) (ha : P * (t / P) + a.val < N), T (P * (t / P) + a.val) ha
      = Finset.univ.sup fun b : Fin n => f ⟨b.val + n * a.val, Cert.LibTiledInf.block_lt a b⟩) :
    M t h = Finset.univ.sup f := by
  rw [running_sup hP M T hopen hnext t h ht, Cert.LibTiledInf.sup_univ_eq_sup_blocks]
  exact Finset.sup_congr rfl fun a _ => hT a _

end Sup

/-! ## Eight points to a row, sixty-four points, on the extended reals -/

/-- A running minimum over rows of eight among sixty-four points: at a row's last point, the meet of the row's
    eight tile values. On the extended reals the meet of two elements is their minimum. -/
theorem running_min_8x8 (M T : (n : ℕ) → n < 64 → EReal)
    (hopen : ∀ t (h : t < 64), t % 8 = 0 → M t h = T t h)
    (hnext : ∀ t (h : t < 64), t % 8 ≠ 0 → M t h = min (M (t - 1) (Nat.lt_of_le_of_lt (Nat.sub_le _ _) h)) (T t h))
    (t : ℕ) (h : t < 64) (ht : t % 8 = 7) :
    M t h = Finset.univ.inf fun a : Fin 8 => T (8 * (t / 8) + a.val) (by omega) :=
  running_inf (P := 8) (N := 64) (by decide) M T hopen hnext t h ht

/-- A running maximum over rows of eight among sixty-four points: at a row's last point, the join of the row's
    eight tile values. -/
theorem running_max_8x8 (M T : (n : ℕ) → n < 64 → EReal)
    (hopen : ∀ t (h : t < 64), t % 8 = 0 → M t h = T t h)
    (hnext : ∀ t (h : t < 64), t % 8 ≠ 0 → M t h = max (M (t - 1) (Nat.lt_of_le_of_lt (Nat.sub_le _ _) h)) (T t h))
    (t : ℕ) (h : t < 64) (ht : t % 8 = 7) :
    M t h = Finset.univ.sup fun a : Fin 8 => T (8 * (t / 8) + a.val) (by omega) :=
  running_sup (P := 8) (N := 64) (by decide) M T hopen hnext t h ht

end Cert.LibRunningFold
-- ==== Proof.KBody.lean ====
/-
  The body obligation of the kernel's pipeline: at every grid point, from the invariant before the point and
  every window's staging buffer at what the pipeline left in it, the body runs to the invariant after the
  point and every buffer at what the proof data says it leaves.

  Which of the three cases a point is in is decided by its number mod 8. In each case the run of that case
  applies: the inputs' buffers hold their blocks; the two columns are handed over at what the point before
  left (at anything at the very first point, where the case resets them) and taken back at this point's
  contents, which the pieces the run wrote determine because they cover the columns; away from the last key
  tile the output buffer is handed over and taken back untouched, and at the last key tile it is taken back
  at the block's row losses.
-/
import proofs.«151936_j61710090109327_2_alg».proof.Proof.Gen.KernelIdeal.Launch
import proofs.«151936_j61710090109327_2_alg».proof.Proof.Gen.KernelIdeal.Skeleton
import proofs.«151936_j61710090109327_2_alg».proof.Proof.Gen.KernelIdeal.Points
import proofs.«151936_j61710090109327_2_alg».proof.Proof.KData
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Tri

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  by_cases h0 : t.val % 8 = 0
  · by_cases h1 : t.val % 8 = 7
    · exfalso; omega
    · rw [Dat.leavesExact_idle (dats m 0 c) 5 t (idle5 t (fun h => h1 ((hcondLast t).mp h))) (noFlush5 t (fun h => h1 ((hcondLast t).mp h)))]
      rw [outsAt_First m c t h0 h1]
      unfold colMin_First colMax_First; (try dsimp only)
      by_cases hz : t.val = 0
      · rw [PhiS_castSucc m c t, PhiS_zero m c _ _ hz, PhiA_eq]
        iintro ⟨⟨⟨HS8, HS9⟩, Hg⟩, Ho, ⟨%d0, H0⟩, ⟨%d1, H1⟩, ⟨%d2, H2⟩, ⟨%d3, H3⟩, ⟨%d4, H4⟩, ⟨%d5, H5⟩⟩
        iapply ((runFirst c (grid0.coords t) (ms0 t) (hs0 t) (ms1 t) (hs1 t) (ms2 t) (hs2 t) (ms3 t) (hs3 t) (ms4 t) (hs4 t) (ms5 t) (hs5 t) colMin (Memref.isWhole_whole _) colMax (Memref.isWhole_whole _) ((hcondFirst t).mpr h0) (fun h => h1 ((hcondLast t).mp h)) (iblk m c 0 t) (iblk m c 1 t) (iblk m c 2 t) (iblk m c 3 t) (iblk m c 4 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS8]; · iexact HS8
        isplitl [HS9]; · iexact HS9
        iintro ⟨H0, H1, H2, H3, H4, H5, ⟨%e8, HS8⟩, ⟨%e9, HS9⟩⟩
        isplitl [HS8 HS9 Hg]
        · isplitl [HS8 HS9]
          · isplitl [HS8]
            · unfold owns; iexists _; isplitr
              swap; · iexact HS8
              ipureintro; exact View.read_writes_of_cover _ _ _ _ _ (coverMin_First c (grid0.coords t) (ms0 t) (hs0 t) (ms1 t) (hs1 t) (ms2 t) (hs2 t) (ms3 t) (hs3 t) (ms4 t) (hs4 t) (ms5 t) (hs5 t) colMin (Memref.isWhole_whole _) colMax (Memref.isWhole_whole _) ((hcondFirst t).mpr h0) (fun h => h1 ((hcondLast t).mp h)) (iblk m c 0 t) (iblk m c 1 t) (iblk m c 2 t) (iblk m c 3 t) (iblk m c 4 t))
            · unfold owns; iexists _; isplitr
              swap; · iexact HS9
              ipureintro; exact View.read_writes_of_cover _ _ _ _ _ (coverMax_First c (grid0.coords t) (ms0 t) (hs0 t) (ms1 t) (hs1 t) (ms2 t) (hs2 t) (ms3 t) (hs3 t) (ms4 t) (hs4 t) (ms5 t) (hs5 t) colMin (Memref.isWhole_whole _) colMax (Memref.isWhole_whole _) ((hcondFirst t).mpr h0) (fun h => h1 ((hcondLast t).mp h)) (iblk m c 0 t) (iblk m c 1 t) (iblk m c 2 t) (iblk m c 3 t) (iblk m c 4 t))
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS_castSucc m c t, PhiS_pos m c _ _ hz]
        iintro ⟨⟨⟨HS8, HS9⟩, Hg⟩, Ho, ⟨%d0, H0⟩, ⟨%d1, H1⟩, ⟨%d2, H2⟩, ⟨%d3, H3⟩, ⟨%d4, H4⟩, ⟨%d5, H5⟩⟩
        iapply ((runFirst c (grid0.coords t) (ms0 t) (hs0 t) (ms1 t) (hs1 t) (ms2 t) (hs2 t) (ms3 t) (hs3 t) (ms4 t) (hs4 t) (ms5 t) (hs5 t) colMin (Memref.isWhole_whole _) colMax (Memref.isWhole_whole _) ((hcondFirst t).mpr h0) (fun h => h1 ((hcondLast t).mp h)) (iblk m c 0 t) (iblk m c 1 t) (iblk m c 2 t) (iblk m c 3 t) (iblk m c 4 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS8]; · iexists _; iexact HS8
        isplitl [HS9]; · iexists _; iexact HS9
        iintro ⟨H0, H1, H2, H3, H4, H5, ⟨%e8, HS8⟩, ⟨%e9, HS9⟩⟩
        isplitl [HS8 HS9 Hg]
        · isplitl [HS8 HS9]
          · isplitl [HS8]
            · unfold owns; iexists _; isplitr
              swap; · iexact HS8
              ipureintro; exact View.read_writes_of_cover _ _ _ _ _ (coverMin_First c (grid0.coords t) (ms0 t) (hs0 t) (ms1 t) (hs1 t) (ms2 t) (hs2 t) (ms3 t) (hs3 t) (ms4 t) (hs4 t) (ms5 t) (hs5 t) colMin (Memref.isWhole_whole _) colMax (Memref.isWhole_whole _) ((hcondFirst t).mpr h0) (fun h => h1 ((hcondLast t).mp h)) (iblk m c 0 t) (iblk m c 1 t) (iblk m c 2 t) (iblk m c 3 t) (iblk m c 4 t))
            · unfold owns; iexists _; isplitr
              swap; · iexact HS9
              ipureintro; exact View.read_writes_of_cover _ _ _ _ _ (coverMax_First c (grid0.coords t) (ms0 t) (hs0 t) (ms1 t) (hs1 t) (ms2 t) (hs2 t) (ms3 t) (hs3 t) (ms4 t) (hs4 t) (ms5 t) (hs5 t) colMin (Memref.isWhole_whole _) colMax (Memref.isWhole_whole _) ((hcondFirst t).mpr h0) (fun h => h1 ((hcondLast t).mp h)) (iblk m c 0 t) (iblk m c 1 t) (iblk m c 2 t) (iblk m c 3 t) (iblk m c 4 t))
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 8 = 7
    · rw [show (dats m 0 c).leavesExact 5 t = owns (c : Thread nD τ) (ms5 t) fullShare ((dats m 0 c).after 5 t) from by
        unfold Dat.leavesExact; rw [live5 t ((hcondLast t).mpr h1)], after5]
      rw [outsAt_Last m c t h0 h1]
      unfold out_Last colMin_Last colMax_Last; (try dsimp only)
      have hz : t.val ≠ 0 := fun e => h0 (by rw [e])
      rw [PhiS_castSucc m c t, PhiS_pos m c _ _ hz]
      iintro ⟨⟨⟨HS8, HS9⟩, Hg⟩, Ho, ⟨%d0, H0⟩, ⟨%d1, H1⟩, ⟨%d2, H2⟩, ⟨%d3, H3⟩, ⟨%d4, H4⟩, ⟨%d5, H5⟩⟩
      iapply ((runLast c (grid0.coords t) (ms0 t) (hs0 t) (ms1 t) (hs1 t) (ms2 t) (hs2 t) (ms3 t) (hs3 t) (ms4 t) (hs4 t) (ms5 t) (hs5 t) colMin (Memref.isWhole_whole _) colMax (Memref.isWhole_whole _) (fun h => h0 ((hcondFirst t).mp h)) ((hcondLast t).mpr h1) (iblk m c 0 t) (iblk m c 1 t) (iblk m c 2 t) (iblk m c 3 t) (iblk m c 4 t) ((outsAt m c (t.val - 1) (Nat.lt_of_le_of_lt (Nat.sub_le _ _) t.isLt)).2.1) ((outsAt m c (t.val - 1) (Nat.lt_of_le_of_lt (Nat.sub_le _ _) t.isLt)).2.2)).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS8]; · iexact HS8
      isplitl [HS9]; · iexact HS9
      iintro ⟨H0, H1, H2, H3, H4, ⟨%e7, H5⟩, ⟨%e8, HS8⟩, ⟨%e9, HS9⟩⟩
      isplitl [HS8 HS9 Hg]
      · isplitl [HS8 HS9]
        · isplitl [HS8]
          · unfold owns; iexists _; isplitr
            swap; · iexact HS8
            ipureintro; exact View.read_writes_of_cover _ _ _ _ _ (coverMin_Last c (grid0.coords t) (ms0 t) (hs0 t) (ms1 t) (hs1 t) (ms2 t) (hs2 t) (ms3 t) (hs3 t) (ms4 t) (hs4 t) (ms5 t) (hs5 t) colMin (Memref.isWhole_whole _) colMax (Memref.isWhole_whole _) (fun h => h0 ((hcondFirst t).mp h)) ((hcondLast t).mpr h1) (iblk m c 0 t) (iblk m c 1 t) (iblk m c 2 t) (iblk m c 3 t) (iblk m c 4 t) ((outsAt m c (t.val - 1) (Nat.lt_of_le_of_lt (Nat.sub_le _ _) t.isLt)).2.1) ((outsAt m c (t.val - 1) (Nat.lt_of_le_of_lt (Nat.sub_le _ _) t.isLt)).2.2))
          · unfold owns; iexists _; isplitr
            swap; · iexact HS9
            ipureintro; exact View.read_writes_of_cover _ _ _ _ _ (coverMax_Last c (grid0.coords t) (ms0 t) (hs0 t) (ms1 t) (hs1 t) (ms2 t) (hs2 t) (ms3 t) (hs3 t) (ms4 t) (hs4 t) (ms5 t) (hs5 t) colMin (Memref.isWhole_whole _) colMax (Memref.isWhole_whole _) (fun h => h0 ((hcondFirst t).mp h)) ((hcondLast t).mpr h1) (iblk m c 0 t) (iblk m c 1 t) (iblk m c 2 t) (iblk m c 3 t) (iblk m c 4 t) ((outsAt m c (t.val - 1) (Nat.lt_of_le_of_lt (Nat.sub_le _ _) t.isLt)).2.1) ((outsAt m c (t.val - 1) (Nat.lt_of_le_of_lt (Nat.sub_le _ _) t.isLt)).2.2))
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverOut_Last c (grid0.coords t) (ms0 t) (hs0 t) (ms1 t) (hs1 t) (ms2 t) (hs2 t) (ms3 t) (hs3 t) (ms4 t) (hs4 t) (ms5 t) (hs5 t) colMin (Memref.isWhole_whole _) colMax (Memref.isWhole_whole _) (fun h => h0 ((hcondFirst t).mp h)) ((hcondLast t).mpr h1) (iblk m c 0 t) (iblk m c 1 t) (iblk m c 2 t) (iblk m c 3 t) (iblk m c 4 t) ((outsAt m c (t.val - 1) (Nat.lt_of_le_of_lt (Nat.sub_le _ _) t.isLt)).2.1) ((outsAt m c (t.val - 1) (Nat.lt_of_le_of_lt (Nat.sub_le _ _) t.isLt)).2.2))
    · rw [Dat.leavesExact_idle (dats m 0 c) 5 t (idle5 t (fun h => h1 ((hcondLast t).mp h))) (noFlush5 t (fun h => h1 ((hcondLast t).mp h)))]
      rw [outsAt_Mid m c t h0 h1]
      unfold colMin_Mid colMax_Mid; (try dsimp only)
      have hz : t.val ≠ 0 := fun e => h0 (by rw [e])
      rw [PhiS_castSucc m c t, PhiS_pos m c _ _ hz]
      iintro ⟨⟨⟨HS8, HS9⟩, Hg⟩, Ho, ⟨%d0, H0⟩, ⟨%d1, H1⟩, ⟨%d2, H2⟩, ⟨%d3, H3⟩, ⟨%d4, H4⟩, ⟨%d5, H5⟩⟩
      iapply ((runMid c (grid0.coords t) (ms0 t) (hs0 t) (ms1 t) (hs1 t) (ms2 t) (hs2 t) (ms3 t) (hs3 t) (ms4 t) (hs4 t) (ms5 t) (hs5 t) colMin (Memref.isWhole_whole _) colMax (Memref.isWhole_whole _) (fun h => h0 ((hcondFirst t).mp h)) (fun h => h1 ((hcondLast t).mp h)) (iblk m c 0 t) (iblk m c 1 t) (iblk m c 2 t) (iblk m c 3 t) (iblk m c 4 t) ((outsAt m c (t.val - 1) (Nat.lt_of_le_of_lt (Nat.sub_le _ _) t.isLt)).2.1) ((outsAt m c (t.val - 1) (Nat.lt_of_le_of_lt (Nat.sub_le _ _) t.isLt)).2.2)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS8]; · iexact HS8
      isplitl [HS9]; · iexact HS9
      iintro ⟨H0, H1, H2, H3, H4, H5, ⟨%e8, HS8⟩, ⟨%e9, HS9⟩⟩
      isplitl [HS8 HS9 Hg]
      · isplitl [HS8 HS9]
        · isplitl [HS8]
          · unfold owns; iexists _; isplitr
            swap; · iexact HS8
            ipureintro; exact View.read_writes_of_cover _ _ _ _ _ (coverMin_Mid c (grid0.coords t) (ms0 t) (hs0 t) (ms1 t) (hs1 t) (ms2 t) (hs2 t) (ms3 t) (hs3 t) (ms4 t) (hs4 t) (ms5 t) (hs5 t) colMin (Memref.isWhole_whole _) colMax (Memref.isWhole_whole _) (fun h => h0 ((hcondFirst t).mp h)) (fun h => h1 ((hcondLast t).mp h)) (iblk m c 0 t) (iblk m c 1 t) (iblk m c 2 t) (iblk m c 3 t) (iblk m c 4 t) ((outsAt m c (t.val - 1) (Nat.lt_of_le_of_lt (Nat.sub_le _ _) t.isLt)).2.1) ((outsAt m c (t.val - 1) (Nat.lt_of_le_of_lt (Nat.sub_le _ _) t.isLt)).2.2))
          · unfold owns; iexists _; isplitr
            swap; · iexact HS9
            ipureintro; exact View.read_writes_of_cover _ _ _ _ _ (coverMax_Mid c (grid0.coords t) (ms0 t) (hs0 t) (ms1 t) (hs1 t) (ms2 t) (hs2 t) (ms3 t) (hs3 t) (ms4 t) (hs4 t) (ms5 t) (hs5 t) colMin (Memref.isWhole_whole _) colMax (Memref.isWhole_whole _) (fun h => h0 ((hcondFirst t).mp h)) (fun h => h1 ((hcondLast t).mp h)) (iblk m c 0 t) (iblk m c 1 t) (iblk m c 2 t) (iblk m c 3 t) (iblk m c 4 t) ((outsAt m c (t.val - 1) (Nat.lt_of_le_of_lt (Nat.sub_le _ _) t.isLt)).2.1) ((outsAt m c (t.val - 1) (Nat.lt_of_le_of_lt (Nat.sub_le _ _) t.isLt)).2.2))
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives it back: the columns' contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HS8, HS9⟩, Hg⟩
  isplitl [HS8 HS9]
  · isplitl [HS8]
    · iexists _; iexact HS8
    · iexists _; iexact HS9
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

end Cert.KernelIdeal.Tri

end
-- ==== Proof.KLaunch.lean ====
/-
  The launch of the kernel's program: @main as four segments — the row norms, the rest of the host prefix, the
  kernel region, the total sum — composed in order.

  The kernel is handed the normalised rows through two windows (a block of query rows, and all the key rows,
  resident) and the label row through two windows (the query block's labels and a key tile's). All four windows
  only read, so each of the two arrays is held half and half by its two windows while the region runs: at entry
  the full share of each buffer is split, at exit the halves are joined again. The unnormalised rows are held
  whole by their one window and the result array outright by its window. Everything else the region does not
  touch rides past it. From the region's exit contents the total sum computes the result, and no line and no
  window ever writes an argument.
-/
import proofs.«151936_j61710090109327_2_alg».proof.Proof.Gen.KernelIdeal.Launch
import proofs.«151936_j61710090109327_2_alg».proof.Proof.Gen.KernelIdeal.Skeleton
import proofs.«151936_j61710090109327_2_alg».proof.Proof.Gen.KernelIdeal.Points
import proofs.«151936_j61710090109327_2_alg».proof.Proof.KBody
import Idealize.ShloMosaic.Lib.Pipeline.RegionsLoop
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Tri

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## Four buffers behind six windows -/

/-- The distinct buffers behind the windows' arrays: the normalised rows, the label row, the unnormalised rows, the result. -/
theorem arrBufs_list (c : Dev nD) (W : (b : Ref sig .tc) → Buf (Elt F) ((c : Thread nD τ).loc b)) :
    (Pipeline.arrBufs spec0 c W : sProp 𝕄) = bigSepL [main_v5, main_v6, main_arg0, main_v7] fun b => ((c : Thread nD τ).loc b) ↦{fullShare} W b := by
  unfold Pipeline.arrBufs; exact bigSep_eq_bigSepL_of_eq _ (by decide) (by decide) _

/-- The same as a chain. -/
theorem arrBufs_chain (c : Dev nD) (W : (b : Ref sig .tc) → Buf (Elt F) ((c : Thread nD τ).loc b)) :
    (Pipeline.arrBufs spec0 c W : sProp 𝕄) = iprop((((c : Thread nD τ).loc main_v5) ↦{fullShare} W main_v5) ∗ (((c : Thread nD τ).loc main_v6) ↦{fullShare} W main_v6)
        ∗ (((c : Thread nD τ).loc main_arg0) ↦{fullShare} W main_arg0) ∗ (((c : Thread nD τ).loc main_v7) ↦{fullShare} W main_v7)) := by
  rw [arrBufs_list]; rfl

/-- One window's array at the region's entry, as a points-to of the buffer behind it at the window's share. -/
theorem arr_entry (c : Dev nD) (w : Fin cfg0.W) (q : PosShare TreeShare) (hq : (dats m 0 c).share w = q) :
    ((cfg0.win w).arr.view.loc (c : Thread nD τ) ↦[(cfg0.win w).arr.view.set]{(dats m 0 c).share w} (dats m 0 c).arrAt w 0 : sProp 𝕄)
      = (((c : Thread nD τ).loc (Pipeline.arrRef spec0 w)) ↦{q} V m c (Pipeline.arrRef spec0 w)) := by
  rw [(arr_whole0 w).set_eq_univ, hq, show (dats m 0 c).arrAt w 0 = (dats m 0 c).A w from rfl, A_eq]

/-- An input window's array at the region's exit: never written, so still the entry contents. -/
theorem arr_exit_in (c : Dev nD) (w : Fin cfg0.W) (hin : (cfg0.win w).isOut = false) (q : PosShare TreeShare) (hq : (dats m 0 c).share w = q) :
    ((cfg0.win w).arr.view.loc (c : Thread nD τ) ↦[(cfg0.win w).arr.view.set]{(dats m 0 c).share w} (dats m 0 c).arrAt w cfg0.N : sProp 𝕄)
      = (((c : Thread nD τ).loc (Pipeline.arrRef spec0 w)) ↦{q} V m c (Pipeline.arrRef spec0 w)) := by
  rw [(arr_whole0 w).set_eq_univ, hq, (dats m 0 c).arrAt_in w hin, A_eq]

/-- The result array at the region's exit, held outright. -/
theorem arr_exit_out (c : Dev nD) :
    ((cfg0.win 5).arr.view.loc (c : Thread nD τ) ↦[(cfg0.win 5).arr.view.set]{(dats m 0 c).share 5} (dats m 0 c).arrAt 5 cfg0.N : sProp 𝕄)
      = (((c : Thread nD τ).loc main_v7) ↦{fullShare} (dats m 0 c).arrAt 5 cfg0.N) := by
  rw [(arr_whole0 5).set_eq_univ]; rfl

/-- ENTRY. The four buffers, each whole at the full share at the entry contents, are the six windows' arrays: the normalised
    rows' full share is dealt half and half to the query-block window and the resident key window, the label row's likewise to
    the two label windows (all four only read). -/
theorem entry_split (c : Dev nD) : (Pipeline.arrBufs spec0 c (V m c) : sProp 𝕄) ⊢ (dats m 0 c).arrays ((dats m 0 c).arrAt · 0) := by
  rw [arrBufs_chain]
  unfold Dat.arrays
  rw [bigSep_W0]
  rw [arr_entry m c 0 fullShare.left rfl, arr_entry m c 1 fullShare.right rfl, arr_entry m c 2 fullShare.left rfl,
    arr_entry m c 3 fullShare.right rfl, arr_entry m c 4 fullShare rfl, arr_entry m c 5 fullShare rfl]
  iintro ⟨H5, H6, H0, H7⟩
  ihave H5' := (pointsTo_share (PosShare.mem_left_op_right fullShare)).1 $$ H5
  icases H5' with ⟨H5l, H5r⟩
  ihave H6' := (pointsTo_share (PosShare.mem_left_op_right fullShare)).1 $$ H6
  icases H6' with ⟨H6l, H6r⟩
  isplitl [H5l]; · iexact H5l
  isplitl [H5r]; · iexact H5r
  isplitl [H6l]; · iexact H6l
  isplitl [H6r]; · iexact H6r
  isplitl [H0]; · iexact H0
  iexact H7

/-- The buffers' contents when the region is left: the result array at what the write-backs made of it, everything else as entered. -/
def Vx (c : Dev nD) : Valuation τ sig (Elt F) :=
  Function.update (V0 m c) (Proc.devRef .tc main_v7) ((dats m 0 c).arrAt 5 cfg0.N)

theorem Vx_out (c : Dev nD) : Vx m c (Proc.devRef .tc main_v7) = (dats m 0 c).arrAt 5 cfg0.N := Function.update_self ..
theorem Vx_of_ne (c : Dev nD) (b : Ref sig .tc) (hb : b ≠ main_v7) : Vx m c (Proc.devRef .tc b) = V m c b :=
  Function.update_of_ne (fun e => hb (Proc.devRef_injective _ e)) ..

/-- EXIT. The six windows' arrays at their final contents are the four buffers whole at the exit contents: the halves rejoin. -/
theorem exit_join (c : Dev nD) :
    (dats m 0 c).arrays ((dats m 0 c).arrAt · cfg0.N) ⊢ (Pipeline.arrBufs spec0 c (fun b => Vx m c (Proc.devRef .tc b)) : sProp 𝕄) := by
  rw [arrBufs_chain]
  dsimp only
  rw [Vx_of_ne m c main_v5 (by decide), Vx_of_ne m c main_v6 (by decide), Vx_of_ne m c main_arg0 (by decide), Vx_out]
  unfold Dat.arrays
  rw [bigSep_W0]
  rw [arr_exit_in m c 0 rfl fullShare.left rfl, arr_exit_in m c 1 rfl fullShare.right rfl, arr_exit_in m c 2 rfl fullShare.left rfl,
    arr_exit_in m c 3 rfl fullShare.right rfl, arr_exit_in m c 4 rfl fullShare rfl, arr_exit_out m c]
  iintro ⟨H5l, H5r, H6l, H6r, H0, H7⟩
  isplitl [H5l H5r]
  · iapply (pointsTo_share (PosShare.mem_left_op_right fullShare)).2
    isplitl [H5l]; · iexact H5l
    iexact H5r
  isplitl [H6l H6r]
  · iapply (pointsTo_share (PosShare.mem_left_op_right fullShare)).2
    isplitl [H6l]; · iexact H6l
    iexact H6r
  isplitl [H0]; · iexact H0
  iexact H7

/-! ## @main's segments from the launch to the return -/

/-- Core `c`'s buffers at launch, after the row norms, and after the division, the conversion and the reshape (the region's entry). -/
abbrev W0 : Dev nD → Valuation τ sig (Elt F) := fun c b => m ((c : Dev nD), b)
abbrev W1 : Dev nD → Valuation τ sig (Elt F) := fun c => StableHlo.after hostOps0 (W0 m c)
abbrev W2 : Dev nD → Valuation τ sig (Elt F) := fun c => StableHlo.after hostOps0_1 (W1 m c)
/-- The two stretches folded one after the other are the one fold the proof data name. -/
theorem V0_eq (c : Dev nD) : V0 m c = W2 m c := by
  show StableHlo.after (List.flatten [hostOps0, hostOps0_1]) (fun b => m (c, b)) = StableHlo.after hostOps0_1 (StableHlo.after hostOps0 (fun b => m (c, b)))
  simp only [List.flatten_cons, List.flatten_nil, List.append_nil]
  exact StableHlo.after_append _ _ _
/-- After the total sum that follows the region. -/
abbrev W4 : Dev nD → Valuation τ sig (Elt F) := fun c => StableHlo.after hostOps1 (Vx m c)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The embedding matrix ends as launched: no host line writes it, and the region only reads it (through the unnormalised-rows window). -/
theorem W4_main_arg0 (c : Dev nD) : W4 m c (Proc.devRef .tc main_arg0) = m ((c : Thread nD τ).loc main_arg0) :=
  calc W4 m c (Proc.devRef .tc main_arg0)
    _ = Vx m c (Proc.devRef .tc main_arg0) := StableHlo.after_of_forall_not_mem (b := Proc.devRef .tc main_arg0) _ _ (List.forall_iff_forall_mem.mp (by
          simp only [hostOps0, hostOps0_1, hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = V0 m c (Proc.devRef .tc main_arg0) := Vx_of_ne m c main_arg0 (by decide)
    _ = W2 m c (Proc.devRef .tc main_arg0) := by rw [V0_eq m c]
    _ = W1 m c (Proc.devRef .tc main_arg0) := StableHlo.after_of_forall_not_mem (b := Proc.devRef .tc main_arg0) _ _ (List.forall_iff_forall_mem.mp (by
          simp only [hostOps0, hostOps0_1, hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg0) := StableHlo.after_of_forall_not_mem (b := Proc.devRef .tc main_arg0) _ _ (List.forall_iff_forall_mem.mp (by
          simp only [hostOps0, hostOps0_1, hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- The label vector ends as launched: no host line writes it, and the region only reads it (it is no window's array: the label row is its reshaped copy). -/
theorem W4_main_arg1 (c : Dev nD) : W4 m c (Proc.devRef .tc main_arg1) = m ((c : Thread nD τ).loc main_arg1) :=
  calc W4 m c (Proc.devRef .tc main_arg1)
    _ = Vx m c (Proc.devRef .tc main_arg1) := StableHlo.after_of_forall_not_mem (b := Proc.devRef .tc main_arg1) _ _ (List.forall_iff_forall_mem.mp (by
          simp only [hostOps0, hostOps0_1, hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = V0 m c (Proc.devRef .tc main_arg1) := Vx_of_ne m c main_arg1 (by decide)
    _ = W2 m c (Proc.devRef .tc main_arg1) := by rw [V0_eq m c]
    _ = W1 m c (Proc.devRef .tc main_arg1) := StableHlo.after_of_forall_not_mem (b := Proc.devRef .tc main_arg1) _ _ (List.forall_iff_forall_mem.mp (by
          simp only [hostOps0, hostOps0_1, hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg1) := StableHlo.after_of_forall_not_mem (b := Proc.devRef .tc main_arg1) _ _ (List.forall_iff_forall_mem.mp (by
          simp only [hostOps0, hostOps0_1, hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- No pipeline has a prefetched table. -/
abbrev adm : (p : Fin 1) → (pcfgs (F := F) p).Adm := fun p => (cfgs p).toPCfg_adm
/-- The one pipeline's proof data (a literal match, so that the pinned configuration at the numeral reduces to the printed one). -/
def pdats : (p : Fin 1) → (c : Dev nD) → Dat τ (Elt F) Unit ℕ (UR sig nD τ) ℕ (Pipeline.pin (pcfgs (F := F)) adm p) c
  | ⟨0, _⟩ => fun c => dats m 0 c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A stretch of host operations as a segment over every unscoped buffer. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m c) ∗ ∃ r, prngReg c r)

/-- ENTRY, over the thread state: every unscoped buffer at the entry contents is the six windows' arrays (the two shared
    buffers' shares dealt) and the rest. -/
theorem held_split (c : Dev nD) :
    (StableHlo.held (c : Thread nD τ) (Pipeline.ucRefs τ sig) (V0 m c) : sProp 𝕄)
      ⊢ iprop((dats m 0 c).arrays ((dats m 0 c).arrAt · 0) ∗ Pipeline.unscopedRest (Ix := Unit) (Name := ℕ) (U := UR sig nD τ) (Lvl := ℕ) spec0 c (V m c)) := by
  rw [← Pipeline.unscopedBufs_held c (V0 m c), Pipeline.unscopedBufs_split₀ cfgs (0 : Fin 1) winFacts₀0.arr_unscoped c (V m c)]
  exact sep_mono (entry_split m c) .rfl

/-- EXIT: the arrays at their final contents and the untouched rest are every unscoped buffer at the exit contents. -/
theorem held_join (c : Dev nD) :
    iprop((dats m 0 c).arrays ((dats m 0 c).arrAt · cfg0.N) ∗ Pipeline.unscopedRest (Ix := Unit) (Name := ℕ) (U := UR sig nD τ) (Lvl := ℕ) spec0 c (V m c))
      ⊢ (StableHlo.held (c : Thread nD τ) (Pipeline.ucRefs τ sig) (Vx m c) : sProp 𝕄) := by
  rw [← Pipeline.unscopedBufs_held c (Vx m c), Pipeline.unscopedBufs_split₀ cfgs (0 : Fin 1) winFacts₀0.arr_unscoped c (fun b => Vx m c (Proc.devRef .tc b))]
  refine sep_mono (exit_join m c) (Entails.of_eq ?_)
  unfold Pipeline.unscopedRest
  exact bigSep_congr fun b hb => by
    dsimp only
    rw [Vx_of_ne m c b (fun e => (Finset.mem_sdiff.mp hb).2 (Finset.mem_image.mpr ⟨5, Finset.mem_univ _, e.symm⟩))]

set_option backward.isDefEq.respectTransparency.types false in
/-- THE REGION over the thread state: entered from every unscoped buffer at the entry contents, left with the result array at
    what the write-backs made of it; the generator register into the invariant and out; nothing owed; no semaphore of the
    kernel's own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (W2 m c) ∗ R c)
  post c := iprop(StableHlo.held (c : Thread nD τ) (Pipeline.ucRefs τ sig) (Vx m c) ∗ R c)
  X c := iprop(∃ r, prngReg c r)
  Y c := iprop(∃ r, prngReg c r)
  Z c := Pipeline.unscopedRest (Ix := Unit) (Name := ℕ) (U := UR sig nD τ) (Lvl := ℕ) spec0 c (V m c)
  hentry c := by
    rw [Pipeline.ownSems0_none]
    have hsplit := held_split m c
    rw [V0_eq m c] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show _ ⊢ Pipeline.ΦA spec0 c from by
      unfold Pipeline.ΦA
      iintro ⟨Hp, -, Hr⟩
      isplitl [Hr]; · iexact Hr
      iexact Hp).trans (hin m c)
  hout c := (hout m c).trans (by
      rw [Pipeline.ownSems0_none]; unfold Pipeline.ΦA
      iintro ⟨Hr, Hp⟩
      isplitl [Hp]; · iexact Hp
      isplitr; · iempintro
      iexact Hr)
  hexit c := by
    have hjoin := held_join m c
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-- @main's four segments in order: the row norms, the rest of the host prefix, the region, the total sum. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .region (reg0 m),
    .host (hseg hostOps1 hostOps1_sub hostOps1_fresh (fun c => Vx m c)) ]
/-- @main IS the run of the segments. -/
theorem main_run (c : Dev nD) : main (F := F) c = Pipeline.Seg.run (segs m) := (main_chain c).trans (by chain_rfl)

variable (ρ : Dev nD → PrngReg)

set_option backward.isDefEq.respectTransparency.types false in
/-- THE RUN. From any memory with zero counters every weakly fair execution of @main terminates without a fault, and every
    final state has every unscoped buffer at the last boundary's contents: in particular the result at what the total sum
    makes of the region's result array, and both arguments as launched. -/
theorem run_main : θ_run defs (onTc (τ := τ) (main (F := F))) ⟨m, fun _ => 0, ρ⟩ (fun r => ∀ c : Dev nD,
      r.2.mem ((c.tc : Thread nD τ).loc main_v8) = W4 m c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨h c _ (mem_uc main_v8 (by decide)),
       (h c _ (mem_uc main_arg0 (by decide))).trans (W4_main_arg0 m c),
       (h c _ (mem_uc main_arg1 (by decide))).trans (W4_main_arg1 m c)⟩)

/-- THE FRAME, at any instance: the run with the result forgotten. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.KernelIdeal.Tri

end
-- ==== Proof.KFinal.lean ====
/-
  The kernel's value: after the region and the total sum that follows it, the program's result is the loss of the
  two arguments.

  Fix a query block and a row of it. Over the block's eight key tiles the minimum column's entry for the row is
  opened at the first tile's masked minimum and then folded with each later tile's; each tile's masked minimum is the
  meet, over the tile's 1024 keys, of the row's similarity to the key where the labels agree and top elsewhere; the
  eight tiles are exactly the 8192 keys. So at the block's last tile the entry is the meet over all keys: the
  specification's hardest positive. The maximum column is the mirror image with joins and bottom. The block's output
  row is then the clipped difference of the two shifted norms of the unnormalised row: the specification's row loss.
  Each block is written back once, the eight blocks cover the result array, and the host sums it.
-/
import proofs.«151936_j61710090109327_2_alg».proof.Proof.KTiles
import proofs.«151936_j61710090109327_2_alg».proof.Proof.LibRunningFold
import proofs.«151936_j61710090109327_2_alg».proof.Proof.KLaunch

set_option maxRecDepth 16384

noncomputable section

namespace Cert.KernelIdeal.Tri

open Cert.KernelIdeal Cert.KernelIdeal.Gen Cert.KernelIdeal.Payloads
open Idealize.ShloMosaic Idealize.ShloMosaic.TcCoe Idealize.ShloMosaic.ValueIdx
open Idealize.SL Idealize.SL.Sem
open Idealize.ShloMosaic.Pipeline (Dat Cfg Window)
open scoped BigOperators

variable (m : (ℓ : Loc nD τ sig) → Buf (Elt Ideal) ℓ)

set_option maxHeartbeats 1600000 in
/-- At the last key tile of a query block the minimum column's entry for row `r` is the specification's hardest positive of that row: the column
    was opened at the block's first key tile and folded with each of the eight tiles, each tile's value is the meet over its 1024
    keys, and the eight tiles are all 8192 keys. -/
theorem colMin_closed (c : Dev nD) (t : Fin cfg0.N) (h7 : t.val % 8 = 7) (r : Fin 1024) :
    (outsAt m c t.val t.isLt).2.1 (ix2 r (0 : Fin 1)) = Cert.Spec.hardPos (xOf m c) (labsOf m c) (rowOf t r) := by
  rw [hardPos_eq]
  refine Cert.LibRunningFold.running_inf_tiled (P := 8) (N := cfg0.N) (by decide) 1024
    (fun n h => (outsAt m c n h).2.1 (ix2 r (0 : Fin 1)))
    (fun n h => tileMin m c ⟨n, h⟩ r)
    (fun n h h0 => colMin_open m c ⟨n, h⟩ h0 r)
    (fun n h h0 => colMin_next m c ⟨n, h⟩ h0 r)
    t.val t.isLt h7 (posOf m c (rowOf t r)) (fun a ha => ?_)
  have ha8 : a.val < 8 := a.isLt
  have e1 : rowOf (⟨8 * (t.val / 8) + a.val, ha⟩ : Fin cfg0.N) r = rowOf t r :=
    Fin.ext (by show 1024 * ((8 * (t.val / 8) + a.val) / 8) + r.val = 1024 * (t.val / 8) + r.val; omega)
  rw [tileMin_eq, e1]
  refine congrArg _ (funext fun b => congrArg _ (Fin.ext ?_))
  show b.val + 1024 * ((8 * (t.val / 8) + a.val) % 8) = b.val + 1024 * a.val
  omega

set_option maxHeartbeats 1600000 in
/-- At the last key tile of a query block the maximum column's entry for row `r` is the specification's hardest negative of that row: the column
    was opened at the block's first key tile and folded with each of the eight tiles, each tile's value is the join over its 1024
    keys, and the eight tiles are all 8192 keys. -/
theorem colMax_closed (c : Dev nD) (t : Fin cfg0.N) (h7 : t.val % 8 = 7) (r : Fin 1024) :
    (outsAt m c t.val t.isLt).2.2 (ix2 r (0 : Fin 1)) = Cert.Spec.hardNeg (xOf m c) (labsOf m c) (rowOf t r) := by
  rw [hardNeg_eq]
  refine Cert.LibRunningFold.running_sup_tiled (P := 8) (N := cfg0.N) (by decide) 1024
    (fun n h => (outsAt m c n h).2.2 (ix2 r (0 : Fin 1)))
    (fun n h => tileMax m c ⟨n, h⟩ r)
    (fun n h h0 => colMax_open m c ⟨n, h⟩ h0 r)
    (fun n h h0 => colMax_next m c ⟨n, h⟩ h0 r)
    t.val t.isLt h7 (negOf m c (rowOf t r)) (fun a ha => ?_)
  have ha8 : a.val < 8 := a.isLt
  have e1 : rowOf (⟨8 * (t.val / 8) + a.val, ha⟩ : Fin cfg0.N) r = rowOf t r :=
    Fin.ext (by show 1024 * ((8 * (t.val / 8) + a.val) / 8) + r.val = 1024 * (t.val / 8) + r.val; omega)
  rw [tileMax_eq, e1]
  refine congrArg _ (funext fun b => congrArg _ (Fin.ext ?_))
  show b.val + 1024 * ((8 * (t.val / 8) + a.val) % 8) = b.val + 1024 * a.val
  omega

/-- Row `r` of the output block at the last key tile of its query block is the specification's loss of that row. -/
theorem out_rowLoss (c : Dev nD) (t : Fin cfg0.N) (h7 : t.val % 8 = 7) (r : Fin 1024) :
    (outsAt m c t.val t.isLt).1 (ix2 (0 : Fin 1) r) = Cert.Spec.rowLoss (xOf m c) (labsOf m c) (rowOf t r) := by
  have h0 : ¬t.val % 8 = 0 := by omega
  rw [out_row m c t h0 h7 r, colMin_closed m c t h7 r, colMax_closed m c t h7 r]
  simp only [xRows_apply]
  rfl

/-- The result array when the region is left: entry `n` is row `n`'s loss (each block is written back once, at its last key
    tile, and the eight blocks cover the array). -/
theorem result_rows (c : Dev nD) :
    (dats m 0 c).arrAt 5 cfg0.N = fun k : S1x8192.Idx => Cert.Spec.rowLoss (xOf m c) (labsOf m c) ⟨(k 1).val, idx2_lt1 k⟩ :=
  result_of_rows m c _ (fun t h7 r => (out_rowLoss m c t h7 r).trans rfl)

/-- THE VALUE. The program's result, after the total sum that follows the region, is the loss of the two arguments as launched. -/
theorem result_eq (c : Dev nD) :
    W4 m c (Proc.devRef .tc main_v8) = fun _ => Cert.Spec.loss (m ((c.tc : Thread nD τ).loc main_arg0)) (m ((c.tc : Thread nD τ).loc main_arg1)) := by
  refine Cert.KernelIdeal.HostVal.tail_loss (Vx m c) (xOf m c) (labsOf m c) (fun n => ?_)
  show (Vx m c (Proc.devRef .tc main_v7) : S1x8192.Idx → EReal) (ix2 (0 : Fin 1) n) = _
  rw [Vx_out, result_rows]

end Cert.KernelIdeal.Tri

end
-- ==== Proof.lean ====
/-
  The five claims about the hard-mined triplet loss kernel and its reference, assembled.

  Both programs normalise the 8192 embedding rows, take all pairwise inner products, find for each row the
  least similar row of its own label and the most similar row of another label, shift the unnormalised row by
  each of the two numbers, take the two Euclidean norms, and sum the clipped differences. The reference does
  each step on whole arrays. The kernel walks an 8 x 8 grid of query blocks by key tiles, keeping a running
  minimum and a running maximum per query row across the key tiles of a block and finishing the block's 1024
  row losses at its last key tile; the host then sums the 8192 losses. On the extended reals the two agree
  because a meet (a join, a sum) over 8192 keys is the meet (join, sum) of the eight tiles' meets, with top
  (bottom, zero) the empty one: no entry needs to be finite for that.

  The frames: the reference is host operations only and its run is read back whole; the kernel's run is the
  launch of its one region between three stretches of host operations, at machine words and at extended reals
  alike. The idealisation rewrote nothing, so there is nothing to preserve beyond the text itself.
-/
import proofs.«151936_j61710090109327_2_alg».proof.Defs
import proofs.«151936_j61710090109327_2_alg».proof.Proof.Gen.Kernel
import proofs.«151936_j61710090109327_2_alg».proof.Proof.Gen.KernelIdeal
import proofs.«151936_j61710090109327_2_alg».proof.Proof.Gen.ReferenceIdeal
import proofs.«151936_j61710090109327_2_alg».proof.Proof.Gen.Pre_finite_inputs
import proofs.«151936_j61710090109327_2_alg».proof.Proof.RefFrame
import proofs.«151936_j61710090109327_2_alg».proof.Proof.RefValue
import proofs.«151936_j61710090109327_2_alg».proof.Proof.BLaunch
import proofs.«151936_j61710090109327_2_alg».proof.Proof.KFinal

noncomputable section

namespace Cert.Proof

open Idealize.ShloMosaic Idealize.ShloMosaic.TcCoe Idealize.SL.Sem

/-- The word-level kernel terminates without a fault and leaves both arguments unchanged. -/
theorem frame_p : Cert.frame_Kernel := fun m ρ _ => Cert.Kernel.Tri.frame (F := Bits) m ρ

/-- So does the kernel read at the extended reals. -/
theorem frame_pi : Cert.frame_KernelIdeal := fun m ρ _ => Cert.KernelIdeal.Tri.frame (F := Ideal) m ρ

/-- From memories agreeing on the two arguments both programs end with the loss of those arguments in their result. -/
theorem algebraic : Cert.algebraic_KernelIdeal_ReferenceIdeal := by
  intro m ρ m' ρ' _ hagree
  refine ⟨fun c => fun _ => Cert.Spec.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono (fun _ h c => ⟨(h c).1.trans (Cert.KernelIdeal.Tri.result_eq m c), (h c).2⟩)
      (Cert.KernelIdeal.Tri.run_main (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v33_eq, Cert.ReferenceIdeal.RefValue.ref_eq_loss, (hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_p, frame_pi, Cert.Proof.Claims.frame_ri, Cert.Proof.Claims.preserves, algebraic⟩

end Cert.Proof

end
